-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v128)) (v1 : (c : Dev Cert.KernelIdeal.nD) → Buf (Elt Ideal) ((c.tc : Thread Cert.KernelIdeal.nD Cert.KernelIdeal.τ).loc Cert.KernelIdeal.main_v129)) (v2 : (c : Dev Cert.KernelIdeal.nD) → Buf (Elt Ideal) ((c.tc : Thread Cert.KernelIdeal.nD Cert.KernelIdeal.τ).loc Cert.KernelIdeal.main_v130)) (v3 : (c : Dev Cert.KernelIdeal.nD) → Buf (Elt Ideal) ((c.tc : Thread Cert.KernelIdeal.nD Cert.KernelIdeal.τ).loc Cert.KernelIdeal.main_v131)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v128) = v0 c
          ∧ r.2.mem ((c.tc : Thread Cert.KernelIdeal.nD Cert.KernelIdeal.τ).loc Cert.KernelIdeal.main_v129) = v1 c
          ∧ r.2.mem ((c.tc : Thread Cert.KernelIdeal.nD Cert.KernelIdeal.τ).loc Cert.KernelIdeal.main_v130) = v2 c
          ∧ r.2.mem ((c.tc : Thread Cert.KernelIdeal.nD Cert.KernelIdeal.τ).loc Cert.KernelIdeal.main_v131) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_v129) = v1 c
          ∧ r.2.mem ((c.tc : Thread Cert.ReferenceIdeal.nD Cert.ReferenceIdeal.τ).loc Cert.ReferenceIdeal.main_v130) = v2 c
          ∧ r.2.mem ((c.tc : Thread Cert.ReferenceIdeal.nD Cert.ReferenceIdeal.τ).loc Cert.ReferenceIdeal.main_v131) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x8x1024 : Shape := ⟨3, ![256, 8, 1024]⟩
abbrev S4096x8x1024 : Shape := ⟨3, ![4096, 8, 1024]⟩
abbrev S256 : Shape := ⟨1, ![256]⟩
abbrev S_ : Shape := ⟨0, ![]⟩
abbrev S3 : Shape := ⟨1, ![3]⟩

class Facts : Prop where
  bcast_S_S256x8x1024 : S_.BroadcastsInDim S256x8x1024 (![] : Fin 0 → Fin S256x8x1024.rank)
  reducesTo_S256x8x1024_S_d0_1_2 : S256x8x1024.ReducesTo [0, 1, 2] S_
  h_S_ : 0 < S_.numel
  bcast_S_S4096x8x1024 : S_.BroadcastsInDim S4096x8x1024 (![] : Fin 0 → Fin S4096x8x1024.rank)
  reducesTo_S4096x8x1024_S_d0_1_2 : S4096x8x1024.ReducesTo [0, 1, 2] S_
  reducesTo_S_S_d : S_.ReducesTo [] S_
  bcast_S_S3 : S_.BroadcastsInDim S3 (![] : Fin 0 → Fin S3.rank)
  reducesTo_S3_S_d0 : S3.ReducesTo [0] S_

variable [Facts]

def fn_part1 {F : FTy → Type} [FloatOps F] (main_v12 : IVec S_ 1) (main_v15 : IVec S3 1) (main_c_5 : IVec S_ 1) : IVec S_ 1 :=
  let main_v16 : IVec S_ 1 := (fun x v => Host.reduce IntOp.andi x v reducesTo_S3_S_d0 h_S_) main_v15 main_c_5
  let main_v17 : IVec S_ 1 := andi main_v12 main_v16
  main_v17

def fn {F : FTy → Type} [FloatOps F] (main_arg0 : FVec F S256x8x1024 .f32) (main_arg1 : FVec F S4096x8x1024 .f32) (main_arg2 : IVec S256 32) (main_arg3 : FVec F S_ .f32) (main_arg4 : FVec F S3 .f32) : IVec S_ 1 :=
  let main_v0 : FVec F S256x8x1024 .f32 := Host.absf main_arg0
  let main_cst : FVec F S_ .f32 := constant S_ .f32 0x7F800000#32
  let main_v1 : FVec F S256x8x1024 .f32 := broadcastInDim S256x8x1024 ![] bcast_S_S256x8x1024 main_cst
  let main_v2 : IVec S256x8x1024 1 := cmpf .olt main_v0 main_v1
  let main_c : IVec S_ 1 := constantI S_ 1 1#1
  let main_v3 : IVec S_ 1 := (fun x v => Host.reduce IntOp.andi x v reducesTo_S256x8x1024_S_d0_1_2 h_S_) main_v2 main_c
  let main_v4 : FVec F S4096x8x1024 .f32 := Host.absf main_arg1
  let main_cst_0 : FVec F S_ .f32 := constant S_ .f32 0x7F800000#32
  let main_v5 : FVec F S4096x8x1024 .f32 := broadcastInDim S4096x8x1024 ![] bcast_S_S4096x8x1024 main_cst_0
  let main_v6 : IVec S4096x8x1024 1 := cmpf .olt main_v4 main_v5
  let main_c_1 : IVec S_ 1 := constantI S_ 1 1#1
  let main_v7 : IVec S_ 1 := (fun x v => Host.reduce IntOp.andi x v reducesTo_S4096x8x1024_S_d0_1_2 h_S_) main_v6 main_c_1
  let main_v8 : IVec S_ 1 := andi main_v3 main_v7
  let main_v9 : FVec F S_ .f32 := Host.absf main_arg3
  let main_cst_2 : FVec F S_ .f32 := constant S_ .f32 0x7F800000#32
  let main_v10 : IVec S_ 1 := cmpf .olt main_v9 main_cst_2
  let main_c_3 : IVec S_ 1 := constantI S_ 1 1#1
  let main_v11 : IVec S_ 1 := (fun x v => Host.reduce IntOp.andi x v reducesTo_S_S_d h_S_) main_v10 main_c_3
  let main_v12 : IVec S_ 1 := andi main_v8 main_v11
  let main_v13 : FVec F S3 .f32 := Host.absf main_arg4
  let main_cst_4 : FVec F S_ .f32 := constant S_ .f32 0x7F800000#32
  let main_v14 : FVec F S3 .f32 := broadcastInDim S3 ![] bcast_S_S3 main_cst_4
  let main_v15 : IVec S3 1 := cmpf .olt main_v13 main_v14
  let main_c_5 : IVec S_ 1 := constantI S_ 1 1#1
  fn_part1 (F := F) main_v12 main_v15 main_c_5
-- ==== Kernel.lean ====
abbrev S256x8x1024 : Shape := ⟨3, ![256, 8, 1024]⟩
abbrev S4096x8x1024 : Shape := ⟨3, ![4096, 8, 1024]⟩
abbrev S256 : Shape := ⟨1, ![256]⟩
abbrev S_ : Shape := ⟨0, ![]⟩
abbrev S3 : Shape := ⟨1, ![3]⟩
abbrev S64x8x1024 : Shape := ⟨3, ![64, 8, 1024]⟩
abbrev S256x1 : Shape := ⟨2, ![256, 1]⟩
abbrev S64 : Shape := ⟨1, ![64]⟩
abbrev S64x1x1 : Shape := ⟨3, ![64, 1, 1]⟩
abbrev S4096x8 : Shape := ⟨2, ![4096, 8]⟩
abbrev S4096x8x1 : Shape := ⟨3, ![4096, 8, 1]⟩
abbrev S64x8 : Shape := ⟨2, ![64, 8]⟩
abbrev S64x8x1 : Shape := ⟨3, ![64, 8, 1]⟩
abbrev S8x64x1024 : Shape := ⟨3, ![8, 64, 1024]⟩
abbrev S512x1024 : Shape := ⟨2, ![512, 1024]⟩
abbrev S1024x512 : Shape := ⟨2, ![1024, 512]⟩
abbrev S4096x64 : Shape := ⟨2, ![4096, 64]⟩
abbrev S256x64 : Shape := ⟨2, ![256, 64]⟩
abbrev S256x1x1024 : Shape := ⟨3, ![256, 1, 1024]⟩
abbrev S256x1024 : Shape := ⟨2, ![256, 1024]⟩
abbrev S256x512 : Shape := ⟨2, ![256, 512]⟩
abbrev S256x4x1024 : Shape := ⟨3, ![256, 4, 1024]⟩
abbrev S256x3x1024 : Shape := ⟨3, ![256, 3, 1024]⟩
abbrev S4096x4x1024 : Shape := ⟨3, ![4096, 4, 1024]⟩
abbrev S4096x1024 : Shape := ⟨2, ![4096, 1024]⟩
abbrev S4096x1x1024 : Shape := ⟨3, ![4096, 1, 1024]⟩
abbrev S4096x3x1024 : Shape := ⟨3, ![4096, 3, 1024]⟩
abbrev S64x3x1024 : Shape := ⟨3, ![64, 3, 1024]⟩
abbrev S4096x3 : Shape := ⟨2, ![4096, 3]⟩
abbrev S4096x3x1 : Shape := ⟨3, ![4096, 3, 1]⟩
abbrev S64x3 : Shape := ⟨2, ![64, 3]⟩
abbrev S64x3x1 : Shape := ⟨3, ![64, 3, 1]⟩
abbrev S3x64x1024 : Shape := ⟨3, ![3, 64, 1024]⟩
abbrev S192x1024 : Shape := ⟨2, ![192, 1024]⟩
abbrev S1024x192 : Shape := ⟨2, ![1024, 192]⟩
abbrev S256x192 : Shape := ⟨2, ![256, 192]⟩
abbrev S1 : Shape := ⟨1, ![1]⟩

abbrev nBuf : Space → Nat
  | .hbm => 170
  | .vmem => 14
  | .smem => 0
  | _ => 0

abbrev hbmTy0_0 (i : Nat) : BufTy := match i % 128 with
  | 0 => ⟨S256x8x1024, .f32⟩
  | 1 => ⟨S4096x8x1024, .f32⟩
  | 2 => ⟨S256, .i32⟩
  | 3 => ⟨S_, .f32⟩
  | 4 => ⟨S3, .f32⟩
  | 5 => ⟨S_, .f32⟩
  | 6 => ⟨S64x8x1024, .f32⟩
  | 7 => ⟨S256x1, .i32⟩
  | 8 => ⟨S64x8x1024, .f32⟩
  | 9 => ⟨S_, .f32⟩
  | 10 => ⟨S256, .f32⟩
  | 11 => ⟨S_, .f32⟩
  | 12 => ⟨S64, .f32⟩
  | 13 => ⟨S256x1, .i32⟩
  | 14 => ⟨S64, .f32⟩
  | 15 => ⟨S_, .f32⟩
  | 16 => ⟨S64, .f32⟩
  | 17 => ⟨S64, .f32⟩
  | 18 => ⟨S64x1x1, .f32⟩
  | 19 => ⟨S64x8x1024, .f32⟩
  | 20 => ⟨S64x8x1024, .f32⟩
  | 21 => ⟨S4096x8x1024, .f32⟩
  | 22 => ⟨S_, .f32⟩
  | 23 => ⟨S4096x8, .f32⟩
  | 24 => ⟨S4096x8x1, .f32⟩
  | 25 => ⟨S4096x8x1, .f32⟩
  | 26 => ⟨S_, .f32⟩
  | 27 => ⟨S4096x8x1, .f32⟩
  | 28 => ⟨S4096x8x1, .f32⟩
  | 29 => ⟨S4096x8x1024, .f32⟩
  | 30 => ⟨S4096x8x1024, .f32⟩
  | 31 => ⟨S64x8x1024, .f32⟩
  | 32 => ⟨S_, .f32⟩
  | 33 => ⟨S64x8, .f32⟩
  | 34 => ⟨S64x8x1, .f32⟩
  | 35 => ⟨S64x8x1, .f32⟩
  | 36 => ⟨S_, .f32⟩
  | 37 => ⟨S64x8x1, .f32⟩
  | 38 => ⟨S64x8x1, .f32⟩
  | 39 => ⟨S64x8x1024, .f32⟩
  | 40 => ⟨S64x8x1024, .f32⟩
  | 41 => ⟨S8x64x1024, .f32⟩
  | 42 => ⟨S512x1024, .f32⟩
  | 43 => ⟨S1024x512, .f32⟩
  | 44 => ⟨S4096x8x1024, .bf16⟩
  | 45 => ⟨S1024x512, .bf16⟩
  | 46 => ⟨S4096x64, .f32⟩
  | 47 => ⟨S4096x64, .f32⟩
  | 48 => ⟨S4096x64, .f32⟩
  | 49 => ⟨S256x4x1024, .f32⟩
  | 50 => ⟨S_, .f32⟩
  | 51 => ⟨S256x1024, .f32⟩
  | 52 => ⟨S_, .f32⟩
  | 53 => ⟨S256x1024, .f32⟩
  | 54 => ⟨S256x1024, .f32⟩
  | 55 => ⟨S256x4x1024, .f32⟩
  | 56 => ⟨S_, .f32⟩
  | 57 => ⟨S256x1024, .f32⟩
  | 58 => ⟨S_, .f32⟩
  | 59 => ⟨S256x1024, .f32⟩
  | 60 => ⟨S256x1024, .f32⟩
  | 61 => ⟨S256x4x1024, .f32⟩
  | 62 => ⟨S_, .f32⟩
  | 63 => ⟨S256x1024, .f32⟩
  | 64 => ⟨S_, .f32⟩
  | 65 => ⟨S256x1024, .f32⟩
  | 66 => ⟨S256x1024, .f32⟩
  | 67 => ⟨S256x1x1024, .f32⟩
  | 68 => ⟨S256x1x1024, .f32⟩
  | 69 => ⟨S256x1x1024, .f32⟩
  | 70 => ⟨S256x3x1024, .f32⟩
  | 71 => ⟨S4096x4x1024, .f32⟩
  | 72 => ⟨S_, .f32⟩
  | 73 => ⟨S4096x1024, .f32⟩
  | 74 => ⟨S_, .f32⟩
  | 75 => ⟨S4096x1024, .f32⟩
  | 76 => ⟨S4096x1024, .f32⟩
  | 77 => ⟨S4096x4x1024, .f32⟩
  | 78 => ⟨S_, .f32⟩
  | 79 => ⟨S4096x1024, .f32⟩
  | 80 => ⟨S_, .f32⟩
  | 81 => ⟨S4096x1024, .f32⟩
  | 82 => ⟨S4096x1024, .f32⟩
  | 83 => ⟨S4096x4x1024, .f32⟩
  | 84 => ⟨S_, .f32⟩
  | 85 => ⟨S4096x1024, .f32⟩
  | 86 => ⟨S_, .f32⟩
  | 87 => ⟨S4096x1024, .f32⟩
  | 88 => ⟨S4096x1024, .f32⟩
  | 89 => ⟨S4096x1x1024, .f32⟩
  | 90 => ⟨S4096x1x1024, .f32⟩
  | 91 => ⟨S4096x1x1024, .f32⟩
  | 92 => ⟨S4096x3x1024, .f32⟩
  | 93 => ⟨S_, .f32⟩
  | 94 => ⟨S64x3x1024, .f32⟩
  | 95 => ⟨S256x1, .i32⟩
  | 96 => ⟨S64x3x1024, .f32⟩
  | 97 => ⟨S_, .f32⟩
  | 98 => ⟨S256, .f32⟩
  | 99 => ⟨S_, .f32⟩
  | 100 => ⟨S64, .f32⟩
  | 101 => ⟨S256x1, .i32⟩
  | 102 => ⟨S64, .f32⟩
  | 103 => ⟨S_, .f32⟩
  | 104 => ⟨S64, .f32⟩
  | 105 => ⟨S64, .f32⟩
  | 106 => ⟨S64x1x1, .f32⟩
  | 107 => ⟨S64x3x1024, .f32⟩
  | 108 => ⟨S64x3x1024, .f32⟩
  | 109 => ⟨S4096x3x1024, .f32⟩
  | 110 => ⟨S_, .f32⟩
  | 111 => ⟨S4096x3, .f32⟩
  | 112 => ⟨S4096x3x1, .f32⟩
  | 113 => ⟨S4096x3x1, .f32⟩
  | 114 => ⟨S_, .f32⟩
  | 115 => ⟨S4096x3x1, .f32⟩
  | 116 => ⟨S4096x3x1, .f32⟩
  | 117 => ⟨S4096x3x1024, .f32⟩
  | 118 => ⟨S4096x3x1024, .f32⟩
  | 119 => ⟨S64x3x1024, .f32⟩
  | 120 => ⟨S_, .f32⟩
  | 121 => ⟨S64x3, .f32⟩
  | 122 => ⟨S64x3x1, .f32⟩
  | 123 => ⟨S64x3x1, .f32⟩
  | 124 => ⟨S_, .f32⟩
  | 125 => ⟨S64x3x1, .f32⟩
  | 126 => ⟨S64x3x1, .f32⟩
  | 127 => ⟨S64x3x1024, .f32⟩
  | _ => ⟨S256x8x1024, .f32⟩

abbrev hbmTy0_1 (i : Nat) : BufTy := match i % 128 with
  | 0 => ⟨S64x3x1024, .f32⟩
  | 1 => ⟨S3x64x1024, .f32⟩
  | 2 => ⟨S192x1024, .f32⟩
  | 3 => ⟨S1024x192, .f32⟩
  | 4 => ⟨S4096x3x1024, .bf16⟩
  | 5 => ⟨S1024x192, .bf16⟩
  | 6 => ⟨S4096x64, .f32⟩
  | 7 => ⟨S4096x64, .f32⟩
  | 8 => ⟨S_, .f32⟩
  | 9 => ⟨S_, .f32⟩
  | 10 => ⟨S_, .f32⟩
  | 11 => ⟨S_, .f32⟩
  | 12 => ⟨S1, .f32⟩
  | 13 => ⟨S3, .f32⟩
  | 14 => ⟨S3, .f32⟩
  | 15 => ⟨S3, .f32⟩
  | 16 => ⟨S_, .f32⟩
  | 17 => ⟨S_, .f32⟩
  | 18 => ⟨S1, .f32⟩
  | 19 => ⟨S3, .f32⟩
  | 20 => ⟨S3, .f32⟩
  | 21 => ⟨S1, .f32⟩
  | 22 => ⟨S_, .f32⟩
  | 23 => ⟨S4096x64, .f32⟩
  | 24 => ⟨S4096x64, .f32⟩
  | 25 => ⟨S1, .f32⟩
  | 26 => ⟨S_, .f32⟩
  | 27 => ⟨S4096x64, .f32⟩
  | 28 => ⟨S4096x64, .f32⟩
  | 29 => ⟨S4096x64, .f32⟩
  | 30 => ⟨S1, .f32⟩
  | 31 => ⟨S_, .f32⟩
  | 32 => ⟨S4096x64, .f32⟩
  | 33 => ⟨S4096x64, .f32⟩
  | 34 => ⟨S4096x64, .f32⟩
  | 35 => ⟨S_, .f32⟩
  | 36 => ⟨S4096x64, .f32⟩
  | 37 => ⟨S4096x64, .f32⟩
  | 38 => ⟨S4096x64, .f32⟩
  | 39 => ⟨S4096x64, .f32⟩
  | 40 => ⟨S4096x64, .f32⟩
  | 41 => ⟨S4096x64, .f32⟩
  | _ => ⟨S256x8x1024, .f32⟩

abbrev hbmTy (i : Nat) : BufTy := match i / 128 with
  | 0 => hbmTy0_0 i
  | 1 => hbmTy0_1 i
  | _ => ⟨S256x8x1024, .f32⟩

abbrev bufTy : (tb : Table) → Fin (tcTables nBuf tb) → BufTy
  | .hbm, ⟨i, _⟩ => hbmTy i
  | .local _ .vmem, ⟨0, _⟩ => ⟨S256x8x1024, .bf16⟩
  | .local _ .vmem, ⟨1, _⟩ => ⟨S256x8x1024, .bf16⟩
  | .local _ .vmem, ⟨2, _⟩ => ⟨S1024x512, .bf16⟩
  | .local _ .vmem, ⟨3, _⟩ => ⟨S256x64, .f32⟩
  | .local _ .vmem, ⟨4, _⟩ => ⟨S256x64, .f32⟩
  | .local _ .vmem, ⟨5, _⟩ => ⟨S256x64, .f32⟩
  | .local _ .vmem, ⟨6, _⟩ => ⟨S256x64, .f32⟩
  | .local _ .vmem, ⟨7, _⟩ => ⟨S256x3x1024, .bf16⟩
  | .local _ .vmem, ⟨8, _⟩ => ⟨S256x3x1024, .bf16⟩
  | .local _ .vmem, ⟨9, _⟩ => ⟨S1024x192, .bf16⟩
  | .local _ .vmem, ⟨10, _⟩ => ⟨S256x64, .f32⟩
  | .local _ .vmem, ⟨11, _⟩ => ⟨S256x64, .f32⟩
  | .local _ .vmem, ⟨12, _⟩ => ⟨S256x64, .f32⟩
  | .local _ .vmem, ⟨13, _⟩ => ⟨S256x64, .f32⟩
  | _, _ => ⟨S256x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33_0 : Ref sig .tc := ⟨.hbm, 46, rfl⟩
abbrev main_v33_1 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_cst_10 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_11 : Ref sig .tc := ⟨.hbm, 62, rfl⟩
abbrev main_v44 : Ref sig .tc := ⟨.hbm, 63, rfl⟩
abbrev main_cst_12 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_13 : Ref sig .tc := ⟨.hbm, 72, rfl⟩
abbrev main_v52 : Ref sig .tc := ⟨.hbm, 73, rfl⟩
abbrev main_cst_14 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_15 : Ref sig .tc := ⟨.hbm, 78, rfl⟩
abbrev main_v56 : Ref sig .tc := ⟨.hbm, 79, rfl⟩
abbrev main_cst_16 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_17 : Ref sig .tc := ⟨.hbm, 84, rfl⟩
abbrev main_v60 : Ref sig .tc := ⟨.hbm, 85, rfl⟩
abbrev main_cst_18 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_19 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_20 : Ref sig .tc := ⟨.hbm, 97, rfl⟩
abbrev main_v70 : Ref sig .tc := ⟨.hbm, 98, rfl⟩
abbrev main_cst_21 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_22 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_23 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_24 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_cst_25 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_cst_26 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100_0 : Ref sig .tc := ⟨.hbm, 134, rfl⟩
abbrev main_v100_1 : Ref sig .tc := ⟨.hbm, 135, rfl⟩
abbrev main_cst_27 : Ref sig .tc := ⟨.hbm, 136, rfl⟩
abbrev main_v101 : Ref sig .tc := ⟨.hbm, 137, rfl⟩
abbrev main_cst_28 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_cst_29 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x3x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x192 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S64x8x1024 : S_.BroadcastsInDim S64x8x1024 (![] : Fin 0 → Fin S64x8x1024.rank)
  bcast_S256_S256x1_0 : S256.BroadcastsInDim S256x1 (![0] : Fin 1 → Fin S256x1.rank)
  bcast_S_S256 : S_.BroadcastsInDim S256 (![] : Fin 0 → Fin S256.rank)
  bcast_S_S64 : S_.BroadcastsInDim S64 (![] : Fin 0 → Fin S64.rank)
  bcast_S64_S64x1x1_0 : S64.BroadcastsInDim S64x1x1 (![0] : Fin 1 → Fin S64x1x1.rank)
  bcast_S64x1x1_S64x8x1024_0_1_2 : S64x1x1.BroadcastsInDim S64x8x1024 (![0, 1, 2] : Fin 3 → Fin S64x8x1024.rank)
  reducesTo_S4096x8x1024_S4096x8_d2 : S4096x8x1024.ReducesTo [2] S4096x8
  h_S_ : 0 < S_.numel
  bcast_S4096x8_S4096x8x1_0_1 : S4096x8.BroadcastsInDim S4096x8x1 (![0, 1] : Fin 2 → Fin S4096x8x1.rank)
  bcast_S_S4096x8x1 : S_.BroadcastsInDim S4096x8x1 (![] : Fin 0 → Fin S4096x8x1.rank)
  bcast_S4096x8x1_S4096x8x1024_0_1_2 : S4096x8x1.BroadcastsInDim S4096x8x1024 (![0, 1, 2] : Fin 3 → Fin S4096x8x1024.rank)
  reducesTo_S64x8x1024_S64x8_d2 : S64x8x1024.ReducesTo [2] S64x8
  bcast_S64x8_S64x8x1_0_1 : S64x8.BroadcastsInDim S64x8x1 (![0, 1] : Fin 2 → Fin S64x8x1.rank)
  bcast_S_S64x8x1 : S_.BroadcastsInDim S64x8x1 (![] : Fin 0 → Fin S64x8x1.rank)
  bcast_S64x8x1_S64x8x1024_0_1_2 : S64x8x1.BroadcastsInDim S64x8x1024 (![0, 1, 2] : Fin 3 → Fin S64x8x1024.rank)
  transposes_S64x8x1024_S8x64x1024_1_0_2 : S64x8x1024.Transposes [1, 0, 2] S8x64x1024
  shapeCasts_S8x64x1024_S512x1024 : S8x64x1024.ShapeCasts S512x1024
  transposes_S512x1024_S1024x512_1_0 : S512x1024.Transposes [1, 0] S1024x512
  bitsLt_bf16_f32 : FTy.bits .bf16 < FTy.bits .f32
  inb_S256x8x1024_S256x8x1024_0_0_0 : ∀ a, (![0, 0, 0] : Fin 3 → Nat) a + S256x8x1024.size a ≤ S256x8x1024.size a
  h_S256x8x1024 : 0 < S256x8x1024.numel
  shapeCasts_S256x8x1024_S256x8x1024 : S256x8x1024.ShapeCasts S256x8x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  slices_S256x8x1024_o0_0_0_S256x1x1024 : S256x8x1024.Slices ![0, 0, 0] S256x1x1024
  shapeCasts_S256x1x1024_S256x1024 : S256x1x1024.ShapeCasts S256x1024
  slices_S256x512_o0_0_S256x64 : S256x512.Slices ![0, 0] S256x64
  slices_S256x512_o0_64_S256x64 : S256x512.Slices ![0, 64] S256x64
  slices_S256x512_o0_128_S256x64 : S256x512.Slices ![0, 128] S256x64
  slices_S256x512_o0_192_S256x64 : S256x512.Slices ![0, 192] S256x64
  slices_S256x512_o0_256_S256x64 : S256x512.Slices ![0, 256] S256x64
  slices_S256x512_o0_320_S256x64 : S256x512.Slices ![0, 320] S256x64
  slices_S256x512_o0_384_S256x64 : S256x512.Slices ![0, 384] S256x64
  slices_S256x512_o0_448_S256x64 : S256x512.Slices ![0, 448] S256x64
  slices_S256x8x1024_o0_1_0_S256x1x1024 : S256x8x1024.Slices ![0, 1, 0] S256x1x1024
  slices_S256x8x1024_o0_2_0_S256x1x1024 : S256x8x1024.Slices ![0, 2, 0] S256x1x1024
  slices_S256x8x1024_o0_3_0_S256x1x1024 : S256x8x1024.Slices ![0, 3, 0] S256x1x1024
  slices_S256x8x1024_o0_4_0_S256x1x1024 : S256x8x1024.Slices ![0, 4, 0] S256x1x1024
  slices_S256x8x1024_o0_5_0_S256x1x1024 : S256x8x1024.Slices ![0, 5, 0] S256x1x1024
  slices_S256x8x1024_o0_6_0_S256x1x1024 : S256x8x1024.Slices ![0, 6, 0] S256x1x1024
  slices_S256x8x1024_o0_7_0_S256x1x1024 : S256x8x1024.Slices ![0, 7, 0] S256x1x1024
  inb_S256x64_S256x64_0_0 : ∀ a, (![0, 0] : Fin 2 → Nat) a + S256x64.size a ≤ S256x64.size a
  h_S256x64 : 0 < S256x64.numel
  slices_S256x8x1024_S256x4x1024_0_0_0 : S256x8x1024.Slices ![0, 0, 0] S256x4x1024
  reducesTo_S256x4x1024_S256x1024_d1 : S256x4x1024.ReducesTo [1] S256x1024
  bcast_S_S256x1024 : S_.BroadcastsInDim S256x1024 (![] : Fin 0 → Fin S256x1024.rank)
  slices_S256x8x1024_S256x4x1024_0_2_0 : S256x8x1024.Slices ![0, 2, 0] S256x4x1024
  slices_S256x8x1024_S256x4x1024_0_4_0 : S256x8x1024.Slices ![0, 4, 0] S256x4x1024
  bcast_S256x1024_S256x1x1024_0_2 : S256x1024.BroadcastsInDim S256x1x1024 (![0, 2] : Fin 2 → Fin S256x1x1024.rank)
  concatenates_S256x1x1024_S256x1x1024_S256x1x1024_S256x3x1024_d1 : Shape.Concatenates [S256x1x1024, S256x1x1024, S256x1x1024] S256x3x1024 1
  slices_S4096x8x1024_S4096x4x1024_0_0_0 : S4096x8x1024.Slices ![0, 0, 0] S4096x4x1024
  reducesTo_S4096x4x1024_S4096x1024_d1 : S4096x4x1024.ReducesTo [1] S4096x1024
  bcast_S_S4096x1024 : S_.BroadcastsInDim S4096x1024 (![] : Fin 0 → Fin S4096x1024.rank)
  slices_S4096x8x1024_S4096x4x1024_0_2_0 : S4096x8x1024.Slices ![0, 2, 0] S4096x4x1024
  slices_S4096x8x1024_S4096x4x1024_0_4_0 : S4096x8x1024.Slices ![0, 4, 0] S4096x4x1024
  bcast_S4096x1024_S4096x1x1024_0_2 : S4096x1024.BroadcastsInDim S4096x1x1024 (![0, 2] : Fin 2 → Fin S4096x1x1024.rank)
  concatenates_S4096x1x1024_S4096x1x1024_S4096x1x1024_S4096x3x1024_d1 : Shape.Concatenates [S4096x1x1024, S4096x1x1024, S4096x1x1024] S4096x3x1024 1
  bcast_S_S64x3x1024 : S_.BroadcastsInDim S64x3x1024 (![] : Fin 0 → Fin S64x3x1024.rank)
  bcast_S64x1x1_S64x3x1024_0_1_2 : S64x1x1.BroadcastsInDim S64x3x1024 (![0, 1, 2] : Fin 3 → Fin S64x3x1024.rank)
  reducesTo_S4096x3x1024_S4096x3_d2 : S4096x3x1024.ReducesTo [2] S4096x3
  bcast_S4096x3_S4096x3x1_0_1 : S4096x3.BroadcastsInDim S4096x3x1 (![0, 1] : Fin 2 → Fin S4096x3x1.rank)
  bcast_S_S4096x3x1 : S_.BroadcastsInDim S4096x3x1 (![] : Fin 0 → Fin S4096x3x1.rank)
  bcast_S4096x3x1_S4096x3x1024_0_1_2 : S4096x3x1.BroadcastsInDim S4096x3x1024 (![0, 1, 2] : Fin 3 → Fin S4096x3x1024.rank)
  reducesTo_S64x3x1024_S64x3_d2 : S64x3x1024.ReducesTo [2] S64x3
  bcast_S64x3_S64x3x1_0_1 : S64x3.BroadcastsInDim S64x3x1 (![0, 1] : Fin 2 → Fin S64x3x1.rank)
  bcast_S_S64x3x1 : S_.BroadcastsInDim S64x3x1 (![] : Fin 0 → Fin S64x3x1.rank)
  bcast_S64x3x1_S64x3x1024_0_1_2 : S64x3x1.BroadcastsInDim S64x3x1024 (![0, 1, 2] : Fin 3 → Fin S64x3x1024.rank)
  transposes_S64x3x1024_S3x64x1024_1_0_2 : S64x3x1024.Transposes [1, 0, 2] S3x64x1024
  shapeCasts_S3x64x1024_S192x1024 : S3x64x1024.ShapeCasts S192x1024
  transposes_S192x1024_S1024x192_1_0 : S192x1024.Transposes [1, 0] S1024x192
  inb_S256x3x1024_S256x3x1024_0_0_0 : ∀ a, (![0, 0, 0] : Fin 3 → Nat) a + S256x3x1024.size a ≤ S256x3x1024.size a
  h_S256x3x1024 : 0 < S256x3x1024.numel
  shapeCasts_S256x3x1024_S256x3x1024 : S256x3x1024.ShapeCasts S256x3x1024
  inb_S1024x192_S1024x192_0_0 : ∀ a, (![0, 0] : Fin 2 → Nat) a + S1024x192.size a ≤ S1024x192.size a
  h_S1024x192 : 0 < S1024x192.numel
  shapeCasts_S1024x192_S1024x192 : S1024x192.ShapeCasts S1024x192
  slices_S256x3x1024_o0_0_0_S256x1x1024 : S256x3x1024.Slices ![0, 0, 0] S256x1x1024
  slices_S256x192_o0_0_S256x64 : S256x192.Slices ![0, 0] S256x64
  slices_S256x192_o0_64_S256x64 : S256x192.Slices ![0, 64] S256x64
  slices_S256x192_o0_128_S256x64 : S256x192.Slices ![0, 128] S256x64
  slices_S256x3x1024_o0_1_0_S256x1x1024 : S256x3x1024.Slices ![0, 1, 0] S256x1x1024
  slices_S256x3x1024_o0_2_0_S256x1x1024 : S256x3x1024.Slices ![0, 2, 0] S256x1x1024
  reducesTo_S3_S_d0 : S3.ReducesTo [0] S_
  bcast_S_S1 : S_.BroadcastsInDim S1 (![] : Fin 0 → Fin S1.rank)
  bcast_S1_S3_0 : S1.BroadcastsInDim S3 (![0] : Fin 1 → Fin S3.rank)
  slices_S3_S1_0 : S3.Slices ![0] S1
  shapeCasts_S1_S_ : S1.ShapeCasts S_
  bcast_S_S4096x64 : S_.BroadcastsInDim S4096x64 (![] : Fin 0 → Fin S4096x64.rank)
  slices_S3_S1_1 : S3.Slices ![1] S1
  slices_S3_S1_2 : S3.Slices ![2] S1
  scatter_S64x8x1024_S256x1_S256x8x1024_12_0_0_1_wf : ScatterDims.WF S64x8x1024 S256x1 S256x8x1024 [1, 2] [0] [0] 1
  scatter_S64_S256x1_S256_n_0_0_1_wf : ScatterDims.WF S64 S256x1 S256 [] [0] [0] 1
  dot_S256x1024_S1024x512_S256x512_1_0_0_1_n_n_wf : DotDims.WF S256x1024 S1024x512 S256x512 [1] [0] [0] [1] [] []
  scatter_S64x3x1024_S256x1_S256x3x1024_12_0_0_1_wf : ScatterDims.WF S64x3x1024 S256x1 S256x3x1024 [1, 2] [0] [0] 1
  dot_S256x1024_S1024x192_S256x192_1_0_0_1_n_n_wf : DotDims.WF S256x1024 S1024x192 S256x192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8x1024.size a ≤ S4096x8x1024.size a
  hwx0_0 : ∀ i : grid0.Coords, EltTy.bits .bf16 = 32 ∨ (Rect.block (s := S4096x8x1024) S256x8x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x512.size a
  hwx0_1 : ∀ i : grid0.Coords, EltTy.bits .bf16 = 32 ∨ (Rect.block (s := S1024x512) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S4096x64.size a
  hwx0_2 : ∀ i : grid0.Coords, EltTy.bits .f32 = 32 ∨ (Rect.block (s := S4096x64) S256x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x64.size a ≤ S4096x64.size a
  hwx0_3 : ∀ i : grid0.Coords, EltTy.bits .f32 = 32 ∨ (Rect.block (s := S4096x64) S256x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x3x1024.size a ≤ S4096x3x1024.size a
  hwx1_0 : ∀ i : grid1.Coords, EltTy.bits .bf16 = 32 ∨ (Rect.block (s := S4096x3x1024) S256x3x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x192.size a ≤ S1024x192.size a
  hwx1_1 : ∀ i : grid1.Coords, EltTy.bits .bf16 = 32 ∨ (Rect.block (s := S1024x192) S1024x192.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x64.size a ≤ S4096x64.size a
  hwx1_2 : ∀ i : grid1.Coords, EltTy.bits .f32 = 32 ∨ (Rect.block (s := S4096x64) S256x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x64.size a ≤ S4096x64.size a
  hwx1_3 : ∀ i : grid1.Coords, EltTy.bits .f32 = 32 ∨ (Rect.block (s := S4096x64) S256x64.size (cc1_transform_3 i) (hinb1_3 i)).WholeWords (EltTy.packing .f32)

variable [Facts₀]

def scatter_S64x8x1024_S256x1_S256x8x1024_12_0_0_1 : ScatterDims S64x8x1024 S256x1 S256x8x1024 where
  updateWindowDims := [1, 2]
  insertedWindowDims := [0]
  scatterDimsToOperandDims := [0]
  indexVectorDim := 1
  wf := scatter_S64x8x1024_S256x1_S256x8x1024_12_0_0_1_wf
def scatter_S64_S256x1_S256_n_0_0_1 : ScatterDims S64 S256x1 S256 where
  updateWindowDims := []
  insertedWindowDims := [0]
  scatterDimsToOperandDims := [0]
  indexVectorDim := 1
  wf := scatter_S64_S256x1_S256_n_0_0_1_wf
def dot_S256x1024_S1024x512_S256x512_1_0_0_1_n_n : DotDims S256x1024 S1024x512 S256x512 where
  lhsContracting := [1]
  rhsContracting := [0]
  lhsNonContracting := [0]
  rhsNonContracting := [1]
  lhsBatch := []
  rhsBatch := []
  wf := dot_S256x1024_S1024x512_S256x512_1_0_0_1_n_n_wf
def scatter_S64x3x1024_S256x1_S256x3x1024_12_0_0_1 : ScatterDims S64x3x1024 S256x1 S256x3x1024 where
  updateWindowDims := [1, 2]
  insertedWindowDims := [0]
  scatterDimsToOperandDims := [0]
  indexVectorDim := 1
  wf := scatter_S64x3x1024_S256x1_S256x3x1024_12_0_0_1_wf
def dot_S256x1024_S1024x192_S256x192_1_0_0_1_n_n : DotDims S256x1024 S1024x192 S256x192 where
  lhsContracting := [1]
  rhsContracting := [0]
  lhsNonContracting := [0]
  rhsNonContracting := [1]
  lhsBatch := []
  rhsBatch := []
  wf := dot_S256x1024_S1024x192_S256x192_1_0_0_1_n_n_wf

abbrev win0_0 : Pipeline.Window sig grid0 :=
  Pipeline.Window.ofSpec (Memref.whole main_v31) S256x8x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S1024x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33_0) S256x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v33_1) S256x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v98) S256x3x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v99) S1024x192.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v100_0) S256x64.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v100_1) S256x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S256x8x1024 : Shape := ⟨3, ![256, 8, 1024]⟩
abbrev S4096x8x1024 : Shape := ⟨3, ![4096, 8, 1024]⟩
abbrev S256 : Shape := ⟨1, ![256]⟩
abbrev S_ : Shape := ⟨0, ![]⟩
abbrev S3 : Shape := ⟨1, ![3]⟩
abbrev S64x8x1024 : Shape := ⟨3, ![64, 8, 1024]⟩
abbrev S256x1 : Shape := ⟨2, ![256, 1]⟩
abbrev S64 : Shape := ⟨1, ![64]⟩
abbrev S64x1x1 : Shape := ⟨3, ![64, 1, 1]⟩
abbrev S4096x8 : Shape := ⟨2, ![4096, 8]⟩
abbrev S4096x8x1 : Shape := ⟨3, ![4096, 8, 1]⟩
abbrev S64x8 : Shape := ⟨2, ![64, 8]⟩
abbrev S64x8x1 : Shape := ⟨3, ![64, 8, 1]⟩
abbrev S64x8x4096x8 : Shape := ⟨4, ![64, 8, 4096, 8]⟩
abbrev S4096x64x8x8 : Shape := ⟨4, ![4096, 64, 8, 8]⟩
abbrev S4096x64x8 : Shape := ⟨3, ![4096, 64, 8]⟩
abbrev S4096x64 : Shape := ⟨2, ![4096, 64]⟩
abbrev S256x4x1024 : Shape := ⟨3, ![256, 4, 1024]⟩
abbrev S256x1024 : Shape := ⟨2, ![256, 1024]⟩
abbrev S256x1x1024 : Shape := ⟨3, ![256, 1, 1024]⟩
abbrev S256x3x1024 : Shape := ⟨3, ![256, 3, 1024]⟩
abbrev S4096x4x1024 : Shape := ⟨3, ![4096, 4, 1024]⟩
abbrev S4096x1024 : Shape := ⟨2, ![4096, 1024]⟩
abbrev S4096x1x1024 : Shape := ⟨3, ![4096, 1, 1024]⟩
abbrev S4096x3x1024 : Shape := ⟨3, ![4096, 3, 1024]⟩
abbrev S64x3x1024 : Shape := ⟨3, ![64, 3, 1024]⟩
abbrev S4096x3 : Shape := ⟨2, ![4096, 3]⟩
abbrev S4096x3x1 : Shape := ⟨3, ![4096, 3, 1]⟩
abbrev S64x3 : Shape := ⟨2, ![64, 3]⟩
abbrev S64x3x1 : Shape := ⟨3, ![64, 3, 1]⟩
abbrev S64x3x4096x3 : Shape := ⟨4, ![64, 3, 4096, 3]⟩
abbrev S4096x64x3x3 : Shape := ⟨4, ![4096, 64, 3, 3]⟩
abbrev S4096x64x3 : Shape := ⟨3, ![4096, 64, 3]⟩
abbrev S1 : Shape := ⟨1, ![1]⟩

abbrev nBuf : Space → Nat
  | .hbm => 176
  | .vmem => 0
  | .smem => 0
  | _ => 0

abbrev hbmTy0_0 (i : Nat) : BufTy := match i % 128 with
  | 0 => ⟨S256x8x1024, .f32⟩
  | 1 => ⟨S4096x8x1024, .f32⟩
  | 2 => ⟨S256, .i32⟩
  | 3 => ⟨S_, .f32⟩
  | 4 => ⟨S3, .f32⟩
  | 5 => ⟨S_, .f32⟩
  | 6 => ⟨S64x8x1024, .f32⟩
  | 7 => ⟨S256x1, .i32⟩
  | 8 => ⟨S64x8x1024, .f32⟩
  | 9 => ⟨S_, .f32⟩
  | 10 => ⟨S256, .f32⟩
  | 11 => ⟨S_, .f32⟩
  | 12 => ⟨S64, .f32⟩
  | 13 => ⟨S256x1, .i32⟩
  | 14 => ⟨S64, .f32⟩
  | 15 => ⟨S64x1x1, .f32⟩
  | 16 => ⟨S64x8x1024, .f32⟩
  | 17 => ⟨S64x8x1024, .f32⟩
  | 18 => ⟨S4096x8x1024, .f32⟩
  | 19 => ⟨S_, .f32⟩
  | 20 => ⟨S4096x8, .f32⟩
  | 21 => ⟨S4096x8x1, .f32⟩
  | 22 => ⟨S4096x8x1, .f32⟩
  | 23 => ⟨S_, .f32⟩
  | 24 => ⟨S4096x8x1, .f32⟩
  | 25 => ⟨S4096x8x1, .f32⟩
  | 26 => ⟨S4096x8x1024, .f32⟩
  | 27 => ⟨S4096x8x1024, .f32⟩
  | 28 => ⟨S64x8x1024, .f32⟩
  | 29 => ⟨S_, .f32⟩
  | 30 => ⟨S64x8, .f32⟩
  | 31 => ⟨S64x8x1, .f32⟩
  | 32 => ⟨S64x8x1, .f32⟩
  | 33 => ⟨S_, .f32⟩
  | 34 => ⟨S64x8x1, .f32⟩
  | 35 => ⟨S64x8x1, .f32⟩
  | 36 => ⟨S64x8x1024, .f32⟩
  | 37 => ⟨S64x8x1024, .f32⟩
  | 38 => ⟨S64x8x4096x8, .f32⟩
  | 39 => ⟨S4096x64x8x8, .f32⟩
  | 40 => ⟨S_, .f32⟩
  | 41 => ⟨S4096x64x8x8, .f32⟩
  | 42 => ⟨S4096x64x8x8, .f32⟩
  | 43 => ⟨S_, .f32⟩
  | 44 => ⟨S4096x64x8, .f32⟩
  | 45 => ⟨S_, .f32⟩
  | 46 => ⟨S4096x64, .f32⟩
  | 47 => ⟨S_, .f32⟩
  | 48 => ⟨S4096x64x8, .f32⟩
  | 49 => ⟨S_, .f32⟩
  | 50 => ⟨S4096x64, .f32⟩
  | 51 => ⟨S4096x64, .f32⟩
  | 52 => ⟨S256x4x1024, .f32⟩
  | 53 => ⟨S_, .f32⟩
  | 54 => ⟨S256x1024, .f32⟩
  | 55 => ⟨S_, .f32⟩
  | 56 => ⟨S256x1024, .f32⟩
  | 57 => ⟨S256x1024, .f32⟩
  | 58 => ⟨S256x4x1024, .f32⟩
  | 59 => ⟨S_, .f32⟩
  | 60 => ⟨S256x1024, .f32⟩
  | 61 => ⟨S_, .f32⟩
  | 62 => ⟨S256x1024, .f32⟩
  | 63 => ⟨S256x1024, .f32⟩
  | 64 => ⟨S256x4x1024, .f32⟩
  | 65 => ⟨S_, .f32⟩
  | 66 => ⟨S256x1024, .f32⟩
  | 67 => ⟨S_, .f32⟩
  | 68 => ⟨S256x1024, .f32⟩
  | 69 => ⟨S256x1024, .f32⟩
  | 70 => ⟨S256x1x1024, .f32⟩
  | 71 => ⟨S256x1x1024, .f32⟩
  | 72 => ⟨S256x1x1024, .f32⟩
  | 73 => ⟨S256x3x1024, .f32⟩
  | 74 => ⟨S4096x4x1024, .f32⟩
  | 75 => ⟨S_, .f32⟩
  | 76 => ⟨S4096x1024, .f32⟩
  | 77 => ⟨S_, .f32⟩
  | 78 => ⟨S4096x1024, .f32⟩
  | 79 => ⟨S4096x1024, .f32⟩
  | 80 => ⟨S4096x4x1024, .f32⟩
  | 81 => ⟨S_, .f32⟩
  | 82 => ⟨S4096x1024, .f32⟩
  | 83 => ⟨S_, .f32⟩
  | 84 => ⟨S4096x1024, .f32⟩
  | 85 => ⟨S4096x1024, .f32⟩
  | 86 => ⟨S4096x4x1024, .f32⟩
  | 87 => ⟨S_, .f32⟩
  | 88 => ⟨S4096x1024, .f32⟩
  | 89 => ⟨S_, .f32⟩
  | 90 => ⟨S4096x1024, .f32⟩
  | 91 => ⟨S4096x1024, .f32⟩
  | 92 => ⟨S4096x1x1024, .f32⟩
  | 93 => ⟨S4096x1x1024, .f32⟩
  | 94 => ⟨S4096x1x1024, .f32⟩
  | 95 => ⟨S4096x3x1024, .f32⟩
  | 96 => ⟨S_, .f32⟩
  | 97 => ⟨S64x3x1024, .f32⟩
  | 98 => ⟨S256x1, .i32⟩
  | 99 => ⟨S64x3x1024, .f32⟩
  | 100 => ⟨S_, .f32⟩
  | 101 => ⟨S256, .f32⟩
  | 102 => ⟨S_, .f32⟩
  | 103 => ⟨S64, .f32⟩
  | 104 => ⟨S256x1, .i32⟩
  | 105 => ⟨S64, .f32⟩
  | 106 => ⟨S64x1x1, .f32⟩
  | 107 => ⟨S64x3x1024, .f32⟩
  | 108 => ⟨S64x3x1024, .f32⟩
  | 109 => ⟨S4096x3x1024, .f32⟩
  | 110 => ⟨S_, .f32⟩
  | 111 => ⟨S4096x3, .f32⟩
  | 112 => ⟨S4096x3x1, .f32⟩
  | 113 => ⟨S4096x3x1, .f32⟩
  | 114 => ⟨S_, .f32⟩
  | 115 => ⟨S4096x3x1, .f32⟩
  | 116 => ⟨S4096x3x1, .f32⟩
  | 117 => ⟨S4096x3x1024, .f32⟩
  | 118 => ⟨S4096x3x1024, .f32⟩
  | 119 => ⟨S64x3x1024, .f32⟩
  | 120 => ⟨S_, .f32⟩
  | 121 => ⟨S64x3, .f32⟩
  | 122 => ⟨S64x3x1, .f32⟩
  | 123 => ⟨S64x3x1, .f32⟩
  | 124 => ⟨S_, .f32⟩
  | 125 => ⟨S64x3x1, .f32⟩
  | 126 => ⟨S64x3x1, .f32⟩
  | 127 => ⟨S64x3x1024, .f32⟩
  | _ => ⟨S256x8x1024, .f32⟩

abbrev hbmTy0_1 (i : Nat) : BufTy := match i % 128 with
  | 0 => ⟨S64x3x1024, .f32⟩
  | 1 => ⟨S64x3x4096x3, .f32⟩
  | 2 => ⟨S4096x64x3x3, .f32⟩
  | 3 => ⟨S_, .f32⟩
  | 4 => ⟨S4096x64x3x3, .f32⟩
  | 5 => ⟨S4096x64x3x3, .f32⟩
  | 6 => ⟨S_, .f32⟩
  | 7 => ⟨S4096x64x3, .f32⟩
  | 8 => ⟨S_, .f32⟩
  | 9 => ⟨S4096x64, .f32⟩
  | 10 => ⟨S_, .f32⟩
  | 11 => ⟨S4096x64x3, .f32⟩
  | 12 => ⟨S_, .f32⟩
  | 13 => ⟨S4096x64, .f32⟩
  | 14 => ⟨S_, .f32⟩
  | 15 => ⟨S_, .f32⟩
  | 16 => ⟨S_, .f32⟩
  | 17 => ⟨S_, .f32⟩
  | 18 => ⟨S1, .f32⟩
  | 19 => ⟨S3, .f32⟩
  | 20 => ⟨S3, .f32⟩
  | 21 => ⟨S3, .f32⟩
  | 22 => ⟨S_, .f32⟩
  | 23 => ⟨S_, .f32⟩
  | 24 => ⟨S1, .f32⟩
  | 25 => ⟨S3, .f32⟩
  | 26 => ⟨S3, .f32⟩
  | 27 => ⟨S1, .f32⟩
  | 28 => ⟨S_, .f32⟩
  | 29 => ⟨S4096x64, .f32⟩
  | 30 => ⟨S4096x64, .f32⟩
  | 31 => ⟨S1, .f32⟩
  | 32 => ⟨S_, .f32⟩
  | 33 => ⟨S4096x64, .f32⟩
  | 34 => ⟨S4096x64, .f32⟩
  | 35 => ⟨S4096x64, .f32⟩
  | 36 => ⟨S1, .f32⟩
  | 37 => ⟨S_, .f32⟩
  | 38 => ⟨S4096x64, .f32⟩
  | 39 => ⟨S4096x64, .f32⟩
  | 40 => ⟨S4096x64, .f32⟩
  | 41 => ⟨S_, .f32⟩
  | 42 => ⟨S4096x64, .f32⟩
  | 43 => ⟨S4096x64, .f32⟩
  | 44 => ⟨S4096x64, .f32⟩
  | 45 => ⟨S4096x64, .f32⟩
  | 46 => ⟨S4096x64, .f32⟩
  | 47 => ⟨S4096x64, .f32⟩
  | _ => ⟨S256x8x1024, .f32⟩

abbrev hbmTy (i : Nat) : BufTy := match i / 128 with
  | 0 => hbmTy0_0 i
  | 1 => hbmTy0_1 i
  | _ => ⟨S256x8x1024, .f32⟩

abbrev bufTy : (tb : Table) → Fin (tcTables nBuf tb) → BufTy
  | .hbm, ⟨i, _⟩ => hbmTy i
  | _, _ => ⟨S256x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_cst_8 : Ref sig .tc := ⟨.hbm, 45, rfl⟩
abbrev main_v31 : Ref sig .tc := ⟨.hbm, 46, rfl⟩
abbrev main_cst_9 : Ref sig .tc := ⟨.hbm, 47, rfl⟩
abbrev main_v32 : Ref sig .tc := ⟨.hbm, 48, rfl⟩
abbrev main_cst_10 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_11 : Ref sig .tc := ⟨.hbm, 53, rfl⟩
abbrev main_v36 : Ref sig .tc := ⟨.hbm, 54, rfl⟩
abbrev main_cst_12 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_13 : Ref sig .tc := ⟨.hbm, 59, rfl⟩
abbrev main_v40 : Ref sig .tc := ⟨.hbm, 60, rfl⟩
abbrev main_cst_14 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_15 : Ref sig .tc := ⟨.hbm, 65, rfl⟩
abbrev main_v44 : Ref sig .tc := ⟨.hbm, 66, rfl⟩
abbrev main_cst_16 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_17 : Ref sig .tc := ⟨.hbm, 75, rfl⟩
abbrev main_v52 : Ref sig .tc := ⟨.hbm, 76, rfl⟩
abbrev main_cst_18 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_19 : Ref sig .tc := ⟨.hbm, 81, rfl⟩
abbrev main_v56 : Ref sig .tc := ⟨.hbm, 82, rfl⟩
abbrev main_cst_20 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_21 : Ref sig .tc := ⟨.hbm, 87, rfl⟩
abbrev main_v60 : Ref sig .tc := ⟨.hbm, 88, rfl⟩
abbrev main_cst_22 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_23 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_24 : Ref sig .tc := ⟨.hbm, 100, rfl⟩
abbrev main_v70 : Ref sig .tc := ⟨.hbm, 101, rfl⟩
abbrev main_cst_25 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_26 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_cst_27 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_cst_28 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_29 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_cst_30 : Ref sig .tc := ⟨.hbm, 131, rfl⟩
abbrev main_v95 : Ref sig .tc := ⟨.hbm, 132, rfl⟩
abbrev main_v96 : Ref sig .tc := ⟨.hbm, 133, rfl⟩
abbrev main_cst_31 : Ref sig .tc := ⟨.hbm, 134, rfl⟩
abbrev main_v97 : Ref sig .tc := ⟨.hbm, 135, rfl⟩
abbrev main_cst_32 : Ref sig .tc := ⟨.hbm, 136, rfl⟩
abbrev main_v98 : Ref sig .tc := ⟨.hbm, 137, rfl⟩
abbrev main_cst_33 : Ref sig .tc := ⟨.hbm, 138, rfl⟩
abbrev main_v99 : Ref sig .tc := ⟨.hbm, 139, rfl⟩
abbrev main_cst_34 : Ref sig .tc := ⟨.hbm, 140, rfl⟩
abbrev main_v100 : Ref sig .tc := ⟨.hbm, 141, rfl⟩
abbrev main_cst_35 : Ref sig .tc := ⟨.hbm, 142, rfl⟩
abbrev main_v101 : Ref sig .tc := ⟨.hbm, 143, rfl⟩
abbrev main_cst_36 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_cst_37 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩

abbrev nD : Nat := 1
abbrev τ : Topo := Topo.v7x

variable {F : FTy → Type} [FloatOps F]

class Facts₀ : Prop where
  bcast_S_S64x8x1024 : S_.BroadcastsInDim S64x8x1024 (![] : Fin 0 → Fin S64x8x1024.rank)
  bcast_S256_S256x1_0 : S256.BroadcastsInDim S256x1 (![0] : Fin 1 → Fin S256x1.rank)
  bcast_S_S256 : S_.BroadcastsInDim S256 (![] : Fin 0 → Fin S256.rank)
  bcast_S_S64 : S_.BroadcastsInDim S64 (![] : Fin 0 → Fin S64.rank)
  bcast_S64_S64x1x1_0 : S64.BroadcastsInDim S64x1x1 (![0] : Fin 1 → Fin S64x1x1.rank)
  bcast_S64x1x1_S64x8x1024_0_1_2 : S64x1x1.BroadcastsInDim S64x8x1024 (![0, 1, 2] : Fin 3 → Fin S64x8x1024.rank)
  reducesTo_S4096x8x1024_S4096x8_d2 : S4096x8x1024.ReducesTo [2] S4096x8
  h_S_ : 0 < S_.numel
  bcast_S4096x8_S4096x8x1_0_1 : S4096x8.BroadcastsInDim S4096x8x1 (![0, 1] : Fin 2 → Fin S4096x8x1.rank)
  bcast_S_S4096x8x1 : S_.BroadcastsInDim S4096x8x1 (![] : Fin 0 → Fin S4096x8x1.rank)
  bcast_S4096x8x1_S4096x8x1024_0_1_2 : S4096x8x1.BroadcastsInDim S4096x8x1024 (![0, 1, 2] : Fin 3 → Fin S4096x8x1024.rank)
  reducesTo_S64x8x1024_S64x8_d2 : S64x8x1024.ReducesTo [2] S64x8
  bcast_S64x8_S64x8x1_0_1 : S64x8.BroadcastsInDim S64x8x1 (![0, 1] : Fin 2 → Fin S64x8x1.rank)
  bcast_S_S64x8x1 : S_.BroadcastsInDim S64x8x1 (![] : Fin 0 → Fin S64x8x1.rank)
  bcast_S64x8x1_S64x8x1024_0_1_2 : S64x8x1.BroadcastsInDim S64x8x1024 (![0, 1, 2] : Fin 3 → Fin S64x8x1024.rank)
  transposes_S64x8x4096x8_S4096x64x8x8_2_0_3_1 : S64x8x4096x8.Transposes [2, 0, 3, 1] S4096x64x8x8
  bcast_S_S4096x64x8x8 : S_.BroadcastsInDim S4096x64x8x8 (![] : Fin 0 → Fin S4096x64x8x8.rank)
  reducesTo_S4096x64x8x8_S4096x64x8_d3 : S4096x64x8x8.ReducesTo [3] S4096x64x8
  reducesTo_S4096x64x8_S4096x64_d2 : S4096x64x8.ReducesTo [2] S4096x64
  reducesTo_S4096x64x8x8_S4096x64x8_d2 : S4096x64x8x8.ReducesTo [2] S4096x64x8
  slices_S256x8x1024_S256x4x1024_0_0_0 : S256x8x1024.Slices ![0, 0, 0] S256x4x1024
  reducesTo_S256x4x1024_S256x1024_d1 : S256x4x1024.ReducesTo [1] S256x1024
  bcast_S_S256x1024 : S_.BroadcastsInDim S256x1024 (![] : Fin 0 → Fin S256x1024.rank)
  slices_S256x8x1024_S256x4x1024_0_2_0 : S256x8x1024.Slices ![0, 2, 0] S256x4x1024
  slices_S256x8x1024_S256x4x1024_0_4_0 : S256x8x1024.Slices ![0, 4, 0] S256x4x1024
  bcast_S256x1024_S256x1x1024_0_2 : S256x1024.BroadcastsInDim S256x1x1024 (![0, 2] : Fin 2 → Fin S256x1x1024.rank)
  concatenates_S256x1x1024_S256x1x1024_S256x1x1024_S256x3x1024_d1 : Shape.Concatenates [S256x1x1024, S256x1x1024, S256x1x1024] S256x3x1024 1
  slices_S4096x8x1024_S4096x4x1024_0_0_0 : S4096x8x1024.Slices ![0, 0, 0] S4096x4x1024
  reducesTo_S4096x4x1024_S4096x1024_d1 : S4096x4x1024.ReducesTo [1] S4096x1024
  bcast_S_S4096x1024 : S_.BroadcastsInDim S4096x1024 (![] : Fin 0 → Fin S4096x1024.rank)
  slices_S4096x8x1024_S4096x4x1024_0_2_0 : S4096x8x1024.Slices ![0, 2, 0] S4096x4x1024
  slices_S4096x8x1024_S4096x4x1024_0_4_0 : S4096x8x1024.Slices ![0, 4, 0] S4096x4x1024
  bcast_S4096x1024_S4096x1x1024_0_2 : S4096x1024.BroadcastsInDim S4096x1x1024 (![0, 2] : Fin 2 → Fin S4096x1x1024.rank)
  concatenates_S4096x1x1024_S4096x1x1024_S4096x1x1024_S4096x3x1024_d1 : Shape.Concatenates [S4096x1x1024, S4096x1x1024, S4096x1x1024] S4096x3x1024 1
  bcast_S_S64x3x1024 : S_.BroadcastsInDim S64x3x1024 (![] : Fin 0 → Fin S64x3x1024.rank)
  bcast_S64x1x1_S64x3x1024_0_1_2 : S64x1x1.BroadcastsInDim S64x3x1024 (![0, 1, 2] : Fin 3 → Fin S64x3x1024.rank)
  reducesTo_S4096x3x1024_S4096x3_d2 : S4096x3x1024.ReducesTo [2] S4096x3
  bcast_S4096x3_S4096x3x1_0_1 : S4096x3.BroadcastsInDim S4096x3x1 (![0, 1] : Fin 2 → Fin S4096x3x1.rank)
  bcast_S_S4096x3x1 : S_.BroadcastsInDim S4096x3x1 (![] : Fin 0 → Fin S4096x3x1.rank)
  bcast_S4096x3x1_S4096x3x1024_0_1_2 : S4096x3x1.BroadcastsInDim S4096x3x1024 (![0, 1, 2] : Fin 3 → Fin S4096x3x1024.rank)
  reducesTo_S64x3x1024_S64x3_d2 : S64x3x1024.ReducesTo [2] S64x3
  bcast_S64x3_S64x3x1_0_1 : S64x3.BroadcastsInDim S64x3x1 (![0, 1] : Fin 2 → Fin S64x3x1.rank)
  bcast_S_S64x3x1 : S_.BroadcastsInDim S64x3x1 (![] : Fin 0 → Fin S64x3x1.rank)
  bcast_S64x3x1_S64x3x1024_0_1_2 : S64x3x1.BroadcastsInDim S64x3x1024 (![0, 1, 2] : Fin 3 → Fin S64x3x1024.rank)
  transposes_S64x3x4096x3_S4096x64x3x3_2_0_3_1 : S64x3x4096x3.Transposes [2, 0, 3, 1] S4096x64x3x3
  bcast_S_S4096x64x3x3 : S_.BroadcastsInDim S4096x64x3x3 (![] : Fin 0 → Fin S4096x64x3x3.rank)
  reducesTo_S4096x64x3x3_S4096x64x3_d3 : S4096x64x3x3.ReducesTo [3] S4096x64x3
  reducesTo_S4096x64x3_S4096x64_d2 : S4096x64x3.ReducesTo [2] S4096x64
  reducesTo_S4096x64x3x3_S4096x64x3_d2 : S4096x64x3x3.ReducesTo [2] S4096x64x3
  reducesTo_S3_S_d0 : S3.ReducesTo [0] S_
  bcast_S_S1 : S_.BroadcastsInDim S1 (![] : Fin 0 → Fin S1.rank)
  bcast_S1_S3_0 : S1.BroadcastsInDim S3 (![0] : Fin 1 → Fin S3.rank)
  slices_S3_S1_0 : S3.Slices ![0] S1
  shapeCasts_S1_S_ : S1.ShapeCasts S_
  bcast_S_S4096x64 : S_.BroadcastsInDim S4096x64 (![] : Fin 0 → Fin S4096x64.rank)
  slices_S3_S1_1 : S3.Slices ![1] S1
  slices_S3_S1_2 : S3.Slices ![2] S1
  scatter_S64x8x1024_S256x1_S256x8x1024_12_0_0_1_wf : ScatterDims.WF S64x8x1024 S256x1 S256x8x1024 [1, 2] [0] [0] 1
  scatter_S64_S256x1_S256_n_0_0_1_wf : ScatterDims.WF S64 S256x1 S256 [] [0] [0] 1
  dot_S64x8x1024_S4096x8x1024_S64x8x4096x8_2_2_01_01_n_n_wf : DotDims.WF S64x8x1024 S4096x8x1024 S64x8x4096x8 [2] [2] [0, 1] [0, 1] [] []
  scatter_S64x3x1024_S256x1_S256x3x1024_12_0_0_1_wf : ScatterDims.WF S64x3x1024 S256x1 S256x3x1024 [1, 2] [0] [0] 1
  dot_S64x3x1024_S4096x3x1024_S64x3x4096x3_2_2_01_01_n_n_wf : DotDims.WF S64x3x1024 S4096x3x1024 S64x3x4096x3 [2] [2] [0, 1] [0, 1] [] []

variable [Facts₀]

def scatter_S64x8x1024_S256x1_S256x8x1024_12_0_0_1 : ScatterDims S64x8x1024 S256x1 S256x8x1024 where
  updateWindowDims := [1, 2]
  insertedWindowDims := [0]
  scatterDimsToOperandDims := [0]
  indexVectorDim := 1
  wf := scatter_S64x8x1024_S256x1_S256x8x1024_12_0_0_1_wf
def scatter_S64_S256x1_S256_n_0_0_1 : ScatterDims S64 S256x1 S256 where
  updateWindowDims := []
  insertedWindowDims := [0]
  scatterDimsToOperandDims := [0]
  indexVectorDim := 1
  wf := scatter_S64_S256x1_S256_n_0_0_1_wf
def dot_S64x8x1024_S4096x8x1024_S64x8x4096x8_2_2_01_01_n_n : DotDims S64x8x1024 S4096x8x1024 S64x8x4096x8 where
  lhsContracting := [2]
  rhsContracting := [2]
  lhsNonContracting := [0, 1]
  rhsNonContracting := [0, 1]
  lhsBatch := []
  rhsBatch := []
  wf := dot_S64x8x1024_S4096x8x1024_S64x8x4096x8_2_2_01_01_n_n_wf
def scatter_S64x3x1024_S256x1_S256x3x1024_12_0_0_1 : ScatterDims S64x3x1024 S256x1 S256x3x1024 where
  updateWindowDims := [1, 2]
  insertedWindowDims := [0]
  scatterDimsToOperandDims := [0]
  indexVectorDim := 1
  wf := scatter_S64x3x1024_S256x1_S256x3x1024_12_0_0_1_wf
def dot_S64x3x1024_S4096x3x1024_S64x3x4096x3_2_2_01_01_n_n : DotDims S64x3x1024 S4096x3x1024 S64x3x4096x3 where
  lhsContracting := [2]
  rhsContracting := [2]
  lhsNonContracting := [0, 1]
  rhsNonContracting := [0, 1]
  lhsBatch := []
  rhsBatch := []
  wf := dot_S64x3x1024_S4096x3x1024_S64x3x4096x3_2_2_01_01_n_n_wf

class Facts : Prop extends Facts₀ where

variable [Facts]
-- ==== Proof.KernelRegions.lean ====
/-
  The two kernel launches of the program, each at an arbitrary valuation `V` of the buffers at its entry.
  Each launch walks 16 blocks of 256 query rows. At a block the body loads the block's normalized query frames
  (256 × T × 1024) and the whole matrix of normalized class prototypes (1024 × T·64, column s·64+k the prototype
  of class k at support frame s), forms for every query frame t the distances 1 − ⟨query frame t, prototype (k, s)⟩
  by one matrix product, and stores two 256 × 64 blocks: the sum over t of the minimum over s, and the sum over s
  of the minimum over t (T = 8 frames in the first launch, T = 3 window means in the second).
  Stated here: what a block of each window is, what the body leaves in each staging buffer as a function of the
  two input blocks, the body's run on whole staging buffers, and the per-point obligation of the pipeline.
-/
import proofs.«110043_j29283087024820_2_alg».proof.Proof.Gen.Kernel.Launch
import proofs.«110043_j29283087024820_2_alg».proof.Proof.Gen.Kernel.Skeleton
import proofs.«110043_j29283087024820_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Chamfer

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! # Region 0 (pipeline 0) at the entry contents `V` -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether or not it was fetched there. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole blocks the body loads and stores. -/
abbrev rA0 : Rect S256x8x1024 := Rect.unit (s := S256x8x1024) ![0, 0, 0] S256x8x1024.size inb_S256x8x1024_S256x8x1024_0_0_0
abbrev rB0 : Rect S1024x512 := Rect.unit (s := S1024x512) ![0, 0] S1024x512.size inb_S1024x512_S1024x512_0_0
abbrev rO0 : Rect S256x64 := Rect.unit (s := S256x64) ![0, 0] S256x64.size inb_S256x64_S256x64_0_0

/-- What the body stores into the first output block (the sum over query frames of the minimum over
    support frames), as the printed arithmetic of the two loaded blocks. -/
def sumMin0 (v0 : Vec F S256x8x1024 .bf16) (v2 : Vec F S1024x512 .bf16) : FVec F S256x64 .f32 :=
  k0_pay4 (k0_pay103 (k0_pay6 v0) (k0_pay7 v2) (k0_pay74 (k0_pay6 v0) (k0_pay7 v2) (k0_pay46 (k0_pay6 v0) (k0_pay7 v2) (k0_pay17 v0 v2) (k0_pay18 v0 v2) (k0_pay30 v0 v2) (k0_pay32 v0 v2)) (k0_pay47 (k0_pay6 v0) (k0_pay7 v2)) (k0_pay59 (k0_pay6 v0) (k0_pay7 v2))) (k0_pay75 (k0_pay6 v0) (k0_pay7 v2)) (k0_pay85 (k0_pay6 v0) (k0_pay7 v2))) (k0_pay104 (k0_pay6 v0) (k0_pay7 v2)) (k0_pay112 (k0_pay6 v0) (k0_pay7 v2)) (k0_pay114 (k0_pay6 v0) (k0_pay7 v2))
/-- What the body stores into the second output block (the sum over support frames of the minimum over
    query frames). -/
def minSum0 (v0 : Vec F S256x8x1024 .bf16) (v2 : Vec F S1024x512 .bf16) : FVec F S256x64 .f32 :=
  k0_pay5 (k0_pay96 (k0_pay6 v0) (k0_pay7 v2) (k0_pay86 (k0_pay6 v0) (k0_pay7 v2) (k0_pay57 (k0_pay6 v0) (k0_pay7 v2) (k0_pay28 v0 v2)))) (k0_pay98 (k0_pay6 v0) (k0_pay7 v2) (k0_pay69 (k0_pay6 v0) (k0_pay7 v2) (k0_pay41 (k0_pay6 v0) (k0_pay7 v2) (k0_pay31 v0 v2)) (k0_pay58 (k0_pay6 v0) (k0_pay7 v2))) (k0_pay75 (k0_pay6 v0) (k0_pay7 v2))) (k0_pay100 (k0_pay6 v0) (k0_pay7 v2) (k0_pay71 (k0_pay6 v0) (k0_pay7 v2) (k0_pay43 (k0_pay6 v0) (k0_pay7 v2) (k0_pay15 v0 v2) (k0_pay32 v0 v2)) (k0_pay47 (k0_pay6 v0) (k0_pay7 v2))) (k0_pay75 (k0_pay6 v0) (k0_pay7 v2))) (k0_pay102 (k0_pay6 v0) (k0_pay7 v2) (k0_pay73 (k0_pay6 v0) (k0_pay7 v2) (k0_pay45 (k0_pay6 v0) (k0_pay7 v2) (k0_pay16 v0 v2) (k0_pay18 v0 v2)) (k0_pay47 (k0_pay6 v0) (k0_pay7 v2))) (k0_pay75 (k0_pay6 v0) (k0_pay7 v2))) (k0_pay104 (k0_pay6 v0) (k0_pay7 v2)) (k0_pay106 (k0_pay6 v0) (k0_pay7 v2) (k0_pay77 (k0_pay6 v0) (k0_pay7 v2) (k0_pay49 (k0_pay6 v0) (k0_pay7 v2) (k0_pay20 v0 v2)))) (k0_pay108 (k0_pay6 v0) (k0_pay7 v2) (k0_pay79 (k0_pay6 v0) (k0_pay7 v2) (k0_pay51 (k0_pay6 v0) (k0_pay7 v2) (k0_pay22 v0 v2)))) (k0_pay110 (k0_pay6 v0) (k0_pay7 v2) (k0_pay81 (k0_pay6 v0) (k0_pay7 v2) (k0_pay53 (k0_pay6 v0) (k0_pay7 v2) (k0_pay24 v0 v2)))) (k0_pay113 (k0_pay6 v0) (k0_pay7 v2) (k0_pay83 (k0_pay6 v0) (k0_pay7 v2) (k0_pay55 (k0_pay6 v0) (k0_pay7 v2) (k0_pay26 v0 v2)))) (k0_pay114 (k0_pay6 v0) (k0_pay7 v2))

/-- Each output block after the body, from the input blocks: one whole-block store. -/
def out0_2 (x0 : Vec F S256x8x1024 .bf16) (x1 : Vec F S1024x512 .bf16) : Vec F S256x64 .f32 :=
  View.canon [⟨rO0, sumMin0 (View.ld x0 rA0) (View.ld x1 rB0)⟩]
def out0_3 (x0 : Vec F S256x8x1024 .bf16) (x1 : Vec F S1024x512 .bf16) : Vec F S256x64 .f32 :=
  View.canon [⟨rO0, minSum0 (View.ld x0 rA0) (View.ld x1 rB0)⟩]

/-- A whole-block store covers the block. -/
theorem cover0 (p0 : Vec F S256x64 .f32) (y : S256x64.Idx) :
    ∃ pc ∈ ([⟨rO0, p0⟩] : List (View.Piece (Elt F) S256x64 .f32)), y ∈ pc.1.set :=
  View.cover_of_tiled [⟨rO0, p0⟩] S256x64.size (by rfl) y

set_option maxHeartbeats 4000000 in
/-- The body on whole staging buffers, the inputs' at contents `x0`, `x1` and the outputs' at anything, runs to
    the inputs' as they were and the outputs' at `out0_2`, `out0_3` of the inputs. -/
theorem sound_kernel0 (c : Dev nD) (E : Set ℕ) (i : grid0.Coords)
    (arg0 : Memref sig .tc .vmem S256x8x1024 .bf16) (harg0 : arg0.IsWhole) (arg1 : Memref sig .tc .vmem S1024x512 .bf16) (harg1 : arg1.IsWhole)
    (arg2 : Memref sig .tc .vmem S256x64 .f32) (harg2 : arg2.IsWhole) (arg3 : Memref sig .tc .vmem S256x64 .f32) (harg3 : arg3.IsWhole)
    (x0 : Vec F S256x8x1024 .bf16) (x1 : Vec F S1024x512 .bf16) (K : PUnit → sProp 𝕄) :
    iprop(owns (c : Thread nD τ) arg0 fullShare x0 ∗ owns (c : Thread nD τ) arg1 fullShare x1
        ∗ (∃ d, owns (c : Thread nD τ) arg2 fullShare d) ∗ (∃ d, owns (c : Thread nD τ) arg3 fullShare d)
        ∗ (iprop(owns (c : Thread nD τ) arg0 fullShare x0 ∗ owns (c : Thread nD τ) arg1 fullShare x1
            ∗ owns (c : Thread nD τ) arg2 fullShare (out0_2 x0 x1) ∗ owns (c : Thread nD τ) arg3 fullShare (out0_3 x0 x1)) -∗ K ⟨⟩))
      ⊢ wp frame (wpE (defs₀ (F := F)) Variants.none c none) E (cc0_kernel i arg0 harg0 arg1 harg1 arg2 harg2 arg3 harg3) K := by
  simp only [cc0_kernel_eq_skeleton]; unfold cc0_kernel_skel
  simp only [k0_part1_eq_skeleton, k0_part2_eq_skeleton, k0_part3_eq_skeleton, k0_part4_eq_skeleton]; unfold k0_part1_skel k0_part2_skel k0_part3_skel k0_part4_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0 _)
  iexists _; isplitr
  swap; · iexact H3
  ipureintro
  exact View.read_writes_eq_canon _ _ _ (cover0 _)

/-- The proof data of pipeline 0 on core `c`: the arrays as the region finds them; after the body each input's
    buffer at its block and each output's at the body's function of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))
/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! # Region 1 (pipeline 1) at the entry contents `V` -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, whether or not it was fetched there. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole blocks the body loads and stores. -/
abbrev rA1 : Rect S256x3x1024 := Rect.unit (s := S256x3x1024) ![0, 0, 0] S256x3x1024.size inb_S256x3x1024_S256x3x1024_0_0_0
abbrev rB1 : Rect S1024x192 := Rect.unit (s := S1024x192) ![0, 0] S1024x192.size inb_S1024x192_S1024x192_0_0
abbrev rO1 : Rect S256x64 := Rect.unit (s := S256x64) ![0, 0] S256x64.size inb_S256x64_S256x64_0_0

/-- What the body stores into the first output block (the sum over query frames of the minimum over
    support frames), as the printed arithmetic of the two loaded blocks. -/
def sumMin1 (v0 : Vec F S256x3x1024 .bf16) (v2 : Vec F S1024x192 .bf16) : FVec F S256x64 .f32 :=
  k1_pay15 v0 v2
/-- What the body stores into the second output block (the sum over support frames of the minimum over
    query frames). -/
def minSum1 (v0 : Vec F S256x3x1024 .bf16) (v2 : Vec F S1024x192 .bf16) : FVec F S256x64 .f32 :=
  k1_pay16 v0 v2

/-- Each output block after the body, from the input blocks: one whole-block store. -/
def out1_2 (x0 : Vec F S256x3x1024 .bf16) (x1 : Vec F S1024x192 .bf16) : Vec F S256x64 .f32 :=
  View.canon [⟨rO1, sumMin1 (View.ld x0 rA1) (View.ld x1 rB1)⟩]
def out1_3 (x0 : Vec F S256x3x1024 .bf16) (x1 : Vec F S1024x192 .bf16) : Vec F S256x64 .f32 :=
  View.canon [⟨rO1, minSum1 (View.ld x0 rA1) (View.ld x1 rB1)⟩]

/-- A whole-block store covers the block. -/
theorem cover1 (p0 : Vec F S256x64 .f32) (y : S256x64.Idx) :
    ∃ pc ∈ ([⟨rO1, p0⟩] : List (View.Piece (Elt F) S256x64 .f32)), y ∈ pc.1.set :=
  View.cover_of_tiled [⟨rO1, p0⟩] S256x64.size (by rfl) y

set_option maxHeartbeats 4000000 in
/-- The body on whole staging buffers, the inputs' at contents `x0`, `x1` and the outputs' at anything, runs to
    the inputs' as they were and the outputs' at `out1_2`, `out1_3` of the inputs. -/
theorem sound_kernel1 (c : Dev nD) (E : Set ℕ) (i : grid1.Coords)
    (arg0 : Memref sig .tc .vmem S256x3x1024 .bf16) (harg0 : arg0.IsWhole) (arg1 : Memref sig .tc .vmem S1024x192 .bf16) (harg1 : arg1.IsWhole)
    (arg2 : Memref sig .tc .vmem S256x64 .f32) (harg2 : arg2.IsWhole) (arg3 : Memref sig .tc .vmem S256x64 .f32) (harg3 : arg3.IsWhole)
    (x0 : Vec F S256x3x1024 .bf16) (x1 : Vec F S1024x192 .bf16) (K : PUnit → sProp 𝕄) :
    iprop(owns (c : Thread nD τ) arg0 fullShare x0 ∗ owns (c : Thread nD τ) arg1 fullShare x1
        ∗ (∃ d, owns (c : Thread nD τ) arg2 fullShare d) ∗ (∃ d, owns (c : Thread nD τ) arg3 fullShare d)
        ∗ (iprop(owns (c : Thread nD τ) arg0 fullShare x0 ∗ owns (c : Thread nD τ) arg1 fullShare x1
            ∗ owns (c : Thread nD τ) arg2 fullShare (out1_2 x0 x1) ∗ owns (c : Thread nD τ) arg3 fullShare (out1_3 x0 x1)) -∗ K ⟨⟩))
      ⊢ wp frame (wpE (defs₀ (F := F)) Variants.none c none) E (cc1_kernel i arg0 harg0 arg1 harg1 arg2 harg2 arg3 harg3) K := by
  simp only [cc1_kernel_eq_skeleton]; unfold cc1_kernel_skel
  simp only [k1_part1_eq_skeleton]; unfold k1_part1_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover1 _)
  iexists _; isplitr
  swap; · iexact H3
  ipureintro
  exact View.read_writes_eq_canon _ _ _ (cover1 _)

/-- The proof data of pipeline 1 on core `c`: the arrays as the region finds them; after the body each input's
    buffer at its block and each output's at the body's function of the input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
    | ⟨3, _⟩ => out1_3 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]
theorem after1_3 (c : Dev nD) (t : Fin cfg1.N) : (dat1 V c).after 3 t = out1_3 (iblk1 V c 0 t) (iblk1 V c 1 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))
/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.Kernel.Chamfer

end
-- ==== Proof.KernelRun.lean ====
/-
  The program's run from launch to return, as five segments: the host operations before the first kernel launch,
  the first launch, the host operations between the launches, the second launch, the host operations after it.
  The buffer contents at each boundary are a fold from the launch memory: a host stretch applies its operations,
  a launch replaces its four arrays by what its write-backs leave and keeps every other buffer. The run ends with
  every buffer at the last fold; no operation and no launch writes an argument array, so each of them reads back
  through the fold to its launch contents.
-/
import proofs.«110043_j29283087024820_2_alg».proof.Proof.KernelRegions

set_option maxRecDepth 16384

noncomputable section

namespace Cert.Kernel.Chamfer

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host operations before the first kernel launch. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At launch 0's exit: its arrays at what the pipeline leaves (the inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host operations between the launches. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- At launch 1's exit: its arrays at what the pipeline leaves (the inputs as entered, each output's write-backs
    folded), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host operations that follow the second launch: the contents at return. -/
abbrev W5 : Dev nD → Valuation τ sig (Elt F) := fun c => StableHlo.after hostOps2 (W4 m ρ c)

/-! ## The arguments end as launched -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_forall_not_mem (b := Proc.devRef .tc main_arg0) _ _ (List.forall_iff_forall_mem.mp (by
          simp only [hostOps2, List.Forall, StableHlo.nullary_writes, StableHlo.unary_writes, StableHlo.binary_writes, StableHlo.ternary_writes, StableHlo.reshape_writes, StableHlo.nary_writes, Finset.mem_singleton]
          repeat' apply And.intro
          all_goals exact StableHlo.devRef_ne_of_ne (by decide)))
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.ternary_writes, StableHlo.reshape_writes, StableHlo.nary_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.reshape_writes, StableHlo.nary_writes, Finset.mem_singleton]
          repeat' apply And.intro
          all_goals exact StableHlo.devRef_ne_of_ne (by decide)))
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_forall_not_mem (b := Proc.devRef .tc main_arg1) _ _ (List.forall_iff_forall_mem.mp (by
          simp only [hostOps2, List.Forall, StableHlo.nullary_writes, StableHlo.unary_writes, StableHlo.binary_writes, StableHlo.ternary_writes, StableHlo.reshape_writes, StableHlo.nary_writes, Finset.mem_singleton]
          repeat' apply And.intro
          all_goals exact StableHlo.devRef_ne_of_ne (by decide)))
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.ternary_writes, StableHlo.reshape_writes, StableHlo.nary_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.reshape_writes, StableHlo.nary_writes, Finset.mem_singleton]
          repeat' apply And.intro
          all_goals exact StableHlo.devRef_ne_of_ne (by decide)))
    _ = m ((c : Thread nD τ).loc main_arg1) := rfl

theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_forall_not_mem (b := Proc.devRef .tc main_arg2) _ _ (List.forall_iff_forall_mem.mp (by
          simp only [hostOps2, List.Forall, StableHlo.nullary_writes, StableHlo.unary_writes, StableHlo.binary_writes, StableHlo.ternary_writes, StableHlo.reshape_writes, StableHlo.nary_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.Forall, StableHlo.nullary_writes, StableHlo.unary_writes, StableHlo.binary_writes, StableHlo.ternary_writes, StableHlo.reshape_writes, StableHlo.nary_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.reshape_writes, StableHlo.nary_writes, Finset.mem_singleton]
          repeat' apply And.intro
          all_goals exact StableHlo.devRef_ne_of_ne (by decide)))
    _ = m ((c : Thread nD τ).loc main_arg2) := rfl

theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_forall_not_mem (b := Proc.devRef .tc main_arg3) _ _ (List.forall_iff_forall_mem.mp (by
          simp only [hostOps2, List.Forall, StableHlo.nullary_writes, StableHlo.unary_writes, StableHlo.binary_writes, StableHlo.ternary_writes, StableHlo.reshape_writes, StableHlo.nary_writes, Finset.mem_singleton]
          repeat' apply And.intro
          all_goals exact StableHlo.devRef_ne_of_ne (by decide)))
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.Forall, StableHlo.nullary_writes, StableHlo.unary_writes, StableHlo.binary_writes, StableHlo.ternary_writes, StableHlo.reshape_writes, StableHlo.nary_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, StableHlo.reshape_writes, StableHlo.nary_writes, Finset.mem_singleton]
          repeat' apply And.intro
          all_goals exact StableHlo.devRef_ne_of_ne (by decide)))
    _ = m ((c : Thread nD τ).loc main_arg3) := rfl

theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := StableHlo.after_of_forall_not_mem (b := Proc.devRef .tc main_arg4) _ _ (List.forall_iff_forall_mem.mp (by
          simp only [hostOps2, List.Forall, StableHlo.nullary_writes, StableHlo.unary_writes, StableHlo.binary_writes, StableHlo.ternary_writes, StableHlo.reshape_writes, StableHlo.nary_writes, Finset.mem_singleton]
          repeat' apply And.intro
          all_goals exact StableHlo.devRef_ne_of_ne (by decide)))
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.Forall, StableHlo.nullary_writes, StableHlo.unary_writes, StableHlo.binary_writes, StableHlo.ternary_writes, StableHlo.reshape_writes, StableHlo.nary_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.Forall, StableHlo.nullary_writes, StableHlo.unary_writes, StableHlo.binary_writes, StableHlo.ternary_writes, StableHlo.reshape_writes, StableHlo.nary_writes, Finset.mem_singleton]
          repeat' apply And.intro
          all_goals exact StableHlo.devRef_ne_of_ne (by decide)))
    _ = m ((c : Thread nD τ).loc main_arg4) := rfl

/-! ## The proof data family and the thread state -/

abbrev adm : (p : Fin 2) → (pcfgs (F := F) p).Adm := fun p => (cfgs p).toPCfg_adm
/-- Each launch's proof data at its entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m ρ c) ∗ ∃ r, prngReg c r)

/-! ## The launches as segments -/

set_option backward.isDefEq.respectTransparency.types false in
/-- Launch 0 over the thread state: entered from every unscoped buffer at `W1`, left at `W2`. Its arrays are
    split out of the unscoped buffers and put back at what the write-backs leave; the generator register goes into
    the pipeline's invariant and comes out; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 over the thread state: entered from every unscoped buffer at `W3`, left at `W4`. Its arrays are
    split out of the unscoped buffers and put back at what the write-backs leave; the generator register goes into
    the pipeline's invariant and comes out; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
set_option maxHeartbeats 4000000 in
theorem main_run (c : Dev nD) : main (F := F) c = Pipeline.Seg.run (segs m ρ) := (main_chain c).trans (by chain_rfl)

set_option backward.isDefEq.respectTransparency.types false in
/-- From any memory with zero counters every weakly fair execution of the program terminates, nothing faulting,
    and every final state holds each unscoped buffer at the last fold's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- The frame: the run terminates, nothing faults, and the five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c)⟩) (run_all m ρ)

end Cert.Kernel.Chamfer

end
-- ==== Proof.KernelIdealRegions.lean ====
/-
  The two kernel launches of the program, each at an arbitrary valuation `V` of the buffers at its entry.
  Each launch walks 16 blocks of 256 query rows. At a block the body loads the block's normalized query frames
  (256 × T × 1024) and the whole matrix of normalized class prototypes (1024 × T·64, column s·64+k the prototype
  of class k at support frame s), forms for every query frame t the distances 1 − ⟨query frame t, prototype (k, s)⟩
  by one matrix product, and stores two 256 × 64 blocks: the sum over t of the minimum over s, and the sum over s
  of the minimum over t (T = 8 frames in the first launch, T = 3 window means in the second).
  Stated here: what a block of each window is, what the body leaves in each staging buffer as a function of the
  two input blocks, the body's run on whole staging buffers, and the per-point obligation of the pipeline.
-/
import proofs.«110043_j29283087024820_2_alg».proof.Proof.Gen.KernelIdeal.Launch
import proofs.«110043_j29283087024820_2_alg».proof.Proof.Gen.KernelIdeal.Skeleton
import proofs.«110043_j29283087024820_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Chamfer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! # Region 0 (pipeline 0) at the entry contents `V` -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether or not it was fetched there. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole blocks the body loads and stores. -/
abbrev rA0 : Rect S256x8x1024 := Rect.unit (s := S256x8x1024) ![0, 0, 0] S256x8x1024.size inb_S256x8x1024_S256x8x1024_0_0_0
abbrev rB0 : Rect S1024x512 := Rect.unit (s := S1024x512) ![0, 0] S1024x512.size inb_S1024x512_S1024x512_0_0
abbrev rO0 : Rect S256x64 := Rect.unit (s := S256x64) ![0, 0] S256x64.size inb_S256x64_S256x64_0_0

/-- What the body stores into the first output block (the sum over query frames of the minimum over
    support frames), as the printed arithmetic of the two loaded blocks. -/
def sumMin0 (v0 : Vec F S256x8x1024 .bf16) (v2 : Vec F S1024x512 .bf16) : FVec F S256x64 .f32 :=
  k0_pay4 (k0_pay103 (k0_pay6 v0) (k0_pay7 v2) (k0_pay74 (k0_pay6 v0) (k0_pay7 v2) (k0_pay46 (k0_pay6 v0) (k0_pay7 v2) (k0_pay17 v0 v2) (k0_pay18 v0 v2) (k0_pay30 v0 v2) (k0_pay32 v0 v2)) (k0_pay47 (k0_pay6 v0) (k0_pay7 v2)) (k0_pay59 (k0_pay6 v0) (k0_pay7 v2))) (k0_pay75 (k0_pay6 v0) (k0_pay7 v2)) (k0_pay85 (k0_pay6 v0) (k0_pay7 v2))) (k0_pay104 (k0_pay6 v0) (k0_pay7 v2)) (k0_pay112 (k0_pay6 v0) (k0_pay7 v2)) (k0_pay114 (k0_pay6 v0) (k0_pay7 v2))
/-- What the body stores into the second output block (the sum over support frames of the minimum over
    query frames). -/
def minSum0 (v0 : Vec F S256x8x1024 .bf16) (v2 : Vec F S1024x512 .bf16) : FVec F S256x64 .f32 :=
  k0_pay5 (k0_pay96 (k0_pay6 v0) (k0_pay7 v2) (k0_pay86 (k0_pay6 v0) (k0_pay7 v2) (k0_pay57 (k0_pay6 v0) (k0_pay7 v2) (k0_pay28 v0 v2)))) (k0_pay98 (k0_pay6 v0) (k0_pay7 v2) (k0_pay69 (k0_pay6 v0) (k0_pay7 v2) (k0_pay41 (k0_pay6 v0) (k0_pay7 v2) (k0_pay31 v0 v2)) (k0_pay58 (k0_pay6 v0) (k0_pay7 v2))) (k0_pay75 (k0_pay6 v0) (k0_pay7 v2))) (k0_pay100 (k0_pay6 v0) (k0_pay7 v2) (k0_pay71 (k0_pay6 v0) (k0_pay7 v2) (k0_pay43 (k0_pay6 v0) (k0_pay7 v2) (k0_pay15 v0 v2) (k0_pay32 v0 v2)) (k0_pay47 (k0_pay6 v0) (k0_pay7 v2))) (k0_pay75 (k0_pay6 v0) (k0_pay7 v2))) (k0_pay102 (k0_pay6 v0) (k0_pay7 v2) (k0_pay73 (k0_pay6 v0) (k0_pay7 v2) (k0_pay45 (k0_pay6 v0) (k0_pay7 v2) (k0_pay16 v0 v2) (k0_pay18 v0 v2)) (k0_pay47 (k0_pay6 v0) (k0_pay7 v2))) (k0_pay75 (k0_pay6 v0) (k0_pay7 v2))) (k0_pay104 (k0_pay6 v0) (k0_pay7 v2)) (k0_pay106 (k0_pay6 v0) (k0_pay7 v2) (k0_pay77 (k0_pay6 v0) (k0_pay7 v2) (k0_pay49 (k0_pay6 v0) (k0_pay7 v2) (k0_pay20 v0 v2)))) (k0_pay108 (k0_pay6 v0) (k0_pay7 v2) (k0_pay79 (k0_pay6 v0) (k0_pay7 v2) (k0_pay51 (k0_pay6 v0) (k0_pay7 v2) (k0_pay22 v0 v2)))) (k0_pay110 (k0_pay6 v0) (k0_pay7 v2) (k0_pay81 (k0_pay6 v0) (k0_pay7 v2) (k0_pay53 (k0_pay6 v0) (k0_pay7 v2) (k0_pay24 v0 v2)))) (k0_pay113 (k0_pay6 v0) (k0_pay7 v2) (k0_pay83 (k0_pay6 v0) (k0_pay7 v2) (k0_pay55 (k0_pay6 v0) (k0_pay7 v2) (k0_pay26 v0 v2)))) (k0_pay114 (k0_pay6 v0) (k0_pay7 v2))

/-- Each output block after the body, from the input blocks: one whole-block store. -/
def out0_2 (x0 : Vec F S256x8x1024 .bf16) (x1 : Vec F S1024x512 .bf16) : Vec F S256x64 .f32 :=
  View.canon [⟨rO0, sumMin0 (View.ld x0 rA0) (View.ld x1 rB0)⟩]
def out0_3 (x0 : Vec F S256x8x1024 .bf16) (x1 : Vec F S1024x512 .bf16) : Vec F S256x64 .f32 :=
  View.canon [⟨rO0, minSum0 (View.ld x0 rA0) (View.ld x1 rB0)⟩]

/-- A whole-block store covers the block. -/
theorem cover0 (p0 : Vec F S256x64 .f32) (y : S256x64.Idx) :
    ∃ pc ∈ ([⟨rO0, p0⟩] : List (View.Piece (Elt F) S256x64 .f32)), y ∈ pc.1.set :=
  View.cover_of_tiled [⟨rO0, p0⟩] S256x64.size (by rfl) y

set_option maxHeartbeats 4000000 in
/-- The body on whole staging buffers, the inputs' at contents `x0`, `x1` and the outputs' at anything, runs to
    the inputs' as they were and the outputs' at `out0_2`, `out0_3` of the inputs. -/
theorem sound_kernel0 (c : Dev nD) (E : Set ℕ) (i : grid0.Coords)
    (arg0 : Memref sig .tc .vmem S256x8x1024 .bf16) (harg0 : arg0.IsWhole) (arg1 : Memref sig .tc .vmem S1024x512 .bf16) (harg1 : arg1.IsWhole)
    (arg2 : Memref sig .tc .vmem S256x64 .f32) (harg2 : arg2.IsWhole) (arg3 : Memref sig .tc .vmem S256x64 .f32) (harg3 : arg3.IsWhole)
    (x0 : Vec F S256x8x1024 .bf16) (x1 : Vec F S1024x512 .bf16) (K : PUnit → sProp 𝕄) :
    iprop(owns (c : Thread nD τ) arg0 fullShare x0 ∗ owns (c : Thread nD τ) arg1 fullShare x1
        ∗ (∃ d, owns (c : Thread nD τ) arg2 fullShare d) ∗ (∃ d, owns (c : Thread nD τ) arg3 fullShare d)
        ∗ (iprop(owns (c : Thread nD τ) arg0 fullShare x0 ∗ owns (c : Thread nD τ) arg1 fullShare x1
            ∗ owns (c : Thread nD τ) arg2 fullShare (out0_2 x0 x1) ∗ owns (c : Thread nD τ) arg3 fullShare (out0_3 x0 x1)) -∗ K ⟨⟩))
      ⊢ wp frame (wpE (defs₀ (F := F)) Variants.none c none) E (cc0_kernel i arg0 harg0 arg1 harg1 arg2 harg2 arg3 harg3) K := by
  simp only [cc0_kernel_eq_skeleton]; unfold cc0_kernel_skel
  simp only [k0_part1_eq_skeleton, k0_part2_eq_skeleton, k0_part3_eq_skeleton, k0_part4_eq_skeleton]; unfold k0_part1_skel k0_part2_skel k0_part3_skel k0_part4_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0 _)
  iexists _; isplitr
  swap; · iexact H3
  ipureintro
  exact View.read_writes_eq_canon _ _ _ (cover0 _)

/-- The proof data of pipeline 0 on core `c`: the arrays as the region finds them; after the body each input's
    buffer at its block and each output's at the body's function of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))
/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! # Region 1 (pipeline 1) at the entry contents `V` -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, whether or not it was fetched there. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole blocks the body loads and stores. -/
abbrev rA1 : Rect S256x3x1024 := Rect.unit (s := S256x3x1024) ![0, 0, 0] S256x3x1024.size inb_S256x3x1024_S256x3x1024_0_0_0
abbrev rB1 : Rect S1024x192 := Rect.unit (s := S1024x192) ![0, 0] S1024x192.size inb_S1024x192_S1024x192_0_0
abbrev rO1 : Rect S256x64 := Rect.unit (s := S256x64) ![0, 0] S256x64.size inb_S256x64_S256x64_0_0

/-- What the body stores into the first output block (the sum over query frames of the minimum over
    support frames), as the printed arithmetic of the two loaded blocks. -/
def sumMin1 (v0 : Vec F S256x3x1024 .bf16) (v2 : Vec F S1024x192 .bf16) : FVec F S256x64 .f32 :=
  k1_pay15 v0 v2
/-- What the body stores into the second output block (the sum over support frames of the minimum over
    query frames). -/
def minSum1 (v0 : Vec F S256x3x1024 .bf16) (v2 : Vec F S1024x192 .bf16) : FVec F S256x64 .f32 :=
  k1_pay16 v0 v2

/-- Each output block after the body, from the input blocks: one whole-block store. -/
def out1_2 (x0 : Vec F S256x3x1024 .bf16) (x1 : Vec F S1024x192 .bf16) : Vec F S256x64 .f32 :=
  View.canon [⟨rO1, sumMin1 (View.ld x0 rA1) (View.ld x1 rB1)⟩]
def out1_3 (x0 : Vec F S256x3x1024 .bf16) (x1 : Vec F S1024x192 .bf16) : Vec F S256x64 .f32 :=
  View.canon [⟨rO1, minSum1 (View.ld x0 rA1) (View.ld x1 rB1)⟩]

/-- A whole-block store covers the block. -/
theorem cover1 (p0 : Vec F S256x64 .f32) (y : S256x64.Idx) :
    ∃ pc ∈ ([⟨rO1, p0⟩] : List (View.Piece (Elt F) S256x64 .f32)), y ∈ pc.1.set :=
  View.cover_of_tiled [⟨rO1, p0⟩] S256x64.size (by rfl) y

set_option maxHeartbeats 4000000 in
/-- The body on whole staging buffers, the inputs' at contents `x0`, `x1` and the outputs' at anything, runs to
    the inputs' as they were and the outputs' at `out1_2`, `out1_3` of the inputs. -/
theorem sound_kernel1 (c : Dev nD) (E : Set ℕ) (i : grid1.Coords)
    (arg0 : Memref sig .tc .vmem S256x3x1024 .bf16) (harg0 : arg0.IsWhole) (arg1 : Memref sig .tc .vmem S1024x192 .bf16) (harg1 : arg1.IsWhole)
    (arg2 : Memref sig .tc .vmem S256x64 .f32) (harg2 : arg2.IsWhole) (arg3 : Memref sig .tc .vmem S256x64 .f32) (harg3 : arg3.IsWhole)
    (x0 : Vec F S256x3x1024 .bf16) (x1 : Vec F S1024x192 .bf16) (K : PUnit → sProp 𝕄) :
    iprop(owns (c : Thread nD τ) arg0 fullShare x0 ∗ owns (c : Thread nD τ) arg1 fullShare x1
        ∗ (∃ d, owns (c : Thread nD τ) arg2 fullShare d) ∗ (∃ d, owns (c : Thread nD τ) arg3 fullShare d)
        ∗ (iprop(owns (c : Thread nD τ) arg0 fullShare x0 ∗ owns (c : Thread nD τ) arg1 fullShare x1
            ∗ owns (c : Thread nD τ) arg2 fullShare (out1_2 x0 x1) ∗ owns (c : Thread nD τ) arg3 fullShare (out1_3 x0 x1)) -∗ K ⟨⟩))
      ⊢ wp frame (wpE (defs₀ (F := F)) Variants.none c none) E (cc1_kernel i arg0 harg0 arg1 harg1 arg2 harg2 arg3 harg3) K := by
  simp only [cc1_kernel_eq_skeleton]; unfold cc1_kernel_skel
  simp only [k1_part1_eq_skeleton]; unfold k1_part1_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover1 _)
  iexists _; isplitr
  swap; · iexact H3
  ipureintro
  exact View.read_writes_eq_canon _ _ _ (cover1 _)

/-- The proof data of pipeline 1 on core `c`: the arrays as the region finds them; after the body each input's
    buffer at its block and each output's at the body's function of the input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
    | ⟨3, _⟩ => out1_3 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]
theorem after1_3 (c : Dev nD) (t : Fin cfg1.N) : (dat1 V c).after 3 t = out1_3 (iblk1 V c 0 t) (iblk1 V c 1 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))
/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.KernelIdeal.Chamfer

end
-- ==== Proof.KernelIdealRun.lean ====
/-
  The program's run from launch to return, as five segments: the host operations before the first kernel launch,
  the first launch, the host operations between the launches, the second launch, the host operations after it.
  The buffer contents at each boundary are a fold from the launch memory: a host stretch applies its operations,
  a launch replaces its four arrays by what its write-backs leave and keeps every other buffer. The run ends with
  every buffer at the last fold; no operation and no launch writes an argument array, so each of them reads back
  through the fold to its launch contents.
-/
import proofs.«110043_j29283087024820_2_alg».proof.Proof.KernelIdealRegions

set_option maxRecDepth 16384

noncomputable section

namespace Cert.KernelIdeal.Chamfer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host operations before the first kernel launch. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At launch 0's exit: its arrays at what the pipeline leaves (the inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host operations between the launches. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- At launch 1's exit: its arrays at what the pipeline leaves (the inputs as entered, each output's write-backs
    folded), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host operations that follow the second launch: the contents at return. -/
abbrev W5 : Dev nD → Valuation τ sig (Elt F) := fun c => StableHlo.after hostOps2 (W4 m ρ c)

/-! ## The arguments end as launched -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_forall_not_mem (b := Proc.devRef .tc main_arg0) _ _ (List.forall_iff_forall_mem.mp (by
          simp only [hostOps2, List.Forall, StableHlo.nullary_writes, StableHlo.unary_writes, StableHlo.binary_writes, StableHlo.ternary_writes, StableHlo.reshape_writes, StableHlo.nary_writes, Finset.mem_singleton]
          repeat' apply And.intro
          all_goals exact StableHlo.devRef_ne_of_ne (by decide)))
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.ternary_writes, StableHlo.reshape_writes, StableHlo.nary_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.reshape_writes, StableHlo.nary_writes, Finset.mem_singleton]
          repeat' apply And.intro
          all_goals exact StableHlo.devRef_ne_of_ne (by decide)))
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_forall_not_mem (b := Proc.devRef .tc main_arg1) _ _ (List.forall_iff_forall_mem.mp (by
          simp only [hostOps2, List.Forall, StableHlo.nullary_writes, StableHlo.unary_writes, StableHlo.binary_writes, StableHlo.ternary_writes, StableHlo.reshape_writes, StableHlo.nary_writes, Finset.mem_singleton]
          repeat' apply And.intro
          all_goals exact StableHlo.devRef_ne_of_ne (by decide)))
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.ternary_writes, StableHlo.reshape_writes, StableHlo.nary_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.reshape_writes, StableHlo.nary_writes, Finset.mem_singleton]
          repeat' apply And.intro
          all_goals exact StableHlo.devRef_ne_of_ne (by decide)))
    _ = m ((c : Thread nD τ).loc main_arg1) := rfl

theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_forall_not_mem (b := Proc.devRef .tc main_arg2) _ _ (List.forall_iff_forall_mem.mp (by
          simp only [hostOps2, List.Forall, StableHlo.nullary_writes, StableHlo.unary_writes, StableHlo.binary_writes, StableHlo.ternary_writes, StableHlo.reshape_writes, StableHlo.nary_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.Forall, StableHlo.nullary_writes, StableHlo.unary_writes, StableHlo.binary_writes, StableHlo.ternary_writes, StableHlo.reshape_writes, StableHlo.nary_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.reshape_writes, StableHlo.nary_writes, Finset.mem_singleton]
          repeat' apply And.intro
          all_goals exact StableHlo.devRef_ne_of_ne (by decide)))
    _ = m ((c : Thread nD τ).loc main_arg2) := rfl

theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_forall_not_mem (b := Proc.devRef .tc main_arg3) _ _ (List.forall_iff_forall_mem.mp (by
          simp only [hostOps2, List.Forall, StableHlo.nullary_writes, StableHlo.unary_writes, StableHlo.binary_writes, StableHlo.ternary_writes, StableHlo.reshape_writes, StableHlo.nary_writes, Finset.mem_singleton]
          repeat' apply And.intro
          all_goals exact StableHlo.devRef_ne_of_ne (by decide)))
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.Forall, StableHlo.nullary_writes, StableHlo.unary_writes, StableHlo.binary_writes, StableHlo.ternary_writes, StableHlo.reshape_writes, StableHlo.nary_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, StableHlo.reshape_writes, StableHlo.nary_writes, Finset.mem_singleton]
          repeat' apply And.intro
          all_goals exact StableHlo.devRef_ne_of_ne (by decide)))
    _ = m ((c : Thread nD τ).loc main_arg3) := rfl

theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := StableHlo.after_of_forall_not_mem (b := Proc.devRef .tc main_arg4) _ _ (List.forall_iff_forall_mem.mp (by
          simp only [hostOps2, List.Forall, StableHlo.nullary_writes, StableHlo.unary_writes, StableHlo.binary_writes, StableHlo.ternary_writes, StableHlo.reshape_writes, StableHlo.nary_writes, Finset.mem_singleton]
          repeat' apply And.intro
          all_goals exact StableHlo.devRef_ne_of_ne (by decide)))
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.Forall, StableHlo.nullary_writes, StableHlo.unary_writes, StableHlo.binary_writes, StableHlo.ternary_writes, StableHlo.reshape_writes, StableHlo.nary_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.Forall, StableHlo.nullary_writes, StableHlo.unary_writes, StableHlo.binary_writes, StableHlo.ternary_writes, StableHlo.reshape_writes, StableHlo.nary_writes, Finset.mem_singleton]
          repeat' apply And.intro
          all_goals exact StableHlo.devRef_ne_of_ne (by decide)))
    _ = m ((c : Thread nD τ).loc main_arg4) := rfl

/-! ## The proof data family and the thread state -/

abbrev adm : (p : Fin 2) → (pcfgs (F := F) p).Adm := fun p => (cfgs p).toPCfg_adm
/-- Each launch's proof data at its entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m ρ c) ∗ ∃ r, prngReg c r)

/-! ## The launches as segments -/

set_option backward.isDefEq.respectTransparency.types false in
/-- Launch 0 over the thread state: entered from every unscoped buffer at `W1`, left at `W2`. Its arrays are
    split out of the unscoped buffers and put back at what the write-backs leave; the generator register goes into
    the pipeline's invariant and comes out; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 over the thread state: entered from every unscoped buffer at `W3`, left at `W4`. Its arrays are
    split out of the unscoped buffers and put back at what the write-backs leave; the generator register goes into
    the pipeline's invariant and comes out; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
set_option maxHeartbeats 4000000 in
theorem main_run (c : Dev nD) : main (F := F) c = Pipeline.Seg.run (segs m ρ) := (main_chain c).trans (by chain_rfl)

set_option backward.isDefEq.respectTransparency.types false in
/-- From any memory with zero counters every weakly fair execution of the program terminates, nothing faulting,
    and every final state holds each unscoped buffer at the last fold's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- The frame: the run terminates, nothing faults, and the five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c)⟩) (run_all m ρ)

end Cert.KernelIdeal.Chamfer

end
-- ==== Proof.KernelIdealArrays.lean ====
/-
  Each launch's two output arrays after the launch, as whole-array functions of its two input arrays.

  Point t of a launch reads rows 256t … 256t+255 of the query array and the whole prototype matrix, and writes back the
  two 256 × 64 blocks at rows 256t … of the output arrays. The 16 blocks tile the 4096 rows, so each output array ends
  holding, at (q, k), the body's stored block for the rows that hold q, read at row q mod 256.
-/
import proofs.«110043_j29283087024820_2_alg».proof.Proof.KernelIdealRegions
import Idealize.ShloMosaic.Lib.Pipeline.Value
import Idealize.ShloMosaic.Lib.ValueIdx

set_option maxRecDepth 16384

noncomputable section

namespace Cert.KernelIdeal.Chamfer

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]
variable (V : (c : Dev nD) → (b : Ref sig .tc) → Buf (Elt F) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- A row number within its block of 256, and a column number, as literal-size indices. -/
def row256 (n : ℕ) : Fin 256 := ⟨n % 256, Nat.mod_lt _ (by decide)⟩
def col64 (n : ℕ) : Fin 64 := ⟨n % 64, Nat.mod_lt _ (by decide)⟩

/-! ## Launch 0 -/

/-- The printed index maps over the grid: the query window and both output windows are at block `t` along the rows
    at point `t`, every other block index is 0. -/
theorem idx_facts0 : ∀ t : Fin cfg0.N, win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Rows 256·q … 256·q + 255 of the query array. -/
def rows0 (a : S4096x8x1024.Idx → Elt F .bf16) (q : ℕ) : Vec F S256x8x1024 .bf16 :=
  fun y => a (ix3 (⟨(q * 256 + (y 0).val) % 4096, Nat.mod_lt _ (by decide)⟩ : Fin 4096) (⟨(y 1).val % 8, Nat.mod_lt _ (by decide)⟩ : Fin 8)
    (⟨(y 2).val % 1024, Nat.mod_lt _ (by decide)⟩ : Fin 1024))

/-- The query window's block at point `t` is rows 256·t … of its array. -/
theorem rows0_eq (c : Dev nD) (t : Fin cfg0.N) : rows0 (V c main_v31) t.val = iblk0 V c 0 t := by
  obtain ⟨e00, e01, e02, e10, e11, e20, e21, e30, e31⟩ := idx_facts0 t
  have ht : t.val < 16 := lt_of_lt_of_eq t.isLt N_0
  funext y
  have hy0 : (y 0).val < 256 := (y 0).isLt
  have hy1 : (y 1).val < 8 := (y 1).isLt
  have hy2 : (y 2).val < 1024 := (y 2).isLt
  show V c main_v31 _ = V c main_v31 (((cfg0.win 0).blk t).view.emb y)
  refine congrArg (V c main_v31) (funext fun a => Fin.ext ?_)
  match a with
  | ⟨0, _⟩ => show (t.val * 256 + (y 0).val) % 4096 = win0_0.index t (0 : Fin 3) * 256 + 1 * (y 0).val; omega
  | ⟨1, _⟩ => show (y 1).val % 8 = win0_0.index t (1 : Fin 3) * 8 + 1 * (y 1).val; omega
  | ⟨2, _⟩ => show (y 2).val % 1024 = win0_0.index t (2 : Fin 3) * 1024 + 1 * (y 2).val; omega

/-- The prototype window's block at every point is its whole array. -/
theorem whole0_eq (c : Dev nD) (t : Fin cfg0.N) : (V c main_v32 : S1024x512.Idx → Elt F .bf16) = iblk0 V c 1 t := by
  obtain ⟨e00, e01, e02, e10, e11, e20, e21, e30, e31⟩ := idx_facts0 t
  funext y
  show V c main_v32 y = V c main_v32 (((cfg0.win 1).blk t).view.emb y)
  refine congrArg (V c main_v32) (funext fun a => Fin.ext ?_)
  match a with
  | ⟨0, _⟩ => show (y 0).val = win0_1.index t (0 : Fin 2) * 1024 + 1 * (y 0).val; omega
  | ⟨1, _⟩ => show (y 1).val = win0_1.index t (1 : Fin 2) * 512 + 1 * (y 1).val; omega

/-- What the first output array of launch 0 ends holding, as a function of the two input arrays: entry (q, k) is the body's
    first stored block for the 256 rows that hold q, read at row q mod 256. -/
def G0_2 (a : S4096x8x1024.Idx → Elt F .bf16) (b : S1024x512.Idx → Elt F .bf16) : S4096x64.Idx → Elt F .f32 :=
  fun i => sumMin0 (rows0 a ((i 0).val / 256)) b (ix2 (row256 (i 0).val) (col64 (i 1).val))

/-- What point `t` writes back into that array is block `t` of the function. -/
theorem flushed0_2_eq (c : Dev nD) (t : Fin cfg0.N) :
    (dat0 V c).flushed 2 t = ((cfg0.win 2).blk t).view.read (Elt F) (G0_2 (V c main_v31) (V c main_v32)) := by
  show (cfg0.win 2).cut (grid0.coords t) ((dat0 V c).after 2 t) = _
  rw [after0_2]
  unfold out0_2
  rw [View.canon_unit_zero hz2]
  simp only [View.ld_unit_zero (S := S256x8x1024) hz3, View.ld_unit_zero (S := S1024x512) hz2]
  obtain ⟨e00, e01, e02, e10, e11, e20, e21, e30, e31⟩ := idx_facts0 t
  have ht : t.val < 16 := lt_of_lt_of_eq t.isLt N_0
  funext j
  have hj0 : (j 0).val < 256 := (j 0).isLt
  have hj1 : (j 1).val < 64 := (j 1).isLt
  have h0 : ((((cfg0.win 2).blk t).view.emb j) 0).val = t.val * 256 + (j 0).val := by
    show win0_2.index t (0 : Fin 2) * 256 + 1 * (j 0).val = _; omega
  have h1 : ((((cfg0.win 2).blk t).view.emb j) 1).val = (j 1).val := by
    show win0_2.index t (1 : Fin 2) * 64 + 1 * (j 1).val = _; omega
  show sumMin0 (iblk0 V c 0 t) (iblk0 V c 1 t) j = G0_2 (V c main_v31) (V c main_v32) (((cfg0.win 2).blk t).view.emb j)
  unfold G0_2
  rw [h0, h1]
  have hq : (t.val * 256 + (j 0).val) / 256 = t.val := by omega
  rw [hq]
  have hA : rows0 (V c main_v31) t.val = iblk0 V c 0 t := rows0_eq V c t
  have hB : (V c main_v32 : S1024x512.Idx → Elt F .bf16) = iblk0 V c 1 t := whole0_eq V c t
  have hj : ix2 (row256 (t.val * 256 + (j 0).val)) (col64 (j 1).val) = j := by
    funext a; apply Fin.ext
    match a with
    | ⟨0, _⟩ => show (t.val * 256 + (j 0).val) % 256 = (j 0).val; omega
    | ⟨1, _⟩ => show (j 1).val % 64 = (j 1).val; omega
  rw [hA, hB, hj]

theorem mem_blk0_2 (t : Fin cfg0.N) (i : S4096x64.Idx) :
    i ∈ ((cfg0.win 2).blk t).view.set ↔ ∀ a : Fin 2, win0_2.index t a * S256x64.size a ≤ (i a).val ∧ (i a).val < win0_2.index t a * S256x64.size a + S256x64.size a := by
  show i ∈ ((View.whole main_v33_0).slice (win0_2.rect t)).set ↔ _
  rw [View.set_slice_whole, Rect.mem_set_unit]
  exact Iff.rfl

/-- Every entry of the array lies in the block of the point that handles its 256 rows. -/
theorem covered0_2 (i : S4096x64.Idx) :
    ∃ t : Fin cfg0.N, (cfg0.win 2).flush t = true ∧ i ∈ ((cfg0.win 2).blk t).view.set := by
  have hi0 : (i 0).val < 4096 := (i 0).isLt
  have hi1 : (i 1).val < 64 := (i 1).isLt
  have hN : cfg0.N = 16 := N_0
  refine ⟨⟨(i 0).val / 256, by rw [hN]; omega⟩, flush0_2 _, ?_⟩
  obtain ⟨e00, e01, e02, e10, e11, e20, e21, e30, e31⟩ := idx_facts0 (⟨(i 0).val / 256, by rw [hN]; omega⟩ : Fin cfg0.N)
  rw [mem_blk0_2]
  intro a
  match a with
  | ⟨0, _⟩ =>
    show win0_2.index _ (0 : Fin 2) * 256 ≤ (i 0).val ∧ (i 0).val < win0_2.index _ (0 : Fin 2) * 256 + 256
    rw [e20]; show (i 0).val / 256 * 256 ≤ (i 0).val ∧ (i 0).val < (i 0).val / 256 * 256 + 256; omega
  | ⟨1, _⟩ =>
    show win0_2.index _ (1 : Fin 2) * 64 ≤ (i 1).val ∧ (i 1).val < win0_2.index _ (1 : Fin 2) * 64 + 64
    rw [e21]; omega

/-- The array after the launch. -/
theorem final0_2 (c : Dev nD) : (dat0 V c).arrAt 2 cfg0.N = G0_2 (V c main_v31) (V c main_v32) :=
  (dat0 V c).arrAt_eq_of_cover 2 _ (fun t _ => flushed0_2_eq V c t) covered0_2

/-- What the second output array of launch 0 ends holding, as a function of the two input arrays: entry (q, k) is the body's
    second stored block for the 256 rows that hold q, read at row q mod 256. -/
def G0_3 (a : S4096x8x1024.Idx → Elt F .bf16) (b : S1024x512.Idx → Elt F .bf16) : S4096x64.Idx → Elt F .f32 :=
  fun i => minSum0 (rows0 a ((i 0).val / 256)) b (ix2 (row256 (i 0).val) (col64 (i 1).val))

/-- What point `t` writes back into that array is block `t` of the function. -/
theorem flushed0_3_eq (c : Dev nD) (t : Fin cfg0.N) :
    (dat0 V c).flushed 3 t = ((cfg0.win 3).blk t).view.read (Elt F) (G0_3 (V c main_v31) (V c main_v32)) := by
  show (cfg0.win 3).cut (grid0.coords t) ((dat0 V c).after 3 t) = _
  rw [after0_3]
  unfold out0_3
  rw [View.canon_unit_zero hz2]
  simp only [View.ld_unit_zero (S := S256x8x1024) hz3, View.ld_unit_zero (S := S1024x512) hz2]
  obtain ⟨e00, e01, e02, e10, e11, e20, e21, e30, e31⟩ := idx_facts0 t
  have ht : t.val < 16 := lt_of_lt_of_eq t.isLt N_0
  funext j
  have hj0 : (j 0).val < 256 := (j 0).isLt
  have hj1 : (j 1).val < 64 := (j 1).isLt
  have h0 : ((((cfg0.win 3).blk t).view.emb j) 0).val = t.val * 256 + (j 0).val := by
    show win0_3.index t (0 : Fin 2) * 256 + 1 * (j 0).val = _; omega
  have h1 : ((((cfg0.win 3).blk t).view.emb j) 1).val = (j 1).val := by
    show win0_3.index t (1 : Fin 2) * 64 + 1 * (j 1).val = _; omega
  show minSum0 (iblk0 V c 0 t) (iblk0 V c 1 t) j = G0_3 (V c main_v31) (V c main_v32) (((cfg0.win 3).blk t).view.emb j)
  unfold G0_3
  rw [h0, h1]
  have hq : (t.val * 256 + (j 0).val) / 256 = t.val := by omega
  rw [hq]
  have hA : rows0 (V c main_v31) t.val = iblk0 V c 0 t := rows0_eq V c t
  have hB : (V c main_v32 : S1024x512.Idx → Elt F .bf16) = iblk0 V c 1 t := whole0_eq V c t
  have hj : ix2 (row256 (t.val * 256 + (j 0).val)) (col64 (j 1).val) = j := by
    funext a; apply Fin.ext
    match a with
    | ⟨0, _⟩ => show (t.val * 256 + (j 0).val) % 256 = (j 0).val; omega
    | ⟨1, _⟩ => show (j 1).val % 64 = (j 1).val; omega
  rw [hA, hB, hj]

theorem mem_blk0_3 (t : Fin cfg0.N) (i : S4096x64.Idx) :
    i ∈ ((cfg0.win 3).blk t).view.set ↔ ∀ a : Fin 2, win0_3.index t a * S256x64.size a ≤ (i a).val ∧ (i a).val < win0_3.index t a * S256x64.size a + S256x64.size a := by
  show i ∈ ((View.whole main_v33_1).slice (win0_3.rect t)).set ↔ _
  rw [View.set_slice_whole, Rect.mem_set_unit]
  exact Iff.rfl

/-- Every entry of the array lies in the block of the point that handles its 256 rows. -/
theorem covered0_3 (i : S4096x64.Idx) :
    ∃ t : Fin cfg0.N, (cfg0.win 3).flush t = true ∧ i ∈ ((cfg0.win 3).blk t).view.set := by
  have hi0 : (i 0).val < 4096 := (i 0).isLt
  have hi1 : (i 1).val < 64 := (i 1).isLt
  have hN : cfg0.N = 16 := N_0
  refine ⟨⟨(i 0).val / 256, by rw [hN]; omega⟩, flush0_3 _, ?_⟩
  obtain ⟨e00, e01, e02, e10, e11, e20, e21, e30, e31⟩ := idx_facts0 (⟨(i 0).val / 256, by rw [hN]; omega⟩ : Fin cfg0.N)
  rw [mem_blk0_3]
  intro a
  match a with
  | ⟨0, _⟩ =>
    show win0_3.index _ (0 : Fin 2) * 256 ≤ (i 0).val ∧ (i 0).val < win0_3.index _ (0 : Fin 2) * 256 + 256
    rw [e30]; show (i 0).val / 256 * 256 ≤ (i 0).val ∧ (i 0).val < (i 0).val / 256 * 256 + 256; omega
  | ⟨1, _⟩ =>
    show win0_3.index _ (1 : Fin 2) * 64 ≤ (i 1).val ∧ (i 1).val < win0_3.index _ (1 : Fin 2) * 64 + 64
    rw [e31]; omega

/-- The array after the launch. -/
theorem final0_3 (c : Dev nD) : (dat0 V c).arrAt 3 cfg0.N = G0_3 (V c main_v31) (V c main_v32) :=
  (dat0 V c).arrAt_eq_of_cover 3 _ (fun t _ => flushed0_3_eq V c t) covered0_3

/-! ## Launch 1 -/

/-- The printed index maps over the grid: the query window and both output windows are at block `t` along the rows
    at point `t`, every other block index is 0. -/
theorem idx_facts1 : ∀ t : Fin cfg1.N, win1_0.index t (0 : Fin 3) = t.val ∧ win1_0.index t (1 : Fin 3) = 0 ∧ win1_0.index t (2 : Fin 3) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- Rows 256·q … 256·q + 255 of the query array. -/
def rows1 (a : S4096x3x1024.Idx → Elt F .bf16) (q : ℕ) : Vec F S256x3x1024 .bf16 :=
  fun y => a (ix3 (⟨(q * 256 + (y 0).val) % 4096, Nat.mod_lt _ (by decide)⟩ : Fin 4096) (⟨(y 1).val % 3, Nat.mod_lt _ (by decide)⟩ : Fin 3)
    (⟨(y 2).val % 1024, Nat.mod_lt _ (by decide)⟩ : Fin 1024))

/-- The query window's block at point `t` is rows 256·t … of its array. -/
theorem rows1_eq (c : Dev nD) (t : Fin cfg1.N) : rows1 (V c main_v98) t.val = iblk1 V c 0 t := by
  obtain ⟨e00, e01, e02, e10, e11, e20, e21, e30, e31⟩ := idx_facts1 t
  have ht : t.val < 16 := lt_of_lt_of_eq t.isLt N_1
  funext y
  have hy0 : (y 0).val < 256 := (y 0).isLt
  have hy1 : (y 1).val < 3 := (y 1).isLt
  have hy2 : (y 2).val < 1024 := (y 2).isLt
  show V c main_v98 _ = V c main_v98 (((cfg1.win 0).blk t).view.emb y)
  refine congrArg (V c main_v98) (funext fun a => Fin.ext ?_)
  match a with
  | ⟨0, _⟩ => show (t.val * 256 + (y 0).val) % 4096 = win1_0.index t (0 : Fin 3) * 256 + 1 * (y 0).val; omega
  | ⟨1, _⟩ => show (y 1).val % 3 = win1_0.index t (1 : Fin 3) * 3 + 1 * (y 1).val; omega
  | ⟨2, _⟩ => show (y 2).val % 1024 = win1_0.index t (2 : Fin 3) * 1024 + 1 * (y 2).val; omega

/-- The prototype window's block at every point is its whole array. -/
theorem whole1_eq (c : Dev nD) (t : Fin cfg1.N) : (V c main_v99 : S1024x192.Idx → Elt F .bf16) = iblk1 V c 1 t := by
  obtain ⟨e00, e01, e02, e10, e11, e20, e21, e30, e31⟩ := idx_facts1 t
  funext y
  show V c main_v99 y = V c main_v99 (((cfg1.win 1).blk t).view.emb y)
  refine congrArg (V c main_v99) (funext fun a => Fin.ext ?_)
  match a with
  | ⟨0, _⟩ => show (y 0).val = win1_1.index t (0 : Fin 2) * 1024 + 1 * (y 0).val; omega
  | ⟨1, _⟩ => show (y 1).val = win1_1.index t (1 : Fin 2) * 192 + 1 * (y 1).val; omega

/-- What the first output array of launch 1 ends holding, as a function of the two input arrays: entry (q, k) is the body's
    first stored block for the 256 rows that hold q, read at row q mod 256. -/
def G1_2 (a : S4096x3x1024.Idx → Elt F .bf16) (b : S1024x192.Idx → Elt F .bf16) : S4096x64.Idx → Elt F .f32 :=
  fun i => sumMin1 (rows1 a ((i 0).val / 256)) b (ix2 (row256 (i 0).val) (col64 (i 1).val))

/-- What point `t` writes back into that array is block `t` of the function. -/
theorem flushed1_2_eq (c : Dev nD) (t : Fin cfg1.N) :
    (dat1 V c).flushed 2 t = ((cfg1.win 2).blk t).view.read (Elt F) (G1_2 (V c main_v98) (V c main_v99)) := by
  show (cfg1.win 2).cut (grid1.coords t) ((dat1 V c).after 2 t) = _
  rw [after1_2]
  unfold out1_2
  rw [View.canon_unit_zero hz2]
  simp only [View.ld_unit_zero (S := S256x3x1024) hz3, View.ld_unit_zero (S := S1024x192) hz2]
  obtain ⟨e00, e01, e02, e10, e11, e20, e21, e30, e31⟩ := idx_facts1 t
  have ht : t.val < 16 := lt_of_lt_of_eq t.isLt N_1
  funext j
  have hj0 : (j 0).val < 256 := (j 0).isLt
  have hj1 : (j 1).val < 64 := (j 1).isLt
  have h0 : ((((cfg1.win 2).blk t).view.emb j) 0).val = t.val * 256 + (j 0).val := by
    show win1_2.index t (0 : Fin 2) * 256 + 1 * (j 0).val = _; omega
  have h1 : ((((cfg1.win 2).blk t).view.emb j) 1).val = (j 1).val := by
    show win1_2.index t (1 : Fin 2) * 64 + 1 * (j 1).val = _; omega
  show sumMin1 (iblk1 V c 0 t) (iblk1 V c 1 t) j = G1_2 (V c main_v98) (V c main_v99) (((cfg1.win 2).blk t).view.emb j)
  unfold G1_2
  rw [h0, h1]
  have hq : (t.val * 256 + (j 0).val) / 256 = t.val := by omega
  rw [hq]
  have hA : rows1 (V c main_v98) t.val = iblk1 V c 0 t := rows1_eq V c t
  have hB : (V c main_v99 : S1024x192.Idx → Elt F .bf16) = iblk1 V c 1 t := whole1_eq V c t
  have hj : ix2 (row256 (t.val * 256 + (j 0).val)) (col64 (j 1).val) = j := by
    funext a; apply Fin.ext
    match a with
    | ⟨0, _⟩ => show (t.val * 256 + (j 0).val) % 256 = (j 0).val; omega
    | ⟨1, _⟩ => show (j 1).val % 64 = (j 1).val; omega
  rw [hA, hB, hj]

theorem mem_blk1_2 (t : Fin cfg1.N) (i : S4096x64.Idx) :
    i ∈ ((cfg1.win 2).blk t).view.set ↔ ∀ a : Fin 2, win1_2.index t a * S256x64.size a ≤ (i a).val ∧ (i a).val < win1_2.index t a * S256x64.size a + S256x64.size a := by
  show i ∈ ((View.whole main_v100_0).slice (win1_2.rect t)).set ↔ _
  rw [View.set_slice_whole, Rect.mem_set_unit]
  exact Iff.rfl

/-- Every entry of the array lies in the block of the point that handles its 256 rows. -/
theorem covered1_2 (i : S4096x64.Idx) :
    ∃ t : Fin cfg1.N, (cfg1.win 2).flush t = true ∧ i ∈ ((cfg1.win 2).blk t).view.set := by
  have hi0 : (i 0).val < 4096 := (i 0).isLt
  have hi1 : (i 1).val < 64 := (i 1).isLt
  have hN : cfg1.N = 16 := N_1
  refine ⟨⟨(i 0).val / 256, by rw [hN]; omega⟩, flush1_2 _, ?_⟩
  obtain ⟨e00, e01, e02, e10, e11, e20, e21, e30, e31⟩ := idx_facts1 (⟨(i 0).val / 256, by rw [hN]; omega⟩ : Fin cfg1.N)
  rw [mem_blk1_2]
  intro a
  match a with
  | ⟨0, _⟩ =>
    show win1_2.index _ (0 : Fin 2) * 256 ≤ (i 0).val ∧ (i 0).val < win1_2.index _ (0 : Fin 2) * 256 + 256
    rw [e20]; show (i 0).val / 256 * 256 ≤ (i 0).val ∧ (i 0).val < (i 0).val / 256 * 256 + 256; omega
  | ⟨1, _⟩ =>
    show win1_2.index _ (1 : Fin 2) * 64 ≤ (i 1).val ∧ (i 1).val < win1_2.index _ (1 : Fin 2) * 64 + 64
    rw [e21]; omega

/-- The array after the launch. -/
theorem final1_2 (c : Dev nD) : (dat1 V c).arrAt 2 cfg1.N = G1_2 (V c main_v98) (V c main_v99) :=
  (dat1 V c).arrAt_eq_of_cover 2 _ (fun t _ => flushed1_2_eq V c t) covered1_2

/-- What the second output array of launch 1 ends holding, as a function of the two input arrays: entry (q, k) is the body's
    second stored block for the 256 rows that hold q, read at row q mod 256. -/
def G1_3 (a : S4096x3x1024.Idx → Elt F .bf16) (b : S1024x192.Idx → Elt F .bf16) : S4096x64.Idx → Elt F .f32 :=
  fun i => minSum1 (rows1 a ((i 0).val / 256)) b (ix2 (row256 (i 0).val) (col64 (i 1).val))

/-- What point `t` writes back into that array is block `t` of the function. -/
theorem flushed1_3_eq (c : Dev nD) (t : Fin cfg1.N) :
    (dat1 V c).flushed 3 t = ((cfg1.win 3).blk t).view.read (Elt F) (G1_3 (V c main_v98) (V c main_v99)) := by
  show (cfg1.win 3).cut (grid1.coords t) ((dat1 V c).after 3 t) = _
  rw [after1_3]
  unfold out1_3
  rw [View.canon_unit_zero hz2]
  simp only [View.ld_unit_zero (S := S256x3x1024) hz3, View.ld_unit_zero (S := S1024x192) hz2]
  obtain ⟨e00, e01, e02, e10, e11, e20, e21, e30, e31⟩ := idx_facts1 t
  have ht : t.val < 16 := lt_of_lt_of_eq t.isLt N_1
  funext j
  have hj0 : (j 0).val < 256 := (j 0).isLt
  have hj1 : (j 1).val < 64 := (j 1).isLt
  have h0 : ((((cfg1.win 3).blk t).view.emb j) 0).val = t.val * 256 + (j 0).val := by
    show win1_3.index t (0 : Fin 2) * 256 + 1 * (j 0).val = _; omega
  have h1 : ((((cfg1.win 3).blk t).view.emb j) 1).val = (j 1).val := by
    show win1_3.index t (1 : Fin 2) * 64 + 1 * (j 1).val = _; omega
  show minSum1 (iblk1 V c 0 t) (iblk1 V c 1 t) j = G1_3 (V c main_v98) (V c main_v99) (((cfg1.win 3).blk t).view.emb j)
  unfold G1_3
  rw [h0, h1]
  have hq : (t.val * 256 + (j 0).val) / 256 = t.val := by omega
  rw [hq]
  have hA : rows1 (V c main_v98) t.val = iblk1 V c 0 t := rows1_eq V c t
  have hB : (V c main_v99 : S1024x192.Idx → Elt F .bf16) = iblk1 V c 1 t := whole1_eq V c t
  have hj : ix2 (row256 (t.val * 256 + (j 0).val)) (col64 (j 1).val) = j := by
    funext a; apply Fin.ext
    match a with
    | ⟨0, _⟩ => show (t.val * 256 + (j 0).val) % 256 = (j 0).val; omega
    | ⟨1, _⟩ => show (j 1).val % 64 = (j 1).val; omega
  rw [hA, hB, hj]

theorem mem_blk1_3 (t : Fin cfg1.N) (i : S4096x64.Idx) :
    i ∈ ((cfg1.win 3).blk t).view.set ↔ ∀ a : Fin 2, win1_3.index t a * S256x64.size a ≤ (i a).val ∧ (i a).val < win1_3.index t a * S256x64.size a + S256x64.size a := by
  show i ∈ ((View.whole main_v100_1).slice (win1_3.rect t)).set ↔ _
  rw [View.set_slice_whole, Rect.mem_set_unit]
  exact Iff.rfl

/-- Every entry of the array lies in the block of the point that handles its 256 rows. -/
theorem covered1_3 (i : S4096x64.Idx) :
    ∃ t : Fin cfg1.N, (cfg1.win 3).flush t = true ∧ i ∈ ((cfg1.win 3).blk t).view.set := by
  have hi0 : (i 0).val < 4096 := (i 0).isLt
  have hi1 : (i 1).val < 64 := (i 1).isLt
  have hN : cfg1.N = 16 := N_1
  refine ⟨⟨(i 0).val / 256, by rw [hN]; omega⟩, flush1_3 _, ?_⟩
  obtain ⟨e00, e01, e02, e10, e11, e20, e21, e30, e31⟩ := idx_facts1 (⟨(i 0).val / 256, by rw [hN]; omega⟩ : Fin cfg1.N)
  rw [mem_blk1_3]
  intro a
  match a with
  | ⟨0, _⟩ =>
    show win1_3.index _ (0 : Fin 2) * 256 ≤ (i 0).val ∧ (i 0).val < win1_3.index _ (0 : Fin 2) * 256 + 256
    rw [e30]; show (i 0).val / 256 * 256 ≤ (i 0).val ∧ (i 0).val < (i 0).val / 256 * 256 + 256; omega
  | ⟨1, _⟩ =>
    show win1_3.index _ (1 : Fin 2) * 64 ≤ (i 1).val ∧ (i 1).val < win1_3.index _ (1 : Fin 2) * 64 + 64
    rw [e31]; omega

/-- The array after the launch. -/
theorem final1_3 (c : Dev nD) : (dat1 V c).arrAt 3 cfg1.N = G1_3 (V c main_v98) (V c main_v99) :=
  (dat1 V c).arrAt_eq_of_cover 3 _ (fun t _ => flushed1_3_eq V c t) covered1_3

end Cert.KernelIdeal.Chamfer

end
-- ==== Proof.ChamferMath.lean ====
/-
  Facts about the extended reals that join the two programs.

  1. A class prototype is the sum of its members' features divided by the member count. One program divides by
     max(count, 1), the other by the count itself. The count is a natural number, so the two quotients differ only
     for a class with no member, where the sum is 0: there one program has the row 0 and the other the junk row
     0 / 0 = ⊥. Dividing a row by max(√(Σ row²), ε) sends both to the zero row: 0 / ε = 0, and ⊥ / max(√⊤, ε) = ⊥ · ⊤⁻¹ = 0.
  2. A minimum over eight (three) values written as a left-nested chain is the fold of min from +∞, and a sum
     written as a left-nested chain from 0 is 0 plus the finite sum.
-/
import Idealize.ShloMosaic.PureOps.Ideal
import Mathlib.Algebra.BigOperators.Fin
import Mathlib.Algebra.Order.BigOperators.Group.Finset

open scoped BigOperators

noncomputable section

namespace Cert.ChamferMath

open Idealize.ShloMosaic

theorem div_zero_zero : Ideal.div 0 0 = ⊥ := by simp [Ideal.div]

theorem div_zero_of_ne {y : EReal} (hy : y ≠ 0) : Ideal.div 0 y = 0 := by simp [Ideal.div, hy]

theorem div_bot_top : Ideal.div ⊥ ⊤ = 0 := by simp [Ideal.div]

theorem sqrt_zero : Ideal.sqrt 0 = 0 := by
  have h : Ideal.sqrt ((0 : ℝ) : EReal) = if (0 : ℝ) < 0 then ⊥ else ((Real.sqrt 0 : ℝ) : EReal) := Ideal.sqrt_coe (r := 0)
  rw [if_neg (lt_irrefl _), Real.sqrt_zero] at h
  exact_mod_cast h

/-- A sum of +∞ over a nonempty index set is +∞. -/
theorem sum_top {ι : Type*} (s : Finset ι) (hs : s.Nonempty) : ∑ _i ∈ s, (⊤ : EReal) = ⊤ := by
  obtain ⟨i, hi⟩ := hs
  refine top_le_iff.mp ?_
  exact Finset.single_le_sum (f := fun _ => (⊤ : EReal)) (fun _ _ => le_top) hi

/-- A count of ones is 0 or at least 1. -/
theorem count_zero_or_one_le {ι : Type*} (s : Finset ι) : (0 + ∑ _i ∈ s, (1 : EReal)) = 0 ∨ 1 ≤ (0 + ∑ _i ∈ s, (1 : EReal)) := by
  rcases s.eq_empty_or_nonempty with rfl | ⟨i, hi⟩
  · left; simp
  · right
    rw [zero_add]
    exact Finset.single_le_sum (f := fun _ => (1 : EReal)) (fun _ _ => zero_le_one) hi

/-- A count of ones over an index set is 0 only if the set is empty. -/
theorem count_eq_zero {ι : Type*} (s : Finset ι) (h : (0 + ∑ _i ∈ s, (1 : EReal)) = 0) : s = ∅ := by
  rcases s.eq_empty_or_nonempty with rfl | ⟨i, hi⟩
  · rfl
  · exfalso
    rw [zero_add] at h
    have : (1 : EReal) ≤ 0 := h ▸ Finset.single_le_sum (f := fun _ => (1 : EReal)) (fun _ _ => zero_le_one) hi
    exact absurd this (by norm_num)

/-- The normalized prototype row does not see the guard on the count. -/
theorem normalized_guard {D : ℕ} (hD : 0 < D) (c : EReal) (hc : c = 0 ∨ 1 ≤ c) (x : Fin D → EReal)
    (hx : c = 0 → ∀ d, x d = 0) (eps : EReal) (heps : 0 < eps) (d : Fin D) :
    Ideal.div (Ideal.div (x d) (max c 1))
        (max (Ideal.sqrt (0 + ∑ d', Ideal.div (x d') (max c 1) * Ideal.div (x d') (max c 1))) eps)
      = Ideal.div (Ideal.div (x d) c)
        (max (Ideal.sqrt (0 + ∑ d', Ideal.div (x d') c * Ideal.div (x d') c)) eps) := by
  rcases hc with rfl | h1
  · have hx0 : ∀ d, x d = 0 := hx rfl
    have hne : eps ≠ 0 := ne_of_gt heps
    have h1ne : (1 : EReal) ≠ 0 := one_ne_zero
    haveI : Nonempty (Fin D) := ⟨⟨0, hD⟩⟩
    simp only [hx0, max_eq_right (zero_le_one : (0 : EReal) ≤ 1), div_zero_of_ne h1ne, div_zero_zero, mul_zero,
      Finset.sum_const_zero, add_zero, sqrt_zero, max_eq_right (le_of_lt heps), div_zero_of_ne hne,
      EReal.bot_mul_bot, sum_top _ Finset.univ_nonempty, zero_add, Ideal.sqrt_top, max_eq_left (le_top : eps ≤ ⊤), div_bot_top]
  · rw [max_eq_left h1]

/-- The fold of min from +∞ over eight values is their left-nested minimum. -/
theorem fold_min_eight (g : Fin 8 → EReal) :
    (Finset.univ : Finset (Fin 8)).fold min ⊤ g
      = min (min (min (min (min (min (min (g 0) (g 1)) (g 2)) (g 3)) (g 4)) (g 5)) (g 6)) (g 7) := by
  simp only [Fin.univ_succ, Finset.fold_cons, Finset.fold_map, Finset.univ_unique, Finset.fold_singleton]
  show min (g 0) (min (g 1) (min (g 2) (min (g 3) (min (g 4) (min (g 5) (min (g 6) (min (g 7) ⊤))))))) = _
  rw [min_top_right]
  ac_rfl

/-- The fold of min from +∞ over three values is their left-nested minimum. -/
theorem fold_min_three (g : Fin 3 → EReal) :
    (Finset.univ : Finset (Fin 3)).fold min ⊤ g = min (min (g 0) (g 1)) (g 2) := by
  simp only [Fin.univ_succ, Finset.fold_cons, Finset.fold_map, Finset.univ_unique, Finset.fold_singleton]
  show min (g 0) (min (g 1) (min (g 2) ⊤)) = _
  rw [min_top_right]
  ac_rfl

/-- 0 plus a sum over eight values is the left-nested sum from 0. -/
theorem sum_eight_from_zero (g : Fin 8 → EReal) :
    0 + ∑ t, g t = (((((((0 + g 0) + g 1) + g 2) + g 3) + g 4) + g 5) + g 6) + g 7 := by
  rw [Fin.sum_univ_eight]; ac_rfl

/-- 0 plus a sum over eight values is the left-nested sum from the first. -/
theorem sum_eight_from_first (g : Fin 8 → EReal) :
    0 + ∑ t, g t = ((((((g 0 + g 1) + g 2) + g 3) + g 4) + g 5) + g 6) + g 7 := by
  rw [Fin.sum_univ_eight, zero_add]

theorem sum_three_from_zero (g : Fin 3 → EReal) : 0 + ∑ t, g t = ((0 + g 0) + g 1) + g 2 := by
  rw [Fin.sum_univ_three]; ac_rfl

theorem sum_three_from_first (g : Fin 3 → EReal) : 0 + ∑ t, g t = (g 0 + g 1) + g 2 := by
  rw [Fin.sum_univ_three, zero_add]

/-- The word of the float 1.0, kept closed: both programs subtract from the same word. -/
def one : EReal := Ideal.ofBits .f32 0x3F800000#32

/-- Sum over query frames of the minimum over support frames of the distances 1 − ⟨A t, B s⟩. -/
def sumMin (T D : ℕ) (A B : Fin T → Fin D → EReal) : EReal :=
  0 + ∑ t : Fin T, (Finset.univ : Finset (Fin T)).fold min ⊤ (fun s => one - ∑ d : Fin D, A t d * B s d)

/-- Sum over support frames of the minimum over query frames of the same distances. -/
def minSum (T D : ℕ) (A B : Fin T → Fin D → EReal) : EReal :=
  0 + ∑ s : Fin T, (Finset.univ : Finset (Fin T)).fold min ⊤ (fun t => one - ∑ d : Fin D, A t d * B s d)

theorem ofBits_top : Ideal.ofBits .f32 0x7F800000#32 = ⊤ := by simp [Ideal.ofBits, Ideal.ieee]

theorem ofBits_zero : Ideal.ofBits .f32 0x00000000#32 = 0 := by simp [Ideal.ofBits, Ideal.ieee]

end Cert.ChamferMath

end
-- ==== Proof.LibPlainProduct.lean ====
/-
  A plain matrix product `[m, k] × [k, n]` read at an index, over arbitrary sizes.

  At the extended reals a kernel's matrix product into a zero accumulator and the host's product of the same operands
  are both the textbook contraction: entry `(a, b)` is `∑ c, A (a, c) · B (c, b)`.
-/
import Idealize.ShloMosaic.Lib.StackMember
import Idealize.ShloMosaic.Lib.KernelVsHost

noncomputable section

namespace Cert.PlainProduct

open Idealize.ShloMosaic Idealize.ShloMosaic.ValueIdx Idealize.ShloMosaic.StackMember

variable {m k n : Nat} {φ₁ φ₂ : FTy}

/-- A kernel's plain product into the zero splat, at `(a, b)`: the sum over the contracted coordinate. -/
theorem matmul_plain_apply (d : DotDims ⟨2, ![m, k]⟩ ⟨2, ![k, n]⟩ ⟨2, ![m, n]⟩) (hd : d = DotDims.plain m k n)
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  subst hd
  rw [matmul_zero_eq_dotGeneral]
  exact dotGeneral_plain_apply prec A B a b

/-- The host's plain product at `(a, b)`. -/
theorem dotGeneral_plain_apply' (d : DotDims ⟨2, ![m, k]⟩ ⟨2, ![k, n]⟩ ⟨2, ![m, n]⟩) (hd : d = DotDims.plain m k n)
    (prec : Option ContractPrecision) (A : FVec Ideal ⟨2, ![m, k]⟩ φ₁) (B : FVec Ideal ⟨2, ![k, n]⟩ φ₂)
    (a : Fin m) (b : Fin n) :
    Host.dotGeneral d prec A B (ix2 a b) = ∑ c : Fin k, A (ix2 a c) * B (ix2 c b) := by
  subst hd
  exact dotGeneral_plain_apply prec A B a b

end Cert.PlainProduct

end
-- ==== Proof.KernelIdealBlock.lean ====
/-
  A kernel body's two stored blocks read at an entry.

  For query frame t the body forms 1 − (frame t of the block's rows) · (prototype matrix), a 256 × 64T matrix whose
  columns 64s … 64s+63 are the distances to the 64 class prototypes at support frame s. The first stored block is, from
  zero, the sum over t of the minimum over s of these 64-column chunks; the second is the sum over s of the minimum
  over t. Written here once for a variable pair (t, s), the printed chains are these by unfolding, and a chunk at
  (row r, class k) is 1 − Σ_d query(r, t, d) · prototype matrix(d, 64s + k).
-/
import proofs.«110043_j29283087024820_2_alg».proof.Proof.KernelIdealRegions
import proofs.«110043_j29283087024820_2_alg».proof.Proof.ChamferMath
import proofs.«110043_j29283087024820_2_alg».proof.Proof.LibPlainProduct
import Idealize.ShloMosaic.Lib.Pipeline.Value
import Idealize.ShloMosaic.Lib.ValueIdx
import Idealize.ShloMosaic.PureOps.Ideal.Laws

noncomputable section

namespace Cert.KernelIdeal.Chamfer

open Cert.KernelIdeal Cert.KernelIdeal.Gen
open Idealize.ShloMosaic Idealize.ShloMosaic.ValueIdx
open scoped BigOperators

/-! ## Launch 1: 3 frames -/

section
variable {F : FTy → Type} [FloatOps F]

theorem slicesFrame1 (t : Fin 3) : S256x3x1024.Slices ![0, t.val, 0] S256x1x1024 :=
  ⟨rfl, fun a => match a with
    | ⟨0, _⟩ => by show 0 + 256 ≤ 256; omega
    | ⟨1, _⟩ => by show t.val + 1 ≤ 3; omega
    | ⟨2, _⟩ => by show 0 + 1024 ≤ 1024; omega⟩
theorem slicesChunk1 (s : Fin 3) : S256x192.Slices ![0, 64 * s.val] S256x64 :=
  ⟨rfl, fun a => match a with
    | ⟨0, _⟩ => by show 0 + 256 ≤ 256; omega
    | ⟨1, _⟩ => by show 64 * s.val + 64 ≤ 192; omega⟩

/-- The distances of query frame `t` of the block to every prototype column: 1 minus the frame's rows times the
    prototype matrix. -/
def frameDist1 (v0 : Vec F S256x3x1024 .bf16) (v2 : Vec F S1024x192 .bf16) (t : Fin 3) : FVec F S256x192 .f32 :=
  subf (broadcast S256x192 (Scalar.ofBits .f32 0x3F800000#32))
    (matmul dot_S256x1024_S1024x192_S256x192_1_0_0_1_n_n none
      (shapeCast S256x1024 (extractStridedSlice S256x1x1024 ![0, t.val, 0] (shapeCast S256x3x1024 v0 shapeCasts_S256x3x1024_S256x3x1024) (slicesFrame1 t)) shapeCasts_S256x1x1024_S256x1024)
      (shapeCast S1024x192 v2 shapeCasts_S1024x192_S1024x192) (constant S256x192 .f32 0x00000000#32))
/-- Its 64 columns of support frame `s`. -/
def chunk1 (v0 : Vec F S256x3x1024 .bf16) (v2 : Vec F S1024x192 .bf16) (t s : Fin 3) : FVec F S256x64 .f32 :=
  extractStridedSlice S256x64 ![0, 64 * s.val] (frameDist1 v0 v2 t) (slicesChunk1 s)

/-- The body's first store: from zero, add for each query frame the left-nested minimum over support frames. -/
def chainQ1 (c : Fin 3 → Fin 3 → FVec F S256x64 .f32) : FVec F S256x64 .f32 :=
  addf (addf (addf (broadcast S256x64 (Scalar.ofBits .f32 0x00000000#32)) (minimumf (minimumf (c 0 0) (c 0 1)) (c 0 2))) (minimumf (minimumf (c 1 0) (c 1 1)) (c 1 2))) (minimumf (minimumf (c 2 0) (c 2 1)) (c 2 2))
/-- The body's second store: the left-nested sum over support frames of the left-nested minimum over query frames. -/
def chainS1 (c : Fin 3 → Fin 3 → FVec F S256x64 .f32) : FVec F S256x64 .f32 :=
  addf (addf (minimumf (minimumf (c 0 0) (c 1 0)) (c 2 0)) (minimumf (minimumf (c 0 1) (c 1 1)) (c 2 1))) (minimumf (minimumf (c 0 2) (c 1 2)) (c 2 2))

set_option maxRecDepth 65536 in
theorem sumMin1_eq (v0 : Vec F S256x3x1024 .bf16) (v2 : Vec F S1024x192 .bf16) : sumMin1 v0 v2 = chainQ1 (chunk1 v0 v2) := rfl
set_option maxRecDepth 65536 in
theorem minSum1_eq (v0 : Vec F S256x3x1024 .bf16) (v2 : Vec F S1024x192 .bf16) : minSum1 v0 v2 = chainS1 (chunk1 v0 v2) := rfl

end

/-- A chunk at row `r`, class `k`: 1 minus the inner product of query frame `t` of row `r` with prototype column 64·s + k. -/
theorem chunk1_apply (v0 : Vec Ideal S256x3x1024 .bf16) (v2 : Vec Ideal S1024x192 .bf16) (t s : Fin 3) (r : Fin 256) (k : Fin 64) :
    chunk1 (F := Ideal) v0 v2 t s (ix2 r k)
      = ChamferMath.one - ∑ d : Fin 1024, v0 (ix3 r t d) * v2 (ix2 d (⟨64 * s.val + k.val, by have := s.isLt; have := k.isLt; omega⟩ : Fin 192)) := by
  unfold chunk1
  rw [extractStridedSlice_apply _ _ (slicesChunk1 s) (ix2 r k) (ix2 r (⟨64 * s.val + k.val, by have := s.isLt; have := k.isLt; omega⟩ : Fin 192))
    (fun a => match a with
      | ⟨0, _⟩ => by show r.val = 0 + r.val; omega
      | ⟨1, _⟩ => rfl)]
  unfold frameDist1
  show ChamferMath.one - matmul (F := Ideal) dot_S256x1024_S1024x192_S256x192_1_0_0_1_n_n none _ _ (constant (F := Ideal) S256x192 .f32 0x00000000#32) (ix2 r _) = _
  rw [Cert.PlainProduct.matmul_plain_apply dot_S256x1024_S1024x192_S256x192_1_0_0_1_n_n rfl]
  refine congrArg _ (Finset.sum_congr rfl fun d _ => ?_)
  congr 1
  · rw [shapeCast_apply _ shapeCasts_S256x1x1024_S256x1024 (ix2 r d) (ix3 r (0 : Fin 1) d)
      (by rw [Shape.rowMajor_val_three, Shape.rowMajor_val_two]; show (r.val * 1 + 0) * 1024 + d.val = r.val * 1024 + d.val; omega)]
    rw [extractStridedSlice_apply _ _ (slicesFrame1 t) (ix3 r (0 : Fin 1) d) (ix3 r t d)
      (fun a => match a with
        | ⟨0, _⟩ => by show r.val = 0 + r.val; omega
        | ⟨1, _⟩ => by show t.val = t.val + 0; omega
        | ⟨2, _⟩ => by show d.val = 0 + d.val; omega)]
    rw [shapeCast_self]
  · rw [shapeCast_self]

theorem sumMin1_apply (v0 : Vec Ideal S256x3x1024 .bf16) (v2 : Vec Ideal S1024x192 .bf16) (r : Fin 256) (k : Fin 64) :
    sumMin1 (F := Ideal) v0 v2 (ix2 r k)
      = ChamferMath.sumMin 3 1024 (fun t d => v0 (ix3 r t d)) (fun s d => v2 (ix2 d (⟨64 * s.val + k.val, by have := s.isLt; have := k.isLt; omega⟩ : Fin 192))) := by
  rw [sumMin1_eq]
  unfold chainQ1
  show HAdd.hAdd (HAdd.hAdd (HAdd.hAdd ((Ideal.ofBits .f32 0x00000000#32 : EReal)) (min (min (chunk1 (F := Ideal) v0 v2 0 0 (ix2 r k)) (chunk1 (F := Ideal) v0 v2 0 1 (ix2 r k))) (chunk1 (F := Ideal) v0 v2 0 2 (ix2 r k)))) (min (min (chunk1 (F := Ideal) v0 v2 1 0 (ix2 r k)) (chunk1 (F := Ideal) v0 v2 1 1 (ix2 r k))) (chunk1 (F := Ideal) v0 v2 1 2 (ix2 r k)))) (min (min (chunk1 (F := Ideal) v0 v2 2 0 (ix2 r k)) (chunk1 (F := Ideal) v0 v2 2 1 (ix2 r k))) (chunk1 (F := Ideal) v0 v2 2 2 (ix2 r k))) = _
  rw [ChamferMath.ofBits_zero]
  simp only [chunk1_apply]
  unfold ChamferMath.sumMin
  rw [ChamferMath.sum_three_from_zero]
  simp only [ChamferMath.fold_min_three]

theorem minSum1_apply (v0 : Vec Ideal S256x3x1024 .bf16) (v2 : Vec Ideal S1024x192 .bf16) (r : Fin 256) (k : Fin 64) :
    minSum1 (F := Ideal) v0 v2 (ix2 r k)
      = ChamferMath.minSum 3 1024 (fun t d => v0 (ix3 r t d)) (fun s d => v2 (ix2 d (⟨64 * s.val + k.val, by have := s.isLt; have := k.isLt; omega⟩ : Fin 192))) := by
  rw [minSum1_eq]
  unfold chainS1
  show HAdd.hAdd (HAdd.hAdd (min (min (chunk1 (F := Ideal) v0 v2 0 0 (ix2 r k)) (chunk1 (F := Ideal) v0 v2 1 0 (ix2 r k))) (chunk1 (F := Ideal) v0 v2 2 0 (ix2 r k))) (min (min (chunk1 (F := Ideal) v0 v2 0 1 (ix2 r k)) (chunk1 (F := Ideal) v0 v2 1 1 (ix2 r k))) (chunk1 (F := Ideal) v0 v2 2 1 (ix2 r k)))) (min (min (chunk1 (F := Ideal) v0 v2 0 2 (ix2 r k)) (chunk1 (F := Ideal) v0 v2 1 2 (ix2 r k))) (chunk1 (F := Ideal) v0 v2 2 2 (ix2 r k))) = _
  simp only [chunk1_apply]
  unfold ChamferMath.minSum
  rw [ChamferMath.sum_three_from_first]
  simp only [ChamferMath.fold_min_three]

/-! ## Launch 0: 8 frames -/

section
variable {F : FTy → Type} [FloatOps F]

theorem slicesFrame0 (t : Fin 8) : S256x8x1024.Slices ![0, t.val, 0] S256x1x1024 :=
  ⟨rfl, fun a => match a with
    | ⟨0, _⟩ => by show 0 + 256 ≤ 256; omega
    | ⟨1, _⟩ => by show t.val + 1 ≤ 8; omega
    | ⟨2, _⟩ => by show 0 + 1024 ≤ 1024; omega⟩
theorem slicesChunk0 (s : Fin 8) : S256x512.Slices ![0, 64 * s.val] S256x64 :=
  ⟨rfl, fun a => match a with
    | ⟨0, _⟩ => by show 0 + 256 ≤ 256; omega
    | ⟨1, _⟩ => by show 64 * s.val + 64 ≤ 512; omega⟩

/-- The distances of query frame `t` of the block to every prototype column: 1 minus the frame's rows times the
    prototype matrix. -/
def frameDist0 (v0 : Vec F S256x8x1024 .bf16) (v2 : Vec F S1024x512 .bf16) (t : Fin 8) : FVec F S256x512 .f32 :=
  subf (broadcast S256x512 (Scalar.ofBits .f32 0x3F800000#32))
    (matmul dot_S256x1024_S1024x512_S256x512_1_0_0_1_n_n none
      (shapeCast S256x1024 (extractStridedSlice S256x1x1024 ![0, t.val, 0] (shapeCast S256x8x1024 v0 shapeCasts_S256x8x1024_S256x8x1024) (slicesFrame0 t)) shapeCasts_S256x1x1024_S256x1024)
      (shapeCast S1024x512 v2 shapeCasts_S1024x512_S1024x512) (constant S256x512 .f32 0x00000000#32))
/-- Its 64 columns of support frame `s`. -/
def chunk0 (v0 : Vec F S256x8x1024 .bf16) (v2 : Vec F S1024x512 .bf16) (t s : Fin 8) : FVec F S256x64 .f32 :=
  extractStridedSlice S256x64 ![0, 64 * s.val] (frameDist0 v0 v2 t) (slicesChunk0 s)

/-- The body's first store: from zero, add for each query frame the left-nested minimum over support frames. -/
def chainQ0 (c : Fin 8 → Fin 8 → FVec F S256x64 .f32) : FVec F S256x64 .f32 :=
  addf (addf (addf (addf (addf (addf (addf (addf (broadcast S256x64 (Scalar.ofBits .f32 0x00000000#32)) (minimumf (minimumf (minimumf (minimumf (minimumf (minimumf (minimumf (c 0 0) (c 0 1)) (c 0 2)) (c 0 3)) (c 0 4)) (c 0 5)) (c 0 6)) (c 0 7))) (minimumf (minimumf (minimumf (minimumf (minimumf (minimumf (minimumf (c 1 0) (c 1 1)) (c 1 2)) (c 1 3)) (c 1 4)) (c 1 5)) (c 1 6)) (c 1 7))) (minimumf (minimumf (minimumf (minimumf (minimumf (minimumf (minimumf (c 2 0) (c 2 1)) (c 2 2)) (c 2 3)) (c 2 4)) (c 2 5)) (c 2 6)) (c 2 7))) (minimumf (minimumf (minimumf (minimumf (minimumf (minimumf (minimumf (c 3 0) (c 3 1)) (c 3 2)) (c 3 3)) (c 3 4)) (c 3 5)) (c 3 6)) (c 3 7))) (minimumf (minimumf (minimumf (minimumf (minimumf (minimumf (minimumf (c 4 0) (c 4 1)) (c 4 2)) (c 4 3)) (c 4 4)) (c 4 5)) (c 4 6)) (c 4 7))) (minimumf (minimumf (minimumf (minimumf (minimumf (minimumf (minimumf (c 5 0) (c 5 1)) (c 5 2)) (c 5 3)) (c 5 4)) (c 5 5)) (c 5 6)) (c 5 7))) (minimumf (minimumf (minimumf (minimumf (minimumf (minimumf (minimumf (c 6 0) (c 6 1)) (c 6 2)) (c 6 3)) (c 6 4)) (c 6 5)) (c 6 6)) (c 6 7))) (minimumf (minimumf (minimumf (minimumf (minimumf (minimumf (minimumf (c 7 0) (c 7 1)) (c 7 2)) (c 7 3)) (c 7 4)) (c 7 5)) (c 7 6)) (c 7 7))
/-- The body's second store: the left-nested sum over support frames of the left-nested minimum over query frames. -/
def chainS0 (c : Fin 8 → Fin 8 → FVec F S256x64 .f32) : FVec F S256x64 .f32 :=
  addf (addf (addf (addf (addf (addf (addf (minimumf (minimumf (minimumf (minimumf (minimumf (minimumf (minimumf (c 0 0) (c 1 0)) (c 2 0)) (c 3 0)) (c 4 0)) (c 5 0)) (c 6 0)) (c 7 0)) (minimumf (minimumf (minimumf (minimumf (minimumf (minimumf (minimumf (c 0 1) (c 1 1)) (c 2 1)) (c 3 1)) (c 4 1)) (c 5 1)) (c 6 1)) (c 7 1))) (minimumf (minimumf (minimumf (minimumf (minimumf (minimumf (minimumf (c 0 2) (c 1 2)) (c 2 2)) (c 3 2)) (c 4 2)) (c 5 2)) (c 6 2)) (c 7 2))) (minimumf (minimumf (minimumf (minimumf (minimumf (minimumf (minimumf (c 0 3) (c 1 3)) (c 2 3)) (c 3 3)) (c 4 3)) (c 5 3)) (c 6 3)) (c 7 3))) (minimumf (minimumf (minimumf (minimumf (minimumf (minimumf (minimumf (c 0 4) (c 1 4)) (c 2 4)) (c 3 4)) (c 4 4)) (c 5 4)) (c 6 4)) (c 7 4))) (minimumf (minimumf (minimumf (minimumf (minimumf (minimumf (minimumf (c 0 5) (c 1 5)) (c 2 5)) (c 3 5)) (c 4 5)) (c 5 5)) (c 6 5)) (c 7 5))) (minimumf (minimumf (minimumf (minimumf (minimumf (minimumf (minimumf (c 0 6) (c 1 6)) (c 2 6)) (c 3 6)) (c 4 6)) (c 5 6)) (c 6 6)) (c 7 6))) (minimumf (minimumf (minimumf (minimumf (minimumf (minimumf (minimumf (c 0 7) (c 1 7)) (c 2 7)) (c 3 7)) (c 4 7)) (c 5 7)) (c 6 7)) (c 7 7))

set_option maxRecDepth 65536 in
theorem sumMin0_eq (v0 : Vec F S256x8x1024 .bf16) (v2 : Vec F S1024x512 .bf16) : sumMin0 v0 v2 = chainQ0 (chunk0 v0 v2) := rfl
set_option maxRecDepth 65536 in
theorem minSum0_eq (v0 : Vec F S256x8x1024 .bf16) (v2 : Vec F S1024x512 .bf16) : minSum0 v0 v2 = chainS0 (chunk0 v0 v2) := rfl

end

/-- A chunk at row `r`, class `k`: 1 minus the inner product of query frame `t` of row `r` with prototype column 64·s + k. -/
theorem chunk0_apply (v0 : Vec Ideal S256x8x1024 .bf16) (v2 : Vec Ideal S1024x512 .bf16) (t s : Fin 8) (r : Fin 256) (k : Fin 64) :
    chunk0 (F := Ideal) v0 v2 t s (ix2 r k)
      = ChamferMath.one - ∑ d : Fin 1024, v0 (ix3 r t d) * v2 (ix2 d (⟨64 * s.val + k.val, by have := s.isLt; have := k.isLt; omega⟩ : Fin 512)) := by
  unfold chunk0
  rw [extractStridedSlice_apply _ _ (slicesChunk0 s) (ix2 r k) (ix2 r (⟨64 * s.val + k.val, by have := s.isLt; have := k.isLt; omega⟩ : Fin 512))
    (fun a => match a with
      | ⟨0, _⟩ => by show r.val = 0 + r.val; omega
      | ⟨1, _⟩ => rfl)]
  unfold frameDist0
  show ChamferMath.one - matmul (F := Ideal) dot_S256x1024_S1024x512_S256x512_1_0_0_1_n_n none _ _ (constant (F := Ideal) S256x512 .f32 0x00000000#32) (ix2 r _) = _
  rw [Cert.PlainProduct.matmul_plain_apply dot_S256x1024_S1024x512_S256x512_1_0_0_1_n_n rfl]
  refine congrArg _ (Finset.sum_congr rfl fun d _ => ?_)
  congr 1
  · rw [shapeCast_apply _ shapeCasts_S256x1x1024_S256x1024 (ix2 r d) (ix3 r (0 : Fin 1) d)
      (by rw [Shape.rowMajor_val_three, Shape.rowMajor_val_two]; show (r.val * 1 + 0) * 1024 + d.val = r.val * 1024 + d.val; omega)]
    rw [extractStridedSlice_apply _ _ (slicesFrame0 t) (ix3 r (0 : Fin 1) d) (ix3 r t d)
      (fun a => match a with
        | ⟨0, _⟩ => by show r.val = 0 + r.val; omega
        | ⟨1, _⟩ => by show t.val = t.val + 0; omega
        | ⟨2, _⟩ => by show d.val = 0 + d.val; omega)]
    rw [shapeCast_self]
  · rw [shapeCast_self]

theorem sumMin0_apply (v0 : Vec Ideal S256x8x1024 .bf16) (v2 : Vec Ideal S1024x512 .bf16) (r : Fin 256) (k : Fin 64) :
    sumMin0 (F := Ideal) v0 v2 (ix2 r k)
      = ChamferMath.sumMin 8 1024 (fun t d => v0 (ix3 r t d)) (fun s d => v2 (ix2 d (⟨64 * s.val + k.val, by have := s.isLt; have := k.isLt; omega⟩ : Fin 512))) := by
  rw [sumMin0_eq]
  unfold chainQ0
  show HAdd.hAdd (HAdd.hAdd (HAdd.hAdd (HAdd.hAdd (HAdd.hAdd (HAdd.hAdd (HAdd.hAdd (HAdd.hAdd ((Ideal.ofBits .f32 0x00000000#32 : EReal)) (min (min (min (min (min (min (min (chunk0 (F := Ideal) v0 v2 0 0 (ix2 r k)) (chunk0 (F := Ideal) v0 v2 0 1 (ix2 r k))) (chunk0 (F := Ideal) v0 v2 0 2 (ix2 r k))) (chunk0 (F := Ideal) v0 v2 0 3 (ix2 r k))) (chunk0 (F := Ideal) v0 v2 0 4 (ix2 r k))) (chunk0 (F := Ideal) v0 v2 0 5 (ix2 r k))) (chunk0 (F := Ideal) v0 v2 0 6 (ix2 r k))) (chunk0 (F := Ideal) v0 v2 0 7 (ix2 r k)))) (min (min (min (min (min (min (min (chunk0 (F := Ideal) v0 v2 1 0 (ix2 r k)) (chunk0 (F := Ideal) v0 v2 1 1 (ix2 r k))) (chunk0 (F := Ideal) v0 v2 1 2 (ix2 r k))) (chunk0 (F := Ideal) v0 v2 1 3 (ix2 r k))) (chunk0 (F := Ideal) v0 v2 1 4 (ix2 r k))) (chunk0 (F := Ideal) v0 v2 1 5 (ix2 r k))) (chunk0 (F := Ideal) v0 v2 1 6 (ix2 r k))) (chunk0 (F := Ideal) v0 v2 1 7 (ix2 r k)))) (min (min (min (min (min (min (min (chunk0 (F := Ideal) v0 v2 2 0 (ix2 r k)) (chunk0 (F := Ideal) v0 v2 2 1 (ix2 r k))) (chunk0 (F := Ideal) v0 v2 2 2 (ix2 r k))) (chunk0 (F := Ideal) v0 v2 2 3 (ix2 r k))) (chunk0 (F := Ideal) v0 v2 2 4 (ix2 r k))) (chunk0 (F := Ideal) v0 v2 2 5 (ix2 r k))) (chunk0 (F := Ideal) v0 v2 2 6 (ix2 r k))) (chunk0 (F := Ideal) v0 v2 2 7 (ix2 r k)))) (min (min (min (min (min (min (min (chunk0 (F := Ideal) v0 v2 3 0 (ix2 r k)) (chunk0 (F := Ideal) v0 v2 3 1 (ix2 r k))) (chunk0 (F := Ideal) v0 v2 3 2 (ix2 r k))) (chunk0 (F := Ideal) v0 v2 3 3 (ix2 r k))) (chunk0 (F := Ideal) v0 v2 3 4 (ix2 r k))) (chunk0 (F := Ideal) v0 v2 3 5 (ix2 r k))) (chunk0 (F := Ideal) v0 v2 3 6 (ix2 r k))) (chunk0 (F := Ideal) v0 v2 3 7 (ix2 r k)))) (min (min (min (min (min (min (min (chunk0 (F := Ideal) v0 v2 4 0 (ix2 r k)) (chunk0 (F := Ideal) v0 v2 4 1 (ix2 r k))) (chunk0 (F := Ideal) v0 v2 4 2 (ix2 r k))) (chunk0 (F := Ideal) v0 v2 4 3 (ix2 r k))) (chunk0 (F := Ideal) v0 v2 4 4 (ix2 r k))) (chunk0 (F := Ideal) v0 v2 4 5 (ix2 r k))) (chunk0 (F := Ideal) v0 v2 4 6 (ix2 r k))) (chunk0 (F := Ideal) v0 v2 4 7 (ix2 r k)))) (min (min (min (min (min (min (min (chunk0 (F := Ideal) v0 v2 5 0 (ix2 r k)) (chunk0 (F := Ideal) v0 v2 5 1 (ix2 r k))) (chunk0 (F := Ideal) v0 v2 5 2 (ix2 r k))) (chunk0 (F := Ideal) v0 v2 5 3 (ix2 r k))) (chunk0 (F := Ideal) v0 v2 5 4 (ix2 r k))) (chunk0 (F := Ideal) v0 v2 5 5 (ix2 r k))) (chunk0 (F := Ideal) v0 v2 5 6 (ix2 r k))) (chunk0 (F := Ideal) v0 v2 5 7 (ix2 r k)))) (min (min (min (min (min (min (min (chunk0 (F := Ideal) v0 v2 6 0 (ix2 r k)) (chunk0 (F := Ideal) v0 v2 6 1 (ix2 r k))) (chunk0 (F := Ideal) v0 v2 6 2 (ix2 r k))) (chunk0 (F := Ideal) v0 v2 6 3 (ix2 r k))) (chunk0 (F := Ideal) v0 v2 6 4 (ix2 r k))) (chunk0 (F := Ideal) v0 v2 6 5 (ix2 r k))) (chunk0 (F := Ideal) v0 v2 6 6 (ix2 r k))) (chunk0 (F := Ideal) v0 v2 6 7 (ix2 r k)))) (min (min (min (min (min (min (min (chunk0 (F := Ideal) v0 v2 7 0 (ix2 r k)) (chunk0 (F := Ideal) v0 v2 7 1 (ix2 r k))) (chunk0 (F := Ideal) v0 v2 7 2 (ix2 r k))) (chunk0 (F := Ideal) v0 v2 7 3 (ix2 r k))) (chunk0 (F := Ideal) v0 v2 7 4 (ix2 r k))) (chunk0 (F := Ideal) v0 v2 7 5 (ix2 r k))) (chunk0 (F := Ideal) v0 v2 7 6 (ix2 r k))) (chunk0 (F := Ideal) v0 v2 7 7 (ix2 r k))) = _
  rw [ChamferMath.ofBits_zero]
  simp only [chunk0_apply]
  unfold ChamferMath.sumMin
  rw [ChamferMath.sum_eight_from_zero]
  simp only [ChamferMath.fold_min_eight]

theorem minSum0_apply (v0 : Vec Ideal S256x8x1024 .bf16) (v2 : Vec Ideal S1024x512 .bf16) (r : Fin 256) (k : Fin 64) :
    minSum0 (F := Ideal) v0 v2 (ix2 r k)
      = ChamferMath.minSum 8 1024 (fun t d => v0 (ix3 r t d)) (fun s d => v2 (ix2 d (⟨64 * s.val + k.val, by have := s.isLt; have := k.isLt; omega⟩ : Fin 512))) := by
  rw [minSum0_eq]
  unfold chainS0
  show HAdd.hAdd (HAdd.hAdd (HAdd.hAdd (HAdd.hAdd (HAdd.hAdd (HAdd.hAdd (HAdd.hAdd (min (min (min (min (min (min (min (chunk0 (F := Ideal) v0 v2 0 0 (ix2 r k)) (chunk0 (F := Ideal) v0 v2 1 0 (ix2 r k))) (chunk0 (F := Ideal) v0 v2 2 0 (ix2 r k))) (chunk0 (F := Ideal) v0 v2 3 0 (ix2 r k))) (chunk0 (F := Ideal) v0 v2 4 0 (ix2 r k))) (chunk0 (F := Ideal) v0 v2 5 0 (ix2 r k))) (chunk0 (F := Ideal) v0 v2 6 0 (ix2 r k))) (chunk0 (F := Ideal) v0 v2 7 0 (ix2 r k))) (min (min (min (min (min (min (min (chunk0 (F := Ideal) v0 v2 0 1 (ix2 r k)) (chunk0 (F := Ideal) v0 v2 1 1 (ix2 r k))) (chunk0 (F := Ideal) v0 v2 2 1 (ix2 r k))) (chunk0 (F := Ideal) v0 v2 3 1 (ix2 r k))) (chunk0 (F := Ideal) v0 v2 4 1 (ix2 r k))) (chunk0 (F := Ideal) v0 v2 5 1 (ix2 r k))) (chunk0 (F := Ideal) v0 v2 6 1 (ix2 r k))) (chunk0 (F := Ideal) v0 v2 7 1 (ix2 r k)))) (min (min (min (min (min (min (min (chunk0 (F := Ideal) v0 v2 0 2 (ix2 r k)) (chunk0 (F := Ideal) v0 v2 1 2 (ix2 r k))) (chunk0 (F := Ideal) v0 v2 2 2 (ix2 r k))) (chunk0 (F := Ideal) v0 v2 3 2 (ix2 r k))) (chunk0 (F := Ideal) v0 v2 4 2 (ix2 r k))) (chunk0 (F := Ideal) v0 v2 5 2 (ix2 r k))) (chunk0 (F := Ideal) v0 v2 6 2 (ix2 r k))) (chunk0 (F := Ideal) v0 v2 7 2 (ix2 r k)))) (min (min (min (min (min (min (min (chunk0 (F := Ideal) v0 v2 0 3 (ix2 r k)) (chunk0 (F := Ideal) v0 v2 1 3 (ix2 r k))) (chunk0 (F := Ideal) v0 v2 2 3 (ix2 r k))) (chunk0 (F := Ideal) v0 v2 3 3 (ix2 r k))) (chunk0 (F := Ideal) v0 v2 4 3 (ix2 r k))) (chunk0 (F := Ideal) v0 v2 5 3 (ix2 r k))) (chunk0 (F := Ideal) v0 v2 6 3 (ix2 r k))) (chunk0 (F := Ideal) v0 v2 7 3 (ix2 r k)))) (min (min (min (min (min (min (min (chunk0 (F := Ideal) v0 v2 0 4 (ix2 r k)) (chunk0 (F := Ideal) v0 v2 1 4 (ix2 r k))) (chunk0 (F := Ideal) v0 v2 2 4 (ix2 r k))) (chunk0 (F := Ideal) v0 v2 3 4 (ix2 r k))) (chunk0 (F := Ideal) v0 v2 4 4 (ix2 r k))) (chunk0 (F := Ideal) v0 v2 5 4 (ix2 r k))) (chunk0 (F := Ideal) v0 v2 6 4 (ix2 r k))) (chunk0 (F := Ideal) v0 v2 7 4 (ix2 r k)))) (min (min (min (min (min (min (min (chunk0 (F := Ideal) v0 v2 0 5 (ix2 r k)) (chunk0 (F := Ideal) v0 v2 1 5 (ix2 r k))) (chunk0 (F := Ideal) v0 v2 2 5 (ix2 r k))) (chunk0 (F := Ideal) v0 v2 3 5 (ix2 r k))) (chunk0 (F := Ideal) v0 v2 4 5 (ix2 r k))) (chunk0 (F := Ideal) v0 v2 5 5 (ix2 r k))) (chunk0 (F := Ideal) v0 v2 6 5 (ix2 r k))) (chunk0 (F := Ideal) v0 v2 7 5 (ix2 r k)))) (min (min (min (min (min (min (min (chunk0 (F := Ideal) v0 v2 0 6 (ix2 r k)) (chunk0 (F := Ideal) v0 v2 1 6 (ix2 r k))) (chunk0 (F := Ideal) v0 v2 2 6 (ix2 r k))) (chunk0 (F := Ideal) v0 v2 3 6 (ix2 r k))) (chunk0 (F := Ideal) v0 v2 4 6 (ix2 r k))) (chunk0 (F := Ideal) v0 v2 5 6 (ix2 r k))) (chunk0 (F := Ideal) v0 v2 6 6 (ix2 r k))) (chunk0 (F := Ideal) v0 v2 7 6 (ix2 r k)))) (min (min (min (min (min (min (min (chunk0 (F := Ideal) v0 v2 0 7 (ix2 r k)) (chunk0 (F := Ideal) v0 v2 1 7 (ix2 r k))) (chunk0 (F := Ideal) v0 v2 2 7 (ix2 r k))) (chunk0 (F := Ideal) v0 v2 3 7 (ix2 r k))) (chunk0 (F := Ideal) v0 v2 4 7 (ix2 r k))) (chunk0 (F := Ideal) v0 v2 5 7 (ix2 r k))) (chunk0 (F := Ideal) v0 v2 6 7 (ix2 r k))) (chunk0 (F := Ideal) v0 v2 7 7 (ix2 r k))) = _
  simp only [chunk0_apply]
  unfold ChamferMath.minSum
  rw [ChamferMath.sum_eight_from_first]
  simp only [ChamferMath.fold_min_eight]

end Cert.KernelIdeal.Chamfer

end
-- ==== Proof.SharedHost.lean ====
/-
  Host-side pieces both programs apply, named once.

  rowNorm: a [64, T, 1024] array with every row (k, t, ·) divided by max(√(Σ_d row²), ε) — the normalization of the
  class prototypes. perClass: a per-class number spread over the [64, T, 1024] array. guarded: max(count, 1).
  tail: the four results from the global distance g, the two segment distances s and q, the logit scale and the
  fusion logits: −((w₀·g + w₁·s + w₂·q)·exp(scale)), −g, −s, −q with w = softmax(fusion logits).
  The reference's normalized prototypes and results are these by unfolding.
-/
import proofs.«110043_j29283087024820_2_alg».proof.Proof.Gen.ReferenceIdeal.Read

noncomputable section

namespace Cert.ReferenceIdeal.Shared

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

def rowNorm8 (Y : (⟨S64x8x1024, .f32⟩ : BufTy).Contents (Elt F)) : (⟨S64x8x1024, .f32⟩ : BufTy).Contents (Elt F) :=
  Host.divf (Y) (broadcastInDim S64x8x1024 ![0, 1, 2] bcast_S64x8x1_S64x8x1024_0_1_2 (maximumf (Host.sqrt (broadcastInDim S64x8x1 ![0, 1] bcast_S64x8_S64x8x1_0_1 (Host.reduceAdd (mulf (Y) (Y)) (constant S_ .f32 0x00000000#32) reducesTo_S64x8x1024_S64x8_d2 h_S_))) (broadcastInDim S64x8x1 ![] bcast_S_S64x8x1 (constant S_ .f32 0x2B8CBCCC#32))))
def rowNorm3 (Y : (⟨S64x3x1024, .f32⟩ : BufTy).Contents (Elt F)) : (⟨S64x3x1024, .f32⟩ : BufTy).Contents (Elt F) :=
  Host.divf (Y) (broadcastInDim S64x3x1024 ![0, 1, 2] bcast_S64x3x1_S64x3x1024_0_1_2 (maximumf (Host.sqrt (broadcastInDim S64x3x1 ![0, 1] bcast_S64x3_S64x3x1_0_1 (Host.reduceAdd (mulf (Y) (Y)) (constant S_ .f32 0x00000000#32) reducesTo_S64x3x1024_S64x3_d2 h_S_))) (broadcastInDim S64x3x1 ![] bcast_S_S64x3x1 (constant S_ .f32 0x2B8CBCCC#32))))
def perClass8 (c : (⟨S64, .f32⟩ : BufTy).Contents (Elt F)) : (⟨S64x8x1024, .f32⟩ : BufTy).Contents (Elt F) :=
  broadcastInDim S64x8x1024 ![0, 1, 2] bcast_S64x1x1_S64x8x1024_0_1_2 (broadcastInDim S64x1x1 ![0] bcast_S64_S64x1x1_0 (c))
def perClass3 (c : (⟨S64, .f32⟩ : BufTy).Contents (Elt F)) : (⟨S64x3x1024, .f32⟩ : BufTy).Contents (Elt F) :=
  broadcastInDim S64x3x1024 ![0, 1, 2] bcast_S64x1x1_S64x3x1024_0_1_2 (broadcastInDim S64x1x1 ![0] bcast_S64_S64x1x1_0 (c))
def guarded (c : (⟨S64, .f32⟩ : BufTy).Contents (Elt F)) : (⟨S64, .f32⟩ : BufTy).Contents (Elt F) :=
  maximumf c (broadcastInDim S64 ![] bcast_S_S64 (constant S_ .f32 0x3F800000#32))

def tail0 (g s q : (⟨S4096x64, .f32⟩ : BufTy).Contents (Elt F)) (x3 : (⟨S_, .f32⟩ : BufTy).Contents (Elt F)) (x4 : (⟨S3, .f32⟩ : BufTy).Contents (Elt F)) : (⟨S4096x64, .f32⟩ : BufTy).Contents (Elt F) :=
  Host.negf (mulf (addf (addf (mulf (broadcastInDim S4096x64 ![] bcast_S_S4096x64 (shapeCast _ (extractStridedSlice S1 ![0] (Host.divf (Host.exp (subf (x4) (broadcastInDim S3 ![0] bcast_S1_S3_0 (broadcastInDim S1 ![] bcast_S_S1 (maximumf (constant S_ .f32 0xFF800000#32) (Host.reduce FloatOps.maximumf (x4) (constant S_ .f32 0xFF800000#32) reducesTo_S3_S_d0 h_S_)))))) (broadcastInDim S3 ![0] bcast_S1_S3_0 (broadcastInDim S1 ![] bcast_S_S1 (Host.reduceAdd (Host.exp (subf (x4) (broadcastInDim S3 ![0] bcast_S1_S3_0 (broadcastInDim S1 ![] bcast_S_S1 (maximumf (constant S_ .f32 0xFF800000#32) (Host.reduce FloatOps.maximumf (x4) (constant S_ .f32 0xFF800000#32) reducesTo_S3_S_d0 h_S_)))))) (constant S_ .f32 0x00000000#32) reducesTo_S3_S_d0 h_S_)))) slices_S3_S1_0) shapeCasts_S1_S_)) (g)) (mulf (broadcastInDim S4096x64 ![] bcast_S_S4096x64 (shapeCast _ (extractStridedSlice S1 ![1] (Host.divf (Host.exp (subf (x4) (broadcastInDim S3 ![0] bcast_S1_S3_0 (broadcastInDim S1 ![] bcast_S_S1 (maximumf (constant S_ .f32 0xFF800000#32) (Host.reduce FloatOps.maximumf (x4) (constant S_ .f32 0xFF800000#32) reducesTo_S3_S_d0 h_S_)))))) (broadcastInDim S3 ![0] bcast_S1_S3_0 (broadcastInDim S1 ![] bcast_S_S1 (Host.reduceAdd (Host.exp (subf (x4) (broadcastInDim S3 ![0] bcast_S1_S3_0 (broadcastInDim S1 ![] bcast_S_S1 (maximumf (constant S_ .f32 0xFF800000#32) (Host.reduce FloatOps.maximumf (x4) (constant S_ .f32 0xFF800000#32) reducesTo_S3_S_d0 h_S_)))))) (constant S_ .f32 0x00000000#32) reducesTo_S3_S_d0 h_S_)))) slices_S3_S1_1) shapeCasts_S1_S_)) (s))) (mulf (broadcastInDim S4096x64 ![] bcast_S_S4096x64 (shapeCast _ (extractStridedSlice S1 ![2] (Host.divf (Host.exp (subf (x4) (broadcastInDim S3 ![0] bcast_S1_S3_0 (broadcastInDim S1 ![] bcast_S_S1 (maximumf (constant S_ .f32 0xFF800000#32) (Host.reduce FloatOps.maximumf (x4) (constant S_ .f32 0xFF800000#32) reducesTo_S3_S_d0 h_S_)))))) (broadcastInDim S3 ![0] bcast_S1_S3_0 (broadcastInDim S1 ![] bcast_S_S1 (Host.reduceAdd (Host.exp (subf (x4) (broadcastInDim S3 ![0] bcast_S1_S3_0 (broadcastInDim S1 ![] bcast_S_S1 (maximumf (constant S_ .f32 0xFF800000#32) (Host.reduce FloatOps.maximumf (x4) (constant S_ .f32 0xFF800000#32) reducesTo_S3_S_d0 h_S_)))))) (constant S_ .f32 0x00000000#32) reducesTo_S3_S_d0 h_S_)))) slices_S3_S1_2) shapeCasts_S1_S_)) (q))) (broadcastInDim S4096x64 ![] bcast_S_S4096x64 (Host.exp (x3))))
def tail1 (g : (⟨S4096x64, .f32⟩ : BufTy).Contents (Elt F)) : (⟨S4096x64, .f32⟩ : BufTy).Contents (Elt F) :=
  Host.negf (g)
def tail2 (s : (⟨S4096x64, .f32⟩ : BufTy).Contents (Elt F)) : (⟨S4096x64, .f32⟩ : BufTy).Contents (Elt F) :=
  Host.negf (s)
def tail3 (q : (⟨S4096x64, .f32⟩ : BufTy).Contents (Elt F)) : (⟨S4096x64, .f32⟩ : BufTy).Contents (Elt F) :=
  Host.negf (q)

theorem ref_protoNorm8 (x0 : (⟨S256x8x1024, .f32⟩ : BufTy).Contents (Elt F)) (x2 : (⟨S256, .i32⟩ : BufTy).Contents (Elt F)) :
    val_main_v25 (F := F) x0 x2 = rowNorm8 (Host.divf (val_main_v2 (F := F) x0 x2) (perClass8 (val_main_v6 (F := F) x2))) := rfl
theorem ref_protoNorm3 (x0 : (⟨S256x8x1024, .f32⟩ : BufTy).Contents (Elt F)) (x2 : (⟨S256, .i32⟩ : BufTy).Contents (Elt F)) :
    val_main_v92 (F := F) x0 x2 = rowNorm3 (Host.divf (val_main_v69 (F := F) x0 x2) (perClass3 (val_main_v73 (F := F) x2))) := rfl
theorem ref_out0 (x0 : (⟨S256x8x1024, .f32⟩ : BufTy).Contents (Elt F)) (x1 : (⟨S4096x8x1024, .f32⟩ : BufTy).Contents (Elt F)) (x2 : (⟨S256, .i32⟩ : BufTy).Contents (Elt F)) (x3 : (⟨S_, .f32⟩ : BufTy).Contents (Elt F)) (x4 : (⟨S3, .f32⟩ : BufTy).Contents (Elt F)) :
    val_main_v128 (F := F) x0 x1 x2 x3 x4 = tail0 (val_main_v34 (F := F) x0 x1 x2) (val_main_v100 (F := F) x0 x1 x2) (val_main_v98 (F := F) x0 x1 x2) x3 x4 := rfl
theorem ref_out1 (x0 : (⟨S256x8x1024, .f32⟩ : BufTy).Contents (Elt F)) (x1 : (⟨S4096x8x1024, .f32⟩ : BufTy).Contents (Elt F)) (x2 : (⟨S256, .i32⟩ : BufTy).Contents (Elt F)) :
    val_main_v129 (F := F) x0 x1 x2 = tail1 (val_main_v34 (F := F) x0 x1 x2) := rfl
theorem ref_out2 (x0 : (⟨S256x8x1024, .f32⟩ : BufTy).Contents (Elt F)) (x1 : (⟨S4096x8x1024, .f32⟩ : BufTy).Contents (Elt F)) (x2 : (⟨S256, .i32⟩ : BufTy).Contents (Elt F)) :
    val_main_v130 (F := F) x0 x1 x2 = tail2 (val_main_v100 (F := F) x0 x1 x2) := rfl
theorem ref_out3 (x0 : (⟨S256x8x1024, .f32⟩ : BufTy).Contents (Elt F)) (x1 : (⟨S4096x8x1024, .f32⟩ : BufTy).Contents (Elt F)) (x2 : (⟨S256, .i32⟩ : BufTy).Contents (Elt F)) :
    val_main_v131 (F := F) x0 x1 x2 = tail3 (val_main_v98 (F := F) x0 x1 x2) := rfl

end Cert.ReferenceIdeal.Shared

end
-- ==== Proof.KernelIdealHost.lean ====
/-
  The program's three stretches of host operations, read at the buffers the proof needs, from an arbitrary valuation
  of the buffers at the stretch's start.

  Before the first launch: the normalized query frames, rounded to the matrix unit's input format, and the prototype
  matrix — the class sums divided by max(count, 1), normalized row by row, laid out with column 64·s + k holding class
  k at support frame s. Between the launches: the sum of the first launch's two outputs, and the same two operands
  for the three window means. After the second launch: the four results from the distances.
-/
import proofs.«110043_j29283087024820_2_alg».proof.Proof.Gen.KernelIdeal.Launch
import proofs.«110043_j29283087024820_2_alg».proof.Proof.SharedHost
import Idealize.ShloMosaic.Lib.StableHlo.Run
import Idealize.ShloMosaic.Lib.Pipeline.Value
import Idealize.ShloMosaic.Lib.ValueIdx

set_option maxRecDepth 65536

noncomputable section

namespace Cert.KernelIdeal.Chamfer

open Cert.KernelIdeal Cert.KernelIdeal.Gen
open Idealize.ShloMosaic Idealize.ShloMosaic.TcCoe Idealize.ShloMosaic.ValueIdx Idealize.SL.Sem Idealize.ShloMosaic.StableHlo

variable {F : FTy → Type} [FloatOps F]

/-- The prototype matrix of the first launch: [64, 8, 1024] prototypes laid out as [1024, 512], column 64·s + k. -/
def protoMatrix8 (P : (⟨S64x8x1024, .f32⟩ : BufTy).Contents (Elt F)) : (⟨S1024x512, .bf16⟩ : BufTy).Contents (Elt F) :=
  truncf .bf16 (transpose S1024x512 [1, 0] (shapeCast _ (transpose S8x64x1024 [1, 0, 2] (P) transposes_S64x8x1024_S8x64x1024_1_0_2) shapeCasts_S8x64x1024_S512x1024) transposes_S512x1024_S1024x512_1_0) bitsLt_bf16_f32
/-- The prototype matrix of the second launch: [64, 3, 1024] laid out as [1024, 192]. -/
def protoMatrix3 (P : (⟨S64x3x1024, .f32⟩ : BufTy).Contents (Elt F)) : (⟨S1024x192, .bf16⟩ : BufTy).Contents (Elt F) :=
  truncf .bf16 (transpose S1024x192 [1, 0] (shapeCast _ (transpose S3x64x1024 [1, 0, 2] (P) transposes_S64x3x1024_S3x64x1024_1_0_2) shapeCasts_S3x64x1024_S192x1024) transposes_S192x1024_S1024x192_1_0) bitsLt_bf16_f32

theorem protoMatrix8_apply (P : (⟨S64x8x1024, .f32⟩ : BufTy).Contents (Elt Ideal)) (d : Fin 1024) (s : Fin 8) (k : Fin 64) :
    protoMatrix8 (F := Ideal) P (ix2 d (⟨64 * s.val + k.val, by have := s.isLt; have := k.isLt; omega⟩ : Fin 512)) = P (ix3 k s d) := by
  unfold protoMatrix8
  have htr : ∀ (X : FVec Ideal S1024x512 .f32) (i : S1024x512.Idx), truncf .bf16 X bitsLt_bf16_f32 i = X i := fun _ _ => rfl
  rw [htr]
  rw [transpose_apply [1, 0] _ transposes_S512x1024_S1024x512_1_0 (ix2 d (⟨64 * s.val + k.val, by have := s.isLt; have := k.isLt; omega⟩ : Fin 512))
    (ix2 (⟨64 * s.val + k.val, by have := s.isLt; have := k.isLt; omega⟩ : Fin 512) d)
    (fun b => match b with | ⟨0, _⟩ => rfl | ⟨1, _⟩ => rfl)]
  rw [shapeCast_apply _ shapeCasts_S8x64x1024_S512x1024 (ix2 (⟨64 * s.val + k.val, by have := s.isLt; have := k.isLt; omega⟩ : Fin 512) d) (ix3 s k d)
    (by rw [Shape.rowMajor_val_three, Shape.rowMajor_val_two]; show (s.val * 64 + k.val) * 1024 + d.val = (64 * s.val + k.val) * 1024 + d.val; omega)]
  exact transpose_apply [1, 0, 2] P transposes_S64x8x1024_S8x64x1024_1_0_2 (ix3 s k d) (ix3 k s d)
    (fun b => match b with | ⟨0, _⟩ => rfl | ⟨1, _⟩ => rfl | ⟨2, _⟩ => rfl)

theorem protoMatrix3_apply (P : (⟨S64x3x1024, .f32⟩ : BufTy).Contents (Elt Ideal)) (d : Fin 1024) (s : Fin 3) (k : Fin 64) :
    protoMatrix3 (F := Ideal) P (ix2 d (⟨64 * s.val + k.val, by have := s.isLt; have := k.isLt; omega⟩ : Fin 192)) = P (ix3 k s d) := by
  unfold protoMatrix3
  have htr : ∀ (X : FVec Ideal S1024x192 .f32) (i : S1024x192.Idx), truncf .bf16 X bitsLt_bf16_f32 i = X i := fun _ _ => rfl
  rw [htr]
  rw [transpose_apply [1, 0] _ transposes_S192x1024_S1024x192_1_0 (ix2 d (⟨64 * s.val + k.val, by have := s.isLt; have := k.isLt; omega⟩ : Fin 192))
    (ix2 (⟨64 * s.val + k.val, by have := s.isLt; have := k.isLt; omega⟩ : Fin 192) d)
    (fun b => match b with | ⟨0, _⟩ => rfl | ⟨1, _⟩ => rfl)]
  rw [shapeCast_apply _ shapeCasts_S3x64x1024_S192x1024 (ix2 (⟨64 * s.val + k.val, by have := s.isLt; have := k.isLt; omega⟩ : Fin 192) d) (ix3 s k d)
    (by rw [Shape.rowMajor_val_three, Shape.rowMajor_val_two]; show (s.val * 64 + k.val) * 1024 + d.val = (64 * s.val + k.val) * 1024 + d.val; omega)]
  exact transpose_apply [1, 0, 2] P transposes_S64x3x1024_S3x64x1024_1_0_2 (ix3 s k d) (ix3 k s d)
    (fun b => match b with | ⟨0, _⟩ => rfl | ⟨1, _⟩ => rfl | ⟨2, _⟩ => rfl)

section Host
variable (V : Valuation τ sig (Elt F))

set_option maxHeartbeats 4000000 in
theorem host0_queries : StableHlo.after hostOps0 V (Proc.devRef .tc main_v31)
    = truncf .bf16 (Cert.ReferenceIdeal.Read.val_main_v17 (F := F) (V (Proc.devRef .tc main_arg1))) bitsLt_bf16_f32 := by
  after_results_simp <;> rfl
set_option maxHeartbeats 4000000 in
theorem host0_protos : StableHlo.after hostOps0 V (Proc.devRef .tc main_v32)
    = protoMatrix8 (Cert.ReferenceIdeal.Shared.rowNorm8 (Host.divf (Cert.ReferenceIdeal.Read.val_main_v2 (F := F) (V (Proc.devRef .tc main_arg0)) (V (Proc.devRef .tc main_arg2)))
        (Cert.ReferenceIdeal.Shared.perClass8 (Cert.ReferenceIdeal.Shared.guarded (Cert.ReferenceIdeal.Read.val_main_v6 (F := F) (V (Proc.devRef .tc main_arg2))))))) := by
  after_results_simp <;> rfl
set_option maxHeartbeats 4000000 in
theorem host1_global : StableHlo.after hostOps1 V (Proc.devRef .tc main_v34)
    = addf (V (Proc.devRef .tc main_v33_0)) (V (Proc.devRef .tc main_v33_1)) := by
  after_results_simp <;> rfl
set_option maxHeartbeats 4000000 in
theorem host1_queries : StableHlo.after hostOps1 V (Proc.devRef .tc main_v98)
    = truncf .bf16 (Cert.ReferenceIdeal.Read.val_main_v84 (F := F) (V (Proc.devRef .tc main_arg1))) bitsLt_bf16_f32 := by
  after_results_simp <;> rfl
set_option maxHeartbeats 4000000 in
theorem host1_protos : StableHlo.after hostOps1 V (Proc.devRef .tc main_v99)
    = protoMatrix3 (Cert.ReferenceIdeal.Shared.rowNorm3 (Host.divf (Cert.ReferenceIdeal.Read.val_main_v69 (F := F) (V (Proc.devRef .tc main_arg0)) (V (Proc.devRef .tc main_arg2)))
        (Cert.ReferenceIdeal.Shared.perClass3 (Cert.ReferenceIdeal.Shared.guarded (Cert.ReferenceIdeal.Read.val_main_v73 (F := F) (V (Proc.devRef .tc main_arg2))))))) := by
  after_results_simp <;> rfl
set_option maxHeartbeats 4000000 in
theorem host2_out0 : StableHlo.after hostOps2 V (Proc.devRef .tc main_v128)
    = Cert.ReferenceIdeal.Shared.tail0 (V (Proc.devRef .tc main_v34)) (V (Proc.devRef .tc main_v100_1)) (V (Proc.devRef .tc main_v100_0)) (V (Proc.devRef .tc main_arg3)) (V (Proc.devRef .tc main_arg4)) := by
  after_results_simp <;> rfl
theorem host2_out1 : StableHlo.after hostOps2 V (Proc.devRef .tc main_v129) = Cert.ReferenceIdeal.Shared.tail1 (V (Proc.devRef .tc main_v34)) := by
  after_results_simp <;> rfl
theorem host2_out2 : StableHlo.after hostOps2 V (Proc.devRef .tc main_v130) = Cert.ReferenceIdeal.Shared.tail2 (V (Proc.devRef .tc main_v100_1)) := by
  after_results_simp <;> rfl
theorem host2_out3 : StableHlo.after hostOps2 V (Proc.devRef .tc main_v131) = Cert.ReferenceIdeal.Shared.tail3 (V (Proc.devRef .tc main_v100_0)) := by
  after_results_simp <;> rfl

end Host

end Cert.KernelIdeal.Chamfer

end
-- ==== Proof.ReferenceChamfer.lean ====
/-
  The reference program's two chamfer terms, read as sums of minima of distances.

  For a query q and a class k the program forms every inner product of a normalized query frame (q, t) with a
  normalized prototype frame (k, s), the distance 1 − ⟨·, ·⟩, and then
    * the minimum over s from +∞ summed over t from 0, and
    * the minimum over t from +∞ summed over s from 0.
  Each minimum over one axis is a fold of min over that axis's coordinates, the reduced index with the coordinate
  put back being the four coordinates in order; the inner product is a finite sum whose factors commute.
  The same holds for the segment term with three frames per query and per class in place of eight.
-/
import proofs.«110043_j29283087024820_2_alg».proof.Proof.Gen.ReferenceIdeal.Read
import proofs.«110043_j29283087024820_2_alg».proof.Proof.ChamferMath
noncomputable section
namespace Cert.ReferenceIdeal.Chamfer
open Cert.ReferenceIdeal Cert.ReferenceIdeal.Gen Cert.ReferenceIdeal.Read Idealize.ShloMosaic Idealize.ShloMosaic.ValueIdx
open scoped BigOperators

/-! ## The global term: eight query frames against eight prototype frames -/

/-- The reduced index (q, k, t) with the coordinate s put back on the last axis is (q, k, t, s). -/
theorem lift8_last (h : S4096x64x8x8.Reduces [3] S4096x64x8) (q : Fin 4096) (k : Fin 64) (t : Fin 8)
    (s : Fin (S4096x64x8x8.size 3)) : h.lift (ix3 q k t) s = ix4 q k t (⟨s.val, s.isLt⟩ : Fin 8) := by
  funext c; apply Fin.ext
  fin_cases c <;> rfl

/-- The reduced index (q, k, s) with the coordinate t put back on the third axis is (q, k, t, s). -/
theorem lift8_third (h : S4096x64x8x8.Reduces [2] S4096x64x8) (q : Fin 4096) (k : Fin 64) (s : Fin 8)
    (t : Fin (S4096x64x8x8.size 2)) : h.lift (ix3 q k s) t = ix4 q k (⟨t.val, t.isLt⟩ : Fin 8) s := by
  funext c; apply Fin.ext
  fin_cases c <;> rfl

/-- One distance: 1 minus the inner product of query frame (q, t) with prototype frame (k, s). -/
theorem dist8_read (x0 : (⟨S256x8x1024, .f32⟩ : BufTy).Contents (Elt Ideal)) (x1 : (⟨S4096x8x1024, .f32⟩ : BufTy).Contents (Elt Ideal))
    (x2 : (⟨S256, .i32⟩ : BufTy).Contents (Elt Ideal)) (q : Fin 4096) (k : Fin 64) (t : Fin 8) (s : Fin 8) :
    val_main_v29 (F := Ideal) x0 x1 x2 (ix4 q k t s)
      = ChamferMath.one - ∑ d : Fin 1024, val_main_v17 (F := Ideal) x1 (ix3 q t d) * val_main_v25 (F := Ideal) x0 x2 (ix3 k s d) := by
  rw [val_main_v29_apply, val_main_v28_apply, val_main_cst_6_apply, val_main_v27_apply, val_main_v26_apply]
  refine congrArg (fun z => ChamferMath.one - z) (Finset.sum_congr rfl fun d _ => ?_)
  have el : lidx_main_v26 (idx_main_v27 (ix4 q k t s)) d = ix3 k s d :=
    funext fun a => match a with | ⟨0, _⟩ => rfl | ⟨1, _⟩ => rfl | ⟨2, _⟩ => rfl
  have er : ridx_main_v26 (idx_main_v27 (ix4 q k t s)) d = ix3 q t d :=
    funext fun a => match a with | ⟨0, _⟩ => rfl | ⟨1, _⟩ => rfl | ⟨2, _⟩ => rfl
  rw [el, er, mul_comm]

/-- The minimum over the prototype's frames s of the distances, from +∞, as a fold over s. -/
theorem minLast8_read (x0 : (⟨S256x8x1024, .f32⟩ : BufTy).Contents (Elt Ideal)) (x1 : (⟨S4096x8x1024, .f32⟩ : BufTy).Contents (Elt Ideal))
    (x2 : (⟨S256, .i32⟩ : BufTy).Contents (Elt Ideal)) (q : Fin 4096) (k : Fin 64) (t : Fin 8) :
    val_main_v30 (F := Ideal) x0 x1 x2 (ix3 q k t)
      = (Finset.univ : Finset (Fin 8)).fold min ⊤ (fun s => val_main_v29 (F := Ideal) x0 x1 x2 (ix4 q k t s)) := by
  unfold val_main_v30
  have h : S4096x64x8x8.Reduces [3] S4096x64x8 := by decide
  rw [Host.reduce_eq_fold_single FloatOps.minimumf _ _ reducesTo_S4096x64x8x8_S4096x64x8_d3 h h_S_]
  have hf : (val_main_v29 (F := Ideal) x0 x1 x2 ∘ h.lift (ix3 q k t)) = fun s : Fin 8 => val_main_v29 (F := Ideal) x0 x1 x2 (ix4 q k t s) :=
    funext fun s => congrArg (val_main_v29 (F := Ideal) x0 x1 x2) (lift8_last h q k t s)
  have hi : val_main_cst_7 (F := Ideal) (Shape.Idx.first h_S_) = (⊤ : EReal) := ChamferMath.ofBits_top
  rw [hi]
  exact congrArg (fun f => Finset.fold min (⊤ : EReal) f (Finset.univ : Finset (Fin 8))) hf

/-- The minimum over the query's frames t of the distances, from +∞, as a fold over t. -/
theorem minThird8_read (x0 : (⟨S256x8x1024, .f32⟩ : BufTy).Contents (Elt Ideal)) (x1 : (⟨S4096x8x1024, .f32⟩ : BufTy).Contents (Elt Ideal))
    (x2 : (⟨S256, .i32⟩ : BufTy).Contents (Elt Ideal)) (q : Fin 4096) (k : Fin 64) (s : Fin 8) :
    val_main_v32 (F := Ideal) x0 x1 x2 (ix3 q k s)
      = (Finset.univ : Finset (Fin 8)).fold min ⊤ (fun t => val_main_v29 (F := Ideal) x0 x1 x2 (ix4 q k t s)) := by
  unfold val_main_v32
  have h : S4096x64x8x8.Reduces [2] S4096x64x8 := by decide
  rw [Host.reduce_eq_fold_single FloatOps.minimumf _ _ reducesTo_S4096x64x8x8_S4096x64x8_d2 h h_S_]
  have hf : (val_main_v29 (F := Ideal) x0 x1 x2 ∘ h.lift (ix3 q k s)) = fun t : Fin 8 => val_main_v29 (F := Ideal) x0 x1 x2 (ix4 q k t s) :=
    funext fun t => congrArg (val_main_v29 (F := Ideal) x0 x1 x2) (lift8_third h q k s t)
  have hi : val_main_cst_9 (F := Ideal) (Shape.Idx.first h_S_) = (⊤ : EReal) := ChamferMath.ofBits_top
  rw [hi]
  exact congrArg (fun f => Finset.fold min (⊤ : EReal) f (Finset.univ : Finset (Fin 8))) hf

theorem global_sumMin (x0 : (⟨S256x8x1024, .f32⟩ : BufTy).Contents (Elt Ideal)) (x1 : (⟨S4096x8x1024, .f32⟩ : BufTy).Contents (Elt Ideal))
    (x2 : (⟨S256, .i32⟩ : BufTy).Contents (Elt Ideal)) (q : Fin 4096) (k : Fin 64) :
    val_main_v31 (F := Ideal) x0 x1 x2 (ix2 q k)
      = ChamferMath.sumMin 8 1024 (fun t d => val_main_v17 (F := Ideal) x1 (ix3 q t d)) (fun s d => val_main_v25 (F := Ideal) x0 x2 (ix3 k s d)) := by
  rw [val_main_v31_apply]
  unfold ChamferMath.sumMin
  have h0 : val_main_cst_8 (F := Ideal) (Shape.Idx.first h_S_) = (0 : EReal) := ChamferMath.ofBits_zero
  rw [h0]
  refine congrArg (fun z => (0 : EReal) + z) (Finset.sum_congr rfl fun t _ => ?_)
  have ei : idx_main_v31 (ix2 q k) t = ix3 q k t :=
    funext fun a => match a with | ⟨0, _⟩ => rfl | ⟨1, _⟩ => rfl | ⟨2, _⟩ => rfl
  rw [ei, minLast8_read]
  exact Finset.fold_congr fun s _ => dist8_read x0 x1 x2 q k t s

theorem global_minSum (x0 : (⟨S256x8x1024, .f32⟩ : BufTy).Contents (Elt Ideal)) (x1 : (⟨S4096x8x1024, .f32⟩ : BufTy).Contents (Elt Ideal))
    (x2 : (⟨S256, .i32⟩ : BufTy).Contents (Elt Ideal)) (q : Fin 4096) (k : Fin 64) :
    val_main_v33 (F := Ideal) x0 x1 x2 (ix2 q k)
      = ChamferMath.minSum 8 1024 (fun t d => val_main_v17 (F := Ideal) x1 (ix3 q t d)) (fun s d => val_main_v25 (F := Ideal) x0 x2 (ix3 k s d)) := by
  rw [val_main_v33_apply]
  unfold ChamferMath.minSum
  have h0 : val_main_cst_10 (F := Ideal) (Shape.Idx.first h_S_) = (0 : EReal) := ChamferMath.ofBits_zero
  rw [h0]
  refine congrArg (fun z => (0 : EReal) + z) (Finset.sum_congr rfl fun s _ => ?_)
  have ei : idx_main_v33 (ix2 q k) s = ix3 q k s :=
    funext fun a => match a with | ⟨0, _⟩ => rfl | ⟨1, _⟩ => rfl | ⟨2, _⟩ => rfl
  rw [ei, minThird8_read]
  exact Finset.fold_congr fun t _ => dist8_read x0 x1 x2 q k t s

/-! ## The segment term: three query frames against three prototype frames -/

/-- The reduced index (q, k, t) with the coordinate s put back on the last axis is (q, k, t, s). -/
theorem lift3_last (h : S4096x64x3x3.Reduces [3] S4096x64x3) (q : Fin 4096) (k : Fin 64) (t : Fin 3)
    (s : Fin (S4096x64x3x3.size 3)) : h.lift (ix3 q k t) s = ix4 q k t (⟨s.val, s.isLt⟩ : Fin 3) := by
  funext c; apply Fin.ext
  fin_cases c <;> rfl

/-- The reduced index (q, k, s) with the coordinate t put back on the third axis is (q, k, t, s). -/
theorem lift3_third (h : S4096x64x3x3.Reduces [2] S4096x64x3) (q : Fin 4096) (k : Fin 64) (s : Fin 3)
    (t : Fin (S4096x64x3x3.size 2)) : h.lift (ix3 q k s) t = ix4 q k (⟨t.val, t.isLt⟩ : Fin 3) s := by
  funext c; apply Fin.ext
  fin_cases c <;> rfl

/-- One distance: 1 minus the inner product of query frame (q, t) with prototype frame (k, s). -/
theorem dist3_read (x0 : (⟨S256x8x1024, .f32⟩ : BufTy).Contents (Elt Ideal)) (x1 : (⟨S4096x8x1024, .f32⟩ : BufTy).Contents (Elt Ideal))
    (x2 : (⟨S256, .i32⟩ : BufTy).Contents (Elt Ideal)) (q : Fin 4096) (k : Fin 64) (t : Fin 3) (s : Fin 3) :
    val_main_v96 (F := Ideal) x0 x1 x2 (ix4 q k t s)
      = ChamferMath.one - ∑ d : Fin 1024, val_main_v84 (F := Ideal) x1 (ix3 q t d) * val_main_v92 (F := Ideal) x0 x2 (ix3 k s d) := by
  rw [val_main_v96_apply, val_main_v95_apply, val_main_cst_30_apply, val_main_v94_apply, val_main_v93_apply]
  refine congrArg (fun z => ChamferMath.one - z) (Finset.sum_congr rfl fun d _ => ?_)
  have el : lidx_main_v93 (idx_main_v94 (ix4 q k t s)) d = ix3 k s d :=
    funext fun a => match a with | ⟨0, _⟩ => rfl | ⟨1, _⟩ => rfl | ⟨2, _⟩ => rfl
  have er : ridx_main_v93 (idx_main_v94 (ix4 q k t s)) d = ix3 q t d :=
    funext fun a => match a with | ⟨0, _⟩ => rfl | ⟨1, _⟩ => rfl | ⟨2, _⟩ => rfl
  rw [el, er, mul_comm]

/-- The minimum over the prototype's frames s of the distances, from +∞, as a fold over s. -/
theorem minLast3_read (x0 : (⟨S256x8x1024, .f32⟩ : BufTy).Contents (Elt Ideal)) (x1 : (⟨S4096x8x1024, .f32⟩ : BufTy).Contents (Elt Ideal))
    (x2 : (⟨S256, .i32⟩ : BufTy).Contents (Elt Ideal)) (q : Fin 4096) (k : Fin 64) (t : Fin 3) :
    val_main_v97 (F := Ideal) x0 x1 x2 (ix3 q k t)
      = (Finset.univ : Finset (Fin 3)).fold min ⊤ (fun s => val_main_v96 (F := Ideal) x0 x1 x2 (ix4 q k t s)) := by
  unfold val_main_v97
  have h : S4096x64x3x3.Reduces [3] S4096x64x3 := by decide
  rw [Host.reduce_eq_fold_single FloatOps.minimumf _ _ reducesTo_S4096x64x3x3_S4096x64x3_d3 h h_S_]
  have hf : (val_main_v96 (F := Ideal) x0 x1 x2 ∘ h.lift (ix3 q k t)) = fun s : Fin 3 => val_main_v96 (F := Ideal) x0 x1 x2 (ix4 q k t s) :=
    funext fun s => congrArg (val_main_v96 (F := Ideal) x0 x1 x2) (lift3_last h q k t s)
  have hi : val_main_cst_31 (F := Ideal) (Shape.Idx.first h_S_) = (⊤ : EReal) := ChamferMath.ofBits_top
  rw [hi]
  exact congrArg (fun f => Finset.fold min (⊤ : EReal) f (Finset.univ : Finset (Fin 3))) hf

/-- The minimum over the query's frames t of the distances, from +∞, as a fold over t. -/
theorem minThird3_read (x0 : (⟨S256x8x1024, .f32⟩ : BufTy).Contents (Elt Ideal)) (x1 : (⟨S4096x8x1024, .f32⟩ : BufTy).Contents (Elt Ideal))
    (x2 : (⟨S256, .i32⟩ : BufTy).Contents (Elt Ideal)) (q : Fin 4096) (k : Fin 64) (s : Fin 3) :
    val_main_v99 (F := Ideal) x0 x1 x2 (ix3 q k s)
      = (Finset.univ : Finset (Fin 3)).fold min ⊤ (fun t => val_main_v96 (F := Ideal) x0 x1 x2 (ix4 q k t s)) := by
  unfold val_main_v99
  have h : S4096x64x3x3.Reduces [2] S4096x64x3 := by decide
  rw [Host.reduce_eq_fold_single FloatOps.minimumf _ _ reducesTo_S4096x64x3x3_S4096x64x3_d2 h h_S_]
  have hf : (val_main_v96 (F := Ideal) x0 x1 x2 ∘ h.lift (ix3 q k s)) = fun t : Fin 3 => val_main_v96 (F := Ideal) x0 x1 x2 (ix4 q k t s) :=
    funext fun t => congrArg (val_main_v96 (F := Ideal) x0 x1 x2) (lift3_third h q k s t)
  have hi : val_main_cst_33 (F := Ideal) (Shape.Idx.first h_S_) = (⊤ : EReal) := ChamferMath.ofBits_top
  rw [hi]
  exact congrArg (fun f => Finset.fold min (⊤ : EReal) f (Finset.univ : Finset (Fin 3))) hf

theorem segment_sumMin (x0 : (⟨S256x8x1024, .f32⟩ : BufTy).Contents (Elt Ideal)) (x1 : (⟨S4096x8x1024, .f32⟩ : BufTy).Contents (Elt Ideal))
    (x2 : (⟨S256, .i32⟩ : BufTy).Contents (Elt Ideal)) (q : Fin 4096) (k : Fin 64) :
    val_main_v98 (F := Ideal) x0 x1 x2 (ix2 q k)
      = ChamferMath.sumMin 3 1024 (fun t d => val_main_v84 (F := Ideal) x1 (ix3 q t d)) (fun s d => val_main_v92 (F := Ideal) x0 x2 (ix3 k s d)) := by
  rw [val_main_v98_apply]
  unfold ChamferMath.sumMin
  have h0 : val_main_cst_32 (F := Ideal) (Shape.Idx.first h_S_) = (0 : EReal) := ChamferMath.ofBits_zero
  rw [h0]
  refine congrArg (fun z => (0 : EReal) + z) (Finset.sum_congr rfl fun t _ => ?_)
  have ei : idx_main_v98 (ix2 q k) t = ix3 q k t :=
    funext fun a => match a with | ⟨0, _⟩ => rfl | ⟨1, _⟩ => rfl | ⟨2, _⟩ => rfl
  rw [ei, minLast3_read]
  exact Finset.fold_congr fun s _ => dist3_read x0 x1 x2 q k t s

theorem segment_minSum (x0 : (⟨S256x8x1024, .f32⟩ : BufTy).Contents (Elt Ideal)) (x1 : (⟨S4096x8x1024, .f32⟩ : BufTy).Contents (Elt Ideal))
    (x2 : (⟨S256, .i32⟩ : BufTy).Contents (Elt Ideal)) (q : Fin 4096) (k : Fin 64) :
    val_main_v100 (F := Ideal) x0 x1 x2 (ix2 q k)
      = ChamferMath.minSum 3 1024 (fun t d => val_main_v84 (F := Ideal) x1 (ix3 q t d)) (fun s d => val_main_v92 (F := Ideal) x0 x2 (ix3 k s d)) := by
  rw [val_main_v100_apply]
  unfold ChamferMath.minSum
  have h0 : val_main_cst_34 (F := Ideal) (Shape.Idx.first h_S_) = (0 : EReal) := ChamferMath.ofBits_zero
  rw [h0]
  refine congrArg (fun z => (0 : EReal) + z) (Finset.sum_congr rfl fun s _ => ?_)
  have ei : idx_main_v100 (ix2 q k) s = ix3 q k s :=
    funext fun a => match a with | ⟨0, _⟩ => rfl | ⟨1, _⟩ => rfl | ⟨2, _⟩ => rfl
  rw [ei, minThird3_read]
  exact Finset.fold_congr fun t _ => dist3_read x0 x1 x2 q k t s

end Cert.ReferenceIdeal.Chamfer
end
-- ==== Proof.KernelIdealValue.lean ====
/-
  The idealized kernel program's four results are the reference's.

  Walking the buffer contents through the run: the first launch's operands are the normalized query frames and the
  prototype matrix built from the class sums divided by max(count, 1); its two output arrays, read at (q, k), are the
  sum over query frames of the minimum over support frames, and the sum over support frames of the minimum over query
  frames, of 1 − ⟨query frame, prototype frame⟩ — the reference's two reductions of its distance tensor, once the guard
  on the count is seen not to change the normalized prototypes. The second launch is the same over the three window
  means. The last host stretch is the reference's own.
-/
import proofs.«110043_j29283087024820_2_alg».proof.Proof.KernelIdealRun
import proofs.«110043_j29283087024820_2_alg».proof.Proof.KernelIdealArrays
import proofs.«110043_j29283087024820_2_alg».proof.Proof.KernelIdealBlock
import proofs.«110043_j29283087024820_2_alg».proof.Proof.KernelIdealHost
import proofs.«110043_j29283087024820_2_alg».proof.Proof.ReferenceChamfer

set_option maxRecDepth 65536

noncomputable section

namespace Cert.KernelIdeal.Chamfer

open Cert.KernelIdeal Cert.KernelIdeal.Gen
open Idealize.ShloMosaic Idealize.ShloMosaic.TcCoe Idealize.ShloMosaic.ValueIdx Idealize.SL.Sem Idealize.ShloMosaic.StableHlo
open scoped BigOperators

/-- Entry (q, k) of that array, from the two input arrays at their entries. -/
theorem G0_2_read (a : S4096x8x1024.Idx → Elt Ideal .bf16) (b : S1024x512.Idx → Elt Ideal .bf16) (q : Fin 4096) (k : Fin 64) :
    G0_2 (F := Ideal) a b (ix2 q k)
      = ChamferMath.sumMin 8 1024 (fun t d => a (ix3 q t d)) (fun s d => b (ix2 d (⟨64 * s.val + k.val, by have := s.isLt; have := k.isLt; omega⟩ : Fin 512))) := by
  unfold G0_2
  rw [sumMin0_apply]
  have hq := q.isLt
  have hk := k.isLt
  congr 1
  · funext t d
    have ht := t.isLt
    have hd := d.isLt
    unfold rows0
    refine congrArg a (funext fun ax => Fin.ext ?_)
    match ax with
    | ⟨0, _⟩ => show (q.val / 256 * 256 + q.val % 256) % 4096 = q.val; omega
    | ⟨1, _⟩ => show t.val % 8 = t.val; omega
    | ⟨2, _⟩ => show d.val % 1024 = d.val; omega
  · funext s d
    have hs := s.isLt
    refine congrArg b (funext fun ax => Fin.ext ?_)
    match ax with
    | ⟨0, _⟩ => rfl
    | ⟨1, _⟩ => show 64 * s.val + k.val % 64 = 64 * s.val + k.val; omega

/-- Entry (q, k) of that array, from the two input arrays at their entries. -/
theorem G0_3_read (a : S4096x8x1024.Idx → Elt Ideal .bf16) (b : S1024x512.Idx → Elt Ideal .bf16) (q : Fin 4096) (k : Fin 64) :
    G0_3 (F := Ideal) a b (ix2 q k)
      = ChamferMath.minSum 8 1024 (fun t d => a (ix3 q t d)) (fun s d => b (ix2 d (⟨64 * s.val + k.val, by have := s.isLt; have := k.isLt; omega⟩ : Fin 512))) := by
  unfold G0_3
  rw [minSum0_apply]
  have hq := q.isLt
  have hk := k.isLt
  congr 1
  · funext t d
    have ht := t.isLt
    have hd := d.isLt
    unfold rows0
    refine congrArg a (funext fun ax => Fin.ext ?_)
    match ax with
    | ⟨0, _⟩ => show (q.val / 256 * 256 + q.val % 256) % 4096 = q.val; omega
    | ⟨1, _⟩ => show t.val % 8 = t.val; omega
    | ⟨2, _⟩ => show d.val % 1024 = d.val; omega
  · funext s d
    have hs := s.isLt
    refine congrArg b (funext fun ax => Fin.ext ?_)
    match ax with
    | ⟨0, _⟩ => rfl
    | ⟨1, _⟩ => show 64 * s.val + k.val % 64 = 64 * s.val + k.val; omega

/-- Entry (q, k) of that array, from the two input arrays at their entries. -/
theorem G1_2_read (a : S4096x3x1024.Idx → Elt Ideal .bf16) (b : S1024x192.Idx → Elt Ideal .bf16) (q : Fin 4096) (k : Fin 64) :
    G1_2 (F := Ideal) a b (ix2 q k)
      = ChamferMath.sumMin 3 1024 (fun t d => a (ix3 q t d)) (fun s d => b (ix2 d (⟨64 * s.val + k.val, by have := s.isLt; have := k.isLt; omega⟩ : Fin 192))) := by
  unfold G1_2
  rw [sumMin1_apply]
  have hq := q.isLt
  have hk := k.isLt
  congr 1
  · funext t d
    have ht := t.isLt
    have hd := d.isLt
    unfold rows1
    refine congrArg a (funext fun ax => Fin.ext ?_)
    match ax with
    | ⟨0, _⟩ => show (q.val / 256 * 256 + q.val % 256) % 4096 = q.val; omega
    | ⟨1, _⟩ => show t.val % 3 = t.val; omega
    | ⟨2, _⟩ => show d.val % 1024 = d.val; omega
  · funext s d
    have hs := s.isLt
    refine congrArg b (funext fun ax => Fin.ext ?_)
    match ax with
    | ⟨0, _⟩ => rfl
    | ⟨1, _⟩ => show 64 * s.val + k.val % 64 = 64 * s.val + k.val; omega

/-- Entry (q, k) of that array, from the two input arrays at their entries. -/
theorem G1_3_read (a : S4096x3x1024.Idx → Elt Ideal .bf16) (b : S1024x192.Idx → Elt Ideal .bf16) (q : Fin 4096) (k : Fin 64) :
    G1_3 (F := Ideal) a b (ix2 q k)
      = ChamferMath.minSum 3 1024 (fun t d => a (ix3 q t d)) (fun s d => b (ix2 d (⟨64 * s.val + k.val, by have := s.isLt; have := k.isLt; omega⟩ : Fin 192))) := by
  unfold G1_3
  rw [minSum1_apply]
  have hq := q.isLt
  have hk := k.isLt
  congr 1
  · funext t d
    have ht := t.isLt
    have hd := d.isLt
    unfold rows1
    refine congrArg a (funext fun ax => Fin.ext ?_)
    match ax with
    | ⟨0, _⟩ => show (q.val / 256 * 256 + q.val % 256) % 4096 = q.val; omega
    | ⟨1, _⟩ => show t.val % 3 = t.val; omega
    | ⟨2, _⟩ => show d.val % 1024 = d.val; omega
  · funext s d
    have hs := s.isLt
    refine congrArg b (funext fun ax => Fin.ext ?_)
    match ax with
    | ⟨0, _⟩ => rfl
    | ⟨1, _⟩ => show 64 * s.val + k.val % 64 = 64 * s.val + k.val; omega

variable (m : (ℓ : Loc nD τ sig) → Buf (Elt Ideal) ℓ) (ρ : Dev nD → PrngReg) (c : Dev nD)

/-- The first launch's operands: the normalized query frames, and the prototype matrix (guarded counts). -/
abbrev qry8 (x1 : (⟨S4096x8x1024, .f32⟩ : BufTy).Contents (Elt Ideal)) : FVec Ideal S4096x8x1024 .bf16 :=
  truncf (F := Ideal) (s := S4096x8x1024) (φ := .f32) .bf16 (Cert.ReferenceIdeal.Read.val_main_v17 (F := Ideal) x1) bitsLt_bf16_f32
abbrev pm8 (x0 : (⟨S256x8x1024, .f32⟩ : BufTy).Contents (Elt Ideal)) (x2 : (⟨S256, .i32⟩ : BufTy).Contents (Elt Ideal)) : (⟨S1024x512, .bf16⟩ : BufTy).Contents (Elt Ideal) :=
  protoMatrix8 (Cert.ReferenceIdeal.Shared.rowNorm8 (Host.divf (Cert.ReferenceIdeal.Read.val_main_v2 (F := Ideal) x0 x2) (Cert.ReferenceIdeal.Shared.perClass8 (Cert.ReferenceIdeal.Shared.guarded (Cert.ReferenceIdeal.Read.val_main_v6 (F := Ideal) x2)))))
/-- The second launch's operands. -/
abbrev qry3 (x1 : (⟨S4096x8x1024, .f32⟩ : BufTy).Contents (Elt Ideal)) : FVec Ideal S4096x3x1024 .bf16 :=
  truncf (F := Ideal) (s := S4096x3x1024) (φ := .f32) .bf16 (Cert.ReferenceIdeal.Read.val_main_v84 (F := Ideal) x1) bitsLt_bf16_f32
abbrev pm3 (x0 : (⟨S256x8x1024, .f32⟩ : BufTy).Contents (Elt Ideal)) (x2 : (⟨S256, .i32⟩ : BufTy).Contents (Elt Ideal)) : (⟨S1024x192, .bf16⟩ : BufTy).Contents (Elt Ideal) :=
  protoMatrix3 (Cert.ReferenceIdeal.Shared.rowNorm3 (Host.divf (Cert.ReferenceIdeal.Read.val_main_v69 (F := Ideal) x0 x2) (Cert.ReferenceIdeal.Shared.perClass3 (Cert.ReferenceIdeal.Shared.guarded (Cert.ReferenceIdeal.Read.val_main_v73 (F := Ideal) x2)))))

/-! ## The arguments and the first launch's sum, read through the fold -/

theorem W2_main_arg0 : W2 m ρ c (Proc.devRef .tc main_arg0) = m ((c : Thread nD τ).loc main_arg0) :=
  calc W2 m ρ c (Proc.devRef .tc main_arg0)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.reshape_writes, StableHlo.nary_writes, Finset.mem_singleton]
          repeat' apply And.intro
          all_goals exact StableHlo.devRef_ne_of_ne (by decide)))
    _ = m ((c : Thread nD τ).loc main_arg0) := rfl

theorem W2_main_arg1 : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.reshape_writes, StableHlo.nary_writes, Finset.mem_singleton]
          repeat' apply And.intro
          all_goals exact StableHlo.devRef_ne_of_ne (by decide)))
    _ = m ((c : Thread nD τ).loc main_arg1) := rfl

theorem W2_main_arg2 : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.reshape_writes, StableHlo.nary_writes, Finset.mem_singleton]
          repeat' apply And.intro
          all_goals exact StableHlo.devRef_ne_of_ne (by decide)))
    _ = m ((c : Thread nD τ).loc main_arg2) := rfl

theorem W2_main_arg3 : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, StableHlo.reshape_writes, StableHlo.nary_writes, Finset.mem_singleton]
          repeat' apply And.intro
          all_goals exact StableHlo.devRef_ne_of_ne (by decide)))
    _ = m ((c : Thread nD τ).loc main_arg3) := rfl

theorem W2_main_arg4 : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.Forall, StableHlo.nullary_writes, StableHlo.unary_writes, StableHlo.binary_writes, StableHlo.ternary_writes, StableHlo.reshape_writes, StableHlo.nary_writes, Finset.mem_singleton]
          repeat' apply And.intro
          all_goals exact StableHlo.devRef_ne_of_ne (by decide)))
    _ = m ((c : Thread nD τ).loc main_arg4) := rfl

theorem W4_main_arg3 : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.Forall, StableHlo.nullary_writes, StableHlo.unary_writes, StableHlo.binary_writes, StableHlo.ternary_writes, StableHlo.reshape_writes, StableHlo.nary_writes, Finset.mem_singleton]
          repeat' apply And.intro
          all_goals exact StableHlo.devRef_ne_of_ne (by decide)))
    _ = m ((c : Thread nD τ).loc main_arg3) := W2_main_arg3 m ρ c

theorem W4_main_arg4 : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.Forall, StableHlo.nullary_writes, StableHlo.unary_writes, StableHlo.binary_writes, StableHlo.ternary_writes, StableHlo.reshape_writes, StableHlo.nary_writes, Finset.mem_singleton]
          repeat' apply And.intro
          all_goals exact StableHlo.devRef_ne_of_ne (by decide)))
    _ = m ((c : Thread nD τ).loc main_arg4) := W2_main_arg4 m ρ c

/-! ## The boundary contents at the buffers the results depend on -/

theorem entry0_q : V1 m ρ c main_v31 = qry8 (m ((c : Thread nD τ).loc main_arg1)) := host0_queries (W0 m ρ c)
theorem entry0_p : V1 m ρ c main_v32 = pm8 (m ((c : Thread nD τ).loc main_arg0)) (m ((c : Thread nD τ).loc main_arg2)) := host0_protos (W0 m ρ c)

theorem W2_out0 : W2 m ρ c (Proc.devRef .tc main_v33_0)
    = G0_2 (qry8 (m ((c : Thread nD τ).loc main_arg1))) (pm8 (m ((c : Thread nD τ).loc main_arg0)) (m ((c : Thread nD τ).loc main_arg2))) :=
  (W2_arr m ρ c 2).trans ((final0_2 (V1 m ρ) c).trans (congrArg₂ G0_2 (entry0_q m ρ c) (entry0_p m ρ c)))
theorem W2_out1 : W2 m ρ c (Proc.devRef .tc main_v33_1)
    = G0_3 (qry8 (m ((c : Thread nD τ).loc main_arg1))) (pm8 (m ((c : Thread nD τ).loc main_arg0)) (m ((c : Thread nD τ).loc main_arg2))) :=
  (W2_arr m ρ c 3).trans ((final0_3 (V1 m ρ) c).trans (congrArg₂ G0_3 (entry0_q m ρ c) (entry0_p m ρ c)))

theorem W3_global : W3 m ρ c (Proc.devRef .tc main_v34)
    = addf (G0_2 (qry8 (m ((c : Thread nD τ).loc main_arg1))) (pm8 (m ((c : Thread nD τ).loc main_arg0)) (m ((c : Thread nD τ).loc main_arg2))))
        (G0_3 (qry8 (m ((c : Thread nD τ).loc main_arg1))) (pm8 (m ((c : Thread nD τ).loc main_arg0)) (m ((c : Thread nD τ).loc main_arg2)))) :=
  (host1_global (W2 m ρ c)).trans (congrArg₂ addf (W2_out0 m ρ c) (W2_out1 m ρ c))

theorem entry1_q : V3 m ρ c main_v98 = qry3 (m ((c : Thread nD τ).loc main_arg1)) :=
  (host1_queries (W2 m ρ c)).trans (by rw [W2_main_arg1])
theorem entry1_p : V3 m ρ c main_v99 = pm3 (m ((c : Thread nD τ).loc main_arg0)) (m ((c : Thread nD τ).loc main_arg2)) :=
  (host1_protos (W2 m ρ c)).trans (by rw [W2_main_arg0, W2_main_arg2])

theorem W4_out0 : W4 m ρ c (Proc.devRef .tc main_v100_0)
    = G1_2 (qry3 (m ((c : Thread nD τ).loc main_arg1))) (pm3 (m ((c : Thread nD τ).loc main_arg0)) (m ((c : Thread nD τ).loc main_arg2))) :=
  (W4_arr m ρ c 2).trans ((final1_2 (V3 m ρ) c).trans (congrArg₂ G1_2 (entry1_q m ρ c) (entry1_p m ρ c)))
theorem W4_out1 : W4 m ρ c (Proc.devRef .tc main_v100_1)
    = G1_3 (qry3 (m ((c : Thread nD τ).loc main_arg1))) (pm3 (m ((c : Thread nD τ).loc main_arg0)) (m ((c : Thread nD τ).loc main_arg2))) :=
  (W4_arr m ρ c 3).trans ((final1_3 (V3 m ρ) c).trans (congrArg₂ G1_3 (entry1_q m ρ c) (entry1_p m ρ c)))
theorem W4_global : W4 m ρ c (Proc.devRef .tc main_v34) = W3 m ρ c (Proc.devRef .tc main_v34) := W4_of_ne m ρ c main_v34 (by decide)

/-! ## The distances are the reference's -/

theorem pm8_eq (hg8 : ∀ (x0 : (⟨S256x8x1024, .f32⟩ : BufTy).Contents (Elt Ideal)) (x2 : (⟨S256, .i32⟩ : BufTy).Contents (Elt Ideal)), Cert.ReferenceIdeal.Shared.rowNorm8 (F := Ideal) (Host.divf (Cert.ReferenceIdeal.Read.val_main_v2 (F := Ideal) x0 x2) (Cert.ReferenceIdeal.Shared.perClass8 (Cert.ReferenceIdeal.Shared.guarded (Cert.ReferenceIdeal.Read.val_main_v6 (F := Ideal) x2)))) = Cert.ReferenceIdeal.Read.val_main_v25 (F := Ideal) x0 x2) (x0 : (⟨S256x8x1024, .f32⟩ : BufTy).Contents (Elt Ideal)) (x2 : (⟨S256, .i32⟩ : BufTy).Contents (Elt Ideal)) : pm8 x0 x2 = protoMatrix8 (Cert.ReferenceIdeal.Read.val_main_v25 (F := Ideal) x0 x2) :=
  congrArg protoMatrix8 (hg8 x0 x2)
theorem pm3_eq (hg3 : ∀ (x0 : (⟨S256x8x1024, .f32⟩ : BufTy).Contents (Elt Ideal)) (x2 : (⟨S256, .i32⟩ : BufTy).Contents (Elt Ideal)), Cert.ReferenceIdeal.Shared.rowNorm3 (F := Ideal) (Host.divf (Cert.ReferenceIdeal.Read.val_main_v69 (F := Ideal) x0 x2) (Cert.ReferenceIdeal.Shared.perClass3 (Cert.ReferenceIdeal.Shared.guarded (Cert.ReferenceIdeal.Read.val_main_v73 (F := Ideal) x2)))) = Cert.ReferenceIdeal.Read.val_main_v92 (F := Ideal) x0 x2) (x0 : (⟨S256x8x1024, .f32⟩ : BufTy).Contents (Elt Ideal)) (x2 : (⟨S256, .i32⟩ : BufTy).Contents (Elt Ideal)) : pm3 x0 x2 = protoMatrix3 (Cert.ReferenceIdeal.Read.val_main_v92 (F := Ideal) x0 x2) :=
  congrArg protoMatrix3 (hg3 x0 x2)

set_option maxHeartbeats 2000000 in
theorem global_eq (hg8 : ∀ (x0 : (⟨S256x8x1024, .f32⟩ : BufTy).Contents (Elt Ideal)) (x2 : (⟨S256, .i32⟩ : BufTy).Contents (Elt Ideal)), Cert.ReferenceIdeal.Shared.rowNorm8 (F := Ideal) (Host.divf (Cert.ReferenceIdeal.Read.val_main_v2 (F := Ideal) x0 x2) (Cert.ReferenceIdeal.Shared.perClass8 (Cert.ReferenceIdeal.Shared.guarded (Cert.ReferenceIdeal.Read.val_main_v6 (F := Ideal) x2)))) = Cert.ReferenceIdeal.Read.val_main_v25 (F := Ideal) x0 x2) (x0 : (⟨S256x8x1024, .f32⟩ : BufTy).Contents (Elt Ideal)) (x1 : (⟨S4096x8x1024, .f32⟩ : BufTy).Contents (Elt Ideal)) (x2 : (⟨S256, .i32⟩ : BufTy).Contents (Elt Ideal)) :
    addf (G0_2 (qry8 x1) (pm8 x0 x2)) (G0_3 (qry8 x1) (pm8 x0 x2)) = Cert.ReferenceIdeal.Read.val_main_v34 (F := Ideal) x0 x1 x2 := by
  rw [pm8_eq hg8]
  funext i
  obtain ⟨q, k, rfl⟩ : ∃ (q : Fin 4096) (k : Fin 64), i = ix2 q k := ⟨i 0, i 1, eq_ix2 i⟩
  unfold Cert.ReferenceIdeal.Read.val_main_v34
  rw [addf_apply, addf_apply, G0_2_read, G0_3_read, Cert.ReferenceIdeal.Chamfer.global_sumMin, Cert.ReferenceIdeal.Chamfer.global_minSum]
  simp only [protoMatrix8_apply, truncf_apply]
set_option maxHeartbeats 2000000 in
theorem seg_sumMin_eq (hg3 : ∀ (x0 : (⟨S256x8x1024, .f32⟩ : BufTy).Contents (Elt Ideal)) (x2 : (⟨S256, .i32⟩ : BufTy).Contents (Elt Ideal)), Cert.ReferenceIdeal.Shared.rowNorm3 (F := Ideal) (Host.divf (Cert.ReferenceIdeal.Read.val_main_v69 (F := Ideal) x0 x2) (Cert.ReferenceIdeal.Shared.perClass3 (Cert.ReferenceIdeal.Shared.guarded (Cert.ReferenceIdeal.Read.val_main_v73 (F := Ideal) x2)))) = Cert.ReferenceIdeal.Read.val_main_v92 (F := Ideal) x0 x2) (x0 : (⟨S256x8x1024, .f32⟩ : BufTy).Contents (Elt Ideal)) (x1 : (⟨S4096x8x1024, .f32⟩ : BufTy).Contents (Elt Ideal)) (x2 : (⟨S256, .i32⟩ : BufTy).Contents (Elt Ideal)) :
    G1_2 (qry3 x1) (pm3 x0 x2) = Cert.ReferenceIdeal.Read.val_main_v98 (F := Ideal) x0 x1 x2 := by
  rw [pm3_eq hg3]
  funext i
  obtain ⟨q, k, rfl⟩ : ∃ (q : Fin 4096) (k : Fin 64), i = ix2 q k := ⟨i 0, i 1, eq_ix2 i⟩
  rw [G1_2_read, Cert.ReferenceIdeal.Chamfer.segment_sumMin]
  simp only [protoMatrix3_apply, truncf_apply]
set_option maxHeartbeats 2000000 in
theorem seg_minSum_eq (hg3 : ∀ (x0 : (⟨S256x8x1024, .f32⟩ : BufTy).Contents (Elt Ideal)) (x2 : (⟨S256, .i32⟩ : BufTy).Contents (Elt Ideal)), Cert.ReferenceIdeal.Shared.rowNorm3 (F := Ideal) (Host.divf (Cert.ReferenceIdeal.Read.val_main_v69 (F := Ideal) x0 x2) (Cert.ReferenceIdeal.Shared.perClass3 (Cert.ReferenceIdeal.Shared.guarded (Cert.ReferenceIdeal.Read.val_main_v73 (F := Ideal) x2)))) = Cert.ReferenceIdeal.Read.val_main_v92 (F := Ideal) x0 x2) (x0 : (⟨S256x8x1024, .f32⟩ : BufTy).Contents (Elt Ideal)) (x1 : (⟨S4096x8x1024, .f32⟩ : BufTy).Contents (Elt Ideal)) (x2 : (⟨S256, .i32⟩ : BufTy).Contents (Elt Ideal)) :
    G1_3 (qry3 x1) (pm3 x0 x2) = Cert.ReferenceIdeal.Read.val_main_v100 (F := Ideal) x0 x1 x2 := by
  rw [pm3_eq hg3]
  funext i
  obtain ⟨q, k, rfl⟩ : ∃ (q : Fin 4096) (k : Fin 64), i = ix2 q k := ⟨i 0, i 1, eq_ix2 i⟩
  rw [G1_3_read, Cert.ReferenceIdeal.Chamfer.segment_minSum]
  simp only [protoMatrix3_apply, truncf_apply]

/-! ## The four results -/

theorem out0_eq (hg8 : ∀ (x0 : (⟨S256x8x1024, .f32⟩ : BufTy).Contents (Elt Ideal)) (x2 : (⟨S256, .i32⟩ : BufTy).Contents (Elt Ideal)), Cert.ReferenceIdeal.Shared.rowNorm8 (F := Ideal) (Host.divf (Cert.ReferenceIdeal.Read.val_main_v2 (F := Ideal) x0 x2) (Cert.ReferenceIdeal.Shared.perClass8 (Cert.ReferenceIdeal.Shared.guarded (Cert.ReferenceIdeal.Read.val_main_v6 (F := Ideal) x2)))) = Cert.ReferenceIdeal.Read.val_main_v25 (F := Ideal) x0 x2) (hg3 : ∀ (x0 : (⟨S256x8x1024, .f32⟩ : BufTy).Contents (Elt Ideal)) (x2 : (⟨S256, .i32⟩ : BufTy).Contents (Elt Ideal)), Cert.ReferenceIdeal.Shared.rowNorm3 (F := Ideal) (Host.divf (Cert.ReferenceIdeal.Read.val_main_v69 (F := Ideal) x0 x2) (Cert.ReferenceIdeal.Shared.perClass3 (Cert.ReferenceIdeal.Shared.guarded (Cert.ReferenceIdeal.Read.val_main_v73 (F := Ideal) x2)))) = Cert.ReferenceIdeal.Read.val_main_v92 (F := Ideal) x0 x2) : W5 m ρ c (Proc.devRef .tc main_v128)
    = Cert.ReferenceIdeal.Read.val_main_v128 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (host2_out0 (W4 m ρ c)).trans ?_
  rw [W4_global, W3_global, W4_out0, W4_out1, W4_main_arg3, W4_main_arg4, global_eq hg8, seg_sumMin_eq hg3, seg_minSum_eq hg3, Cert.ReferenceIdeal.Shared.ref_out0]
theorem out1_eq (hg8 : ∀ (x0 : (⟨S256x8x1024, .f32⟩ : BufTy).Contents (Elt Ideal)) (x2 : (⟨S256, .i32⟩ : BufTy).Contents (Elt Ideal)), Cert.ReferenceIdeal.Shared.rowNorm8 (F := Ideal) (Host.divf (Cert.ReferenceIdeal.Read.val_main_v2 (F := Ideal) x0 x2) (Cert.ReferenceIdeal.Shared.perClass8 (Cert.ReferenceIdeal.Shared.guarded (Cert.ReferenceIdeal.Read.val_main_v6 (F := Ideal) x2)))) = Cert.ReferenceIdeal.Read.val_main_v25 (F := Ideal) x0 x2) : W5 m ρ c (Proc.devRef .tc main_v129)
    = Cert.ReferenceIdeal.Read.val_main_v129 (F := Ideal) (m ((c : Thread nD τ).loc main_arg0)) (m ((c : Thread nD τ).loc main_arg1)) (m ((c : Thread nD τ).loc main_arg2)) := by
  refine (host2_out1 (W4 m ρ c)).trans ?_
  rw [W4_global, W3_global, global_eq hg8, Cert.ReferenceIdeal.Shared.ref_out1]
theorem out2_eq (hg3 : ∀ (x0 : (⟨S256x8x1024, .f32⟩ : BufTy).Contents (Elt Ideal)) (x2 : (⟨S256, .i32⟩ : BufTy).Contents (Elt Ideal)), Cert.ReferenceIdeal.Shared.rowNorm3 (F := Ideal) (Host.divf (Cert.ReferenceIdeal.Read.val_main_v69 (F := Ideal) x0 x2) (Cert.ReferenceIdeal.Shared.perClass3 (Cert.ReferenceIdeal.Shared.guarded (Cert.ReferenceIdeal.Read.val_main_v73 (F := Ideal) x2)))) = Cert.ReferenceIdeal.Read.val_main_v92 (F := Ideal) x0 x2) : W5 m ρ c (Proc.devRef .tc main_v130)
    = Cert.ReferenceIdeal.Read.val_main_v130 (F := Ideal) (m ((c : Thread nD τ).loc main_arg0)) (m ((c : Thread nD τ).loc main_arg1)) (m ((c : Thread nD τ).loc main_arg2)) := by
  refine (host2_out2 (W4 m ρ c)).trans ?_
  rw [W4_out1, seg_minSum_eq hg3, Cert.ReferenceIdeal.Shared.ref_out2]
theorem out3_eq (hg3 : ∀ (x0 : (⟨S256x8x1024, .f32⟩ : BufTy).Contents (Elt Ideal)) (x2 : (⟨S256, .i32⟩ : BufTy).Contents (Elt Ideal)), Cert.ReferenceIdeal.Shared.rowNorm3 (F := Ideal) (Host.divf (Cert.ReferenceIdeal.Read.val_main_v69 (F := Ideal) x0 x2) (Cert.ReferenceIdeal.Shared.perClass3 (Cert.ReferenceIdeal.Shared.guarded (Cert.ReferenceIdeal.Read.val_main_v73 (F := Ideal) x2)))) = Cert.ReferenceIdeal.Read.val_main_v92 (F := Ideal) x0 x2) : W5 m ρ c (Proc.devRef .tc main_v131)
    = Cert.ReferenceIdeal.Read.val_main_v131 (F := Ideal) (m ((c : Thread nD τ).loc main_arg0)) (m ((c : Thread nD τ).loc main_arg1)) (m ((c : Thread nD τ).loc main_arg2)) := by
  refine (host2_out3 (W4 m ρ c)).trans ?_
  rw [W4_out0, seg_sumMin_eq hg3, Cert.ReferenceIdeal.Shared.ref_out3]

end Cert.KernelIdeal.Chamfer

end
-- ==== Proof.PrototypeGuard.lean ====
/-
  The normalized class prototypes do not see the guard on the class count.

  A class prototype is the sum of its members' feature frames divided by the number of members, each row then divided by
  max(√(0 + Σ_d row²), ε). Both the sums and the counts are accumulating scatters from zeros by the same column of labels:
  a label adds its frames to the sums of the class it names and a one to that class's count, and a label that names no
  class adds to neither. So the count is 0 or at least 1, and max(count, 1) is the count itself unless the count is 0;
  and where the count is 0 no label lands on the class, no frame does either, and the class's sums are all 0. In that
  case both quotients 0 / 1 = 0 and 0 / 0 = ⊥ are sent to the zero row by the row norm. Everything is read at an
  index (k, t, d): the row norm, the spread of a per-class number, the guard, and the two scatters.
-/
import proofs.«110043_j29283087024820_2_alg».proof.Proof.SharedHost
import proofs.«110043_j29283087024820_2_alg».proof.Proof.ChamferMath
noncomputable section
namespace Cert.ReferenceIdeal.Guard
open Cert.ReferenceIdeal Cert.ReferenceIdeal.Gen Cert.ReferenceIdeal.Read Cert.ReferenceIdeal.Shared Idealize.ShloMosaic Idealize.ShloMosaic.ValueIdx
open scoped BigOperators

/-- The guard ε of the row norm: the float with the word 0x2B8CBCCC, about 10⁻¹². -/
def eps : EReal := Ideal.ofBits .f32 0x2B8CBCCC#32

theorem ofBits_one : Ideal.ofBits .f32 0x3F800000#32 = 1 := by
  rw [show (1 : EReal) = ((1 : ℝ) : EReal) by norm_cast]
  simp [Ideal.ofBits, Ideal.ieee, -EReal.coe_mul]; norm_num

theorem eps_pos : 0 < eps := by
  unfold eps
  simp [Ideal.ofBits, Ideal.ieee, -EReal.coe_mul]

/-! ## Reading the shared pieces at an index -/

theorem hostSqrt_apply {s : Shape} {φ : FTy} (z : FVec Ideal s φ) (i : s.Idx) : Host.sqrt z i = Ideal.sqrt (z i) := rfl

/-- The guarded count at class k: max(count, 1). -/
theorem guarded_apply (c : FVec Ideal S64 .f32) (k : Fin 64) : guarded (F := Ideal) c (ix1 k) = max (c (ix1 k)) 1 := by
  unfold guarded
  rw [maximumf_apply, broadcastInDim_apply _ bcast_S_S64 _ (ix1 k) ix0 (fun a => a.elim0), constant_apply, ofBits_one]

theorem hostDivf_apply' {s : Shape} {φ : FTy} (a b : FVec Ideal s φ) (i : s.Idx) :
    Host.divf a b i = Ideal.div (a i) (b i) := rfl

/-! ## Where an update lands -/

/-- The count's scatter: one number per label, added into the class the label names. -/
abbrev dCount := scatter_S64_S256x1_S256_n_0_0_1

/-- In the count an update starts at its label, read signed and not clamped. -/
theorem count_start {w : Nat} (idx : IVec S256x1 w) (j : Fin 256) :
    dCount.start (ix1 j) idx 0 = (idx (ix2 j (0 : Fin 1))).toInt := by
  unfold ScatterDims.start
  rw [dif_pos (show (0 : Fin 1) ∈ dCount.scatterDimsToOperandDims from List.mem_singleton.mpr rfl)]
  have hsi : dCount.siIdx (ix1 j) ⟨List.idxOf (0 : Fin 1) dCount.scatterDimsToOperandDims,
      List.idxOf_lt_length_iff.2 (List.mem_singleton.mpr rfl)⟩ = ix2 j (0 : Fin 1) := by
    funext b; refine Fin.ext ?_
    match b with
    | ⟨0, _⟩ => rfl
    | ⟨1, _⟩ => rfl
  rw [hsi]

/-- In the count an update's window has no extent. -/
theorem count_window (j : Fin 256) : dCount.window (ix1 j) 0 = 0 := by
  unfold ScatterDims.window
  rw [dif_neg]
  show ¬ (0 : Fin 1) ∈ S64.kept ([0] : List (Fin 1))
  simp [Shape.kept]

/-- The class count — zeros plus a one for every label that lands on the class — is 0 or at least 1. -/
theorem count_cases {w : Nat} (Z : FVec Ideal S64 .f32) (hZ : ∀ i, Z i = 0) (idx : IVec S256x1 w)
    (U : FVec Ideal S256 .f32) (hU : ∀ j, U j = 1) (k : Fin 64) :
    Host.scatterAdd dCount Z idx U (ix1 k) = 0 ∨ 1 ≤ Host.scatterAdd dCount Z idx U (ix1 k) := by
  simp only [Host.scatterAdd, Ideal.hostScatterAdd_def, Ideal.hostScatterAdd]
  rw [hZ, Finset.sum_congr rfl (fun j _ => hU j)]
  exact ChamferMath.count_zero_or_one_le _

/-! ## Eight frames per class -/

/-- The feature sums' scatter: a [8, 1024] block per label, added into the class the label names. -/
abbrev dSum8 := scatter_S64x8x1024_S256x1_S256x8x1024_12_0_0_1

/-- On the class axis an update block starts at its label, read signed and not clamped. -/
theorem sum8_start {w : Nat} (idx : IVec S256x1 w) (u : S256x8x1024.Idx) :
    dSum8.start u idx 0 = (idx (ix2 (⟨(u 0).val, (u 0).isLt⟩ : Fin 256) (0 : Fin 1))).toInt := by
  unfold ScatterDims.start
  rw [dif_pos (show (0 : Fin 3) ∈ dSum8.scatterDimsToOperandDims from List.mem_singleton.mpr rfl)]
  have hsi : dSum8.siIdx u ⟨List.idxOf (0 : Fin 3) dSum8.scatterDimsToOperandDims,
      List.idxOf_lt_length_iff.2 (List.mem_singleton.mpr rfl)⟩ = ix2 (⟨(u 0).val, (u 0).isLt⟩ : Fin 256) (0 : Fin 1) := by
    funext b; refine Fin.ext ?_
    match b with
    | ⟨0, _⟩ => rfl
    | ⟨1, _⟩ => rfl
  rw [hsi]

/-- Its window has no extent along the classes. -/
theorem sum8_window (u : S256x8x1024.Idx) : dSum8.window u 0 = 0 := by
  unfold ScatterDims.window
  rw [dif_neg]
  show ¬ (0 : Fin 3) ∈ S64x8x1024.kept ([0] : List (Fin 3))
  simp [Shape.kept]

/-- An update element that lands on a prototype element makes its own label land, in the count, on that element's class. -/
theorem sum8_lands_count {w : Nat} (idx : IVec S256x1 w) (u : S256x8x1024.Idx) (i : S64x8x1024.Idx)
    (h : dSum8.resultIdx? u idx = some i) :
    dCount.resultIdx? (ix1 (⟨(u 0).val, (u 0).isLt⟩ : Fin 256)) idx = some (ix1 (⟨(i 0).val, (i 0).isLt⟩ : Fin 64)) := by
  have s8 := sum8_start idx u
  have w8 := sum8_window u
  have s1 := count_start idx (⟨(u 0).val, (u 0).isLt⟩ : Fin 256)
  have w1 := count_window (⟨(u 0).val, (u 0).isLt⟩ : Fin 256)
  unfold ScatterDims.resultIdx? at h
  split at h
  · rename_i hin
    rw [Option.some.injEq] at h
    have e0 := congrArg Fin.val (congrFun h 0)
    have h0 := hin 0
    simp only [s8, w8] at e0 h0
    have hv : (idx (ix2 (⟨(u 0).val, (u 0).isLt⟩ : Fin 256) (0 : Fin 1))).toInt = ((i 0).val : Int) := by
      have : ((idx (ix2 (⟨(u 0).val, (u 0).isLt⟩ : Fin 256) (0 : Fin 1))).toInt + ((0 : Nat) : Int)).toNat = (i 0).val := e0
      omega
    have hlt : (i 0).val < 64 := (i 0).isLt
    unfold ScatterDims.resultIdx?
    have hc : ∀ a : Fin S64.rank, 0 ≤ dCount.start (ix1 (⟨(u 0).val, (u 0).isLt⟩ : Fin 256)) idx a + (dCount.window (ix1 (⟨(u 0).val, (u 0).isLt⟩ : Fin 256)) a : Nat)
        ∧ dCount.start (ix1 (⟨(u 0).val, (u 0).isLt⟩ : Fin 256)) idx a + (dCount.window (ix1 (⟨(u 0).val, (u 0).isLt⟩ : Fin 256)) a : Nat) < (S64.size a : Int) := by
      intro a
      match a with
      | ⟨0, _⟩ =>
        show 0 ≤ dCount.start _ idx 0 + (dCount.window _ 0 : Nat) ∧ dCount.start _ idx 0 + (dCount.window _ 0 : Nat) < ((64 : Nat) : Int)
        rw [s1, w1, hv]
        constructor <;> omega
    rw [dif_pos hc, Option.some.injEq]
    funext a
    refine Fin.ext ?_
    match a with
    | ⟨0, _⟩ =>
      show (dCount.start _ idx 0 + (dCount.window _ 0 : Nat)).toNat = (i 0).val
      rw [s1, w1, hv]; simp
  · cases h

/-- A class whose count is 0 receives no update element, so its feature sums are 0. -/
theorem sum8_zero_of_count_zero {w : Nat} (Z : FVec Ideal S64 .f32) (hZ : ∀ i, Z i = 0) (idx : IVec S256x1 w)
    (U : FVec Ideal S256 .f32) (hU : ∀ j, U j = 1) (Z8 : FVec Ideal S64x8x1024 .f32) (hZ8 : ∀ i, Z8 i = 0)
    (upd : FVec Ideal S256x8x1024 .f32) (k : Fin 64) (t : Fin 8) (d : Fin 1024)
    (h0 : Host.scatterAdd dCount Z idx U (ix1 k) = 0) : Host.scatterAdd dSum8 Z8 idx upd (ix3 k t d) = 0 := by
  simp only [Host.scatterAdd, Ideal.hostScatterAdd_def, Ideal.hostScatterAdd] at h0 ⊢
  rw [hZ, Finset.sum_congr rfl (fun j _ => hU j)] at h0
  have he := ChamferMath.count_eq_zero _ h0
  have hbig : (Finset.univ.filter fun u => dSum8.resultIdx? u idx = some (ix3 k t d)) = ∅ := by
    refine Finset.filter_eq_empty_iff.mpr fun u _ hu => ?_
    have hl := sum8_lands_count idx u (ix3 k t d) hu
    have hm : ix1 (⟨(u 0).val, (u 0).isLt⟩ : Fin 256) ∈ Finset.univ.filter (fun j => dCount.resultIdx? j idx = some (ix1 k)) :=
      Finset.mem_filter.mpr ⟨Finset.mem_univ _, hl⟩
    rw [he] at hm
    simp at hm
  rw [hbig, Finset.sum_empty, hZ8, add_zero]

/-- A [64, 8, 1] array spread along the last axis, read at (k, t, d). -/
theorem spreadRow8_apply (z : FVec Ideal S64x8x1 .f32) (k : Fin 64) (t : Fin 8) (d : Fin 1024) :
    broadcastInDim S64x8x1024 ![0, 1, 2] bcast_S64x8x1_S64x8x1024_0_1_2 z (ix3 k t d) = z (ix3 k t (0 : Fin 1)) :=
  broadcastInDim_apply _ bcast_S64x8x1_S64x8x1024_0_1_2 z (ix3 k t d) (ix3 k t (0 : Fin 1)) (fun a => match a with
    | ⟨0, _⟩ => by show k.val = if (64 : Nat) = 1 then 0 else k.val; rw [if_neg (by decide)]
    | ⟨1, _⟩ => by show t.val = if (8 : Nat) = 1 then 0 else t.val; rw [if_neg (by decide)]
    | ⟨2, _⟩ => by show 0 = if (1 : Nat) = 1 then 0 else d.val; rw [if_pos rfl])

/-- A [64, 8] array given a unit last axis, read at (k, t, 0). -/
theorem unitLast8_apply (z : FVec Ideal S64x8 .f32) (k : Fin 64) (t : Fin 8) :
    broadcastInDim S64x8x1 ![0, 1] bcast_S64x8_S64x8x1_0_1 z (ix3 k t (0 : Fin 1)) = z (ix2 k t) :=
  broadcastInDim_apply _ bcast_S64x8_S64x8x1_0_1 z (ix3 k t (0 : Fin 1)) (ix2 k t) (fun a => match a with
    | ⟨0, _⟩ => by show k.val = if (64 : Nat) = 1 then 0 else k.val; rw [if_neg (by decide)]
    | ⟨1, _⟩ => by show t.val = if (8 : Nat) = 1 then 0 else t.val; rw [if_neg (by decide)])

/-- A scalar spread over [64, 8, 1], read anywhere. -/
theorem spreadScalar8_apply (z : FVec Ideal S_ .f32) (i : S64x8x1.Idx) :
    broadcastInDim S64x8x1 ![] bcast_S_S64x8x1 z i = z ix0 :=
  broadcastInDim_apply _ bcast_S_S64x8x1 z i ix0 (fun a => a.elim0)

/-- The sum of squares along a row (k, t, ·), from 0. -/
theorem rowSquares8_apply (Y : FVec Ideal S64x8x1024 .f32) (k : Fin 64) (t : Fin 8) :
    Host.reduceAdd (mulf Y Y) (constant S_ .f32 0x00000000#32) reducesTo_S64x8x1024_S64x8_d2 h_S_ (ix2 k t)
      = 0 + ∑ d' : Fin 1024, Y (ix3 k t d') * Y (ix3 k t d') := by
  simp only [Host.reduceAdd, Ideal.hostReduceAdd_def]
  rw [Ideal.hostReduceAdd_single reducesTo_S64x8x1024_S64x8_d2 (by decide)]
  refine congrArg₂ (· + ·) ChamferMath.ofBits_zero (Finset.sum_congr rfl fun d' _ => ?_)
  rw [mulf_apply]
  have ei : (by decide : S64x8x1024.Reduces [2] S64x8).lift (ix2 k t) d' = ix3 k t (⟨d'.val, d'.isLt⟩ : Fin 1024) :=
    funext fun a => Fin.ext (by match a with | ⟨0, _⟩ => rfl | ⟨1, _⟩ => rfl | ⟨2, _⟩ => rfl)
  rw [ei]
  rfl

/-- A row-normalized array read at (k, t, d): the element over max(√(0 + Σ_d' row²), ε). -/
theorem rowNorm8_apply (Y : FVec Ideal S64x8x1024 .f32) (k : Fin 64) (t : Fin 8) (d : Fin 1024) :
    rowNorm8 (F := Ideal) Y (ix3 k t d)
      = Ideal.div (Y (ix3 k t d)) (max (Ideal.sqrt (0 + ∑ d' : Fin 1024, Y (ix3 k t d') * Y (ix3 k t d'))) eps) := by
  unfold rowNorm8
  show Ideal.div (Y (ix3 k t d)) _ = _
  refine congrArg (Ideal.div (Y (ix3 k t d))) ?_
  rw [spreadRow8_apply, maximumf_apply, hostSqrt_apply, unitLast8_apply, spreadScalar8_apply, rowSquares8_apply]
  rfl

/-- A per-class number spread over [64, 8, 1024], read at (k, t, d). -/
theorem perClass8_apply (c : FVec Ideal S64 .f32) (k : Fin 64) (t : Fin 8) (d : Fin 1024) :
    perClass8 (F := Ideal) c (ix3 k t d) = c (ix1 k) := by
  unfold perClass8
  rw [broadcastInDim_apply _ bcast_S64x1x1_S64x8x1024_0_1_2 _ (ix3 k t d) (ix3 k (0 : Fin 1) (0 : Fin 1)) (fun a => match a with
    | ⟨0, _⟩ => by show k.val = if (64 : Nat) = 1 then 0 else k.val; rw [if_neg (by decide)]
    | ⟨1, _⟩ => by show 0 = if (1 : Nat) = 1 then 0 else t.val; rw [if_pos rfl]
    | ⟨2, _⟩ => by show 0 = if (1 : Nat) = 1 then 0 else d.val; rw [if_pos rfl])]
  exact broadcastInDim_apply _ bcast_S64_S64x1x1_0 c (ix3 k (0 : Fin 1) (0 : Fin 1)) (ix1 k) (fun a => match a with
    | ⟨0, _⟩ => by show k.val = if (64 : Nat) = 1 then 0 else k.val; rw [if_neg (by decide)])

/-- The normalized prototypes do not see the guard on the count: 8 frames per class. -/
theorem protoNorm8_guard (x0 : (⟨S256x8x1024, .f32⟩ : BufTy).Contents (Elt Ideal)) (x2 : (⟨S256, .i32⟩ : BufTy).Contents (Elt Ideal)) :
    rowNorm8 (F := Ideal) (Host.divf (val_main_v2 (F := Ideal) x0 x2) (perClass8 (guarded (val_main_v6 (F := Ideal) x2))))
      = val_main_v25 (F := Ideal) x0 x2 := by
  rw [ref_protoNorm8]
  funext i
  obtain ⟨k, t, d, rfl⟩ : ∃ (k : Fin 64) (t : Fin 8) (d : Fin 1024), i = ix3 k t d := ⟨i 0, i 1, i 2, eq_ix3 i⟩
  rw [rowNorm8_apply, rowNorm8_apply]
  simp only [hostDivf_apply', perClass8_apply, guarded_apply]
  have hZ1 : ∀ i, val_main_v4 (F := Ideal) i = 0 := fun i => by
    rw [val_main_v4_apply, val_main_cst_1_apply]; exact ChamferMath.ofBits_zero
  have hU : ∀ j, val_main_v3 (F := Ideal) j = 1 := fun j => by
    rw [val_main_v3_apply, val_main_cst_0_apply]; exact ofBits_one
  have hZ : ∀ i, val_main_v0 (F := Ideal) i = 0 := fun i => by
    rw [val_main_v0_apply, val_main_cst_apply]; exact ChamferMath.ofBits_zero
  have hc : val_main_v6 (F := Ideal) x2 (ix1 k) = 0 ∨ 1 ≤ val_main_v6 (F := Ideal) x2 (ix1 k) :=
    count_cases (val_main_v4 (F := Ideal)) hZ1 (val_main_v5 (F := Ideal) x2) (val_main_v3 (F := Ideal)) hU k
  have hx : val_main_v6 (F := Ideal) x2 (ix1 k) = 0 → ∀ d', val_main_v2 (F := Ideal) x0 x2 (ix3 k t d') = 0 := fun h0 d' =>
    sum8_zero_of_count_zero (val_main_v4 (F := Ideal)) hZ1 (val_main_v5 (F := Ideal) x2) (val_main_v3 (F := Ideal)) hU
      (val_main_v0 (F := Ideal)) hZ (x0) k t d' h0
  exact ChamferMath.normalized_guard (D := 1024) (by norm_num) (val_main_v6 (F := Ideal) x2 (ix1 k)) hc
    (fun d' => val_main_v2 (F := Ideal) x0 x2 (ix3 k t d')) hx eps eps_pos d

/-! ## Three frames per class -/

/-- The feature sums' scatter: a [3, 1024] block per label, added into the class the label names. -/
abbrev dSum3 := scatter_S64x3x1024_S256x1_S256x3x1024_12_0_0_1

/-- On the class axis an update block starts at its label, read signed and not clamped. -/
theorem sum3_start {w : Nat} (idx : IVec S256x1 w) (u : S256x3x1024.Idx) :
    dSum3.start u idx 0 = (idx (ix2 (⟨(u 0).val, (u 0).isLt⟩ : Fin 256) (0 : Fin 1))).toInt := by
  unfold ScatterDims.start
  rw [dif_pos (show (0 : Fin 3) ∈ dSum3.scatterDimsToOperandDims from List.mem_singleton.mpr rfl)]
  have hsi : dSum3.siIdx u ⟨List.idxOf (0 : Fin 3) dSum3.scatterDimsToOperandDims,
      List.idxOf_lt_length_iff.2 (List.mem_singleton.mpr rfl)⟩ = ix2 (⟨(u 0).val, (u 0).isLt⟩ : Fin 256) (0 : Fin 1) := by
    funext b; refine Fin.ext ?_
    match b with
    | ⟨0, _⟩ => rfl
    | ⟨1, _⟩ => rfl
  rw [hsi]

/-- Its window has no extent along the classes. -/
theorem sum3_window (u : S256x3x1024.Idx) : dSum3.window u 0 = 0 := by
  unfold ScatterDims.window
  rw [dif_neg]
  show ¬ (0 : Fin 3) ∈ S64x3x1024.kept ([0] : List (Fin 3))
  simp [Shape.kept]

/-- An update element that lands on a prototype element makes its own label land, in the count, on that element's class. -/
theorem sum3_lands_count {w : Nat} (idx : IVec S256x1 w) (u : S256x3x1024.Idx) (i : S64x3x1024.Idx)
    (h : dSum3.resultIdx? u idx = some i) :
    dCount.resultIdx? (ix1 (⟨(u 0).val, (u 0).isLt⟩ : Fin 256)) idx = some (ix1 (⟨(i 0).val, (i 0).isLt⟩ : Fin 64)) := by
  have s8 := sum3_start idx u
  have w8 := sum3_window u
  have s1 := count_start idx (⟨(u 0).val, (u 0).isLt⟩ : Fin 256)
  have w1 := count_window (⟨(u 0).val, (u 0).isLt⟩ : Fin 256)
  unfold ScatterDims.resultIdx? at h
  split at h
  · rename_i hin
    rw [Option.some.injEq] at h
    have e0 := congrArg Fin.val (congrFun h 0)
    have h0 := hin 0
    simp only [s8, w8] at e0 h0
    have hv : (idx (ix2 (⟨(u 0).val, (u 0).isLt⟩ : Fin 256) (0 : Fin 1))).toInt = ((i 0).val : Int) := by
      have : ((idx (ix2 (⟨(u 0).val, (u 0).isLt⟩ : Fin 256) (0 : Fin 1))).toInt + ((0 : Nat) : Int)).toNat = (i 0).val := e0
      omega
    have hlt : (i 0).val < 64 := (i 0).isLt
    unfold ScatterDims.resultIdx?
    have hc : ∀ a : Fin S64.rank, 0 ≤ dCount.start (ix1 (⟨(u 0).val, (u 0).isLt⟩ : Fin 256)) idx a + (dCount.window (ix1 (⟨(u 0).val, (u 0).isLt⟩ : Fin 256)) a : Nat)
        ∧ dCount.start (ix1 (⟨(u 0).val, (u 0).isLt⟩ : Fin 256)) idx a + (dCount.window (ix1 (⟨(u 0).val, (u 0).isLt⟩ : Fin 256)) a : Nat) < (S64.size a : Int) := by
      intro a
      match a with
      | ⟨0, _⟩ =>
        show 0 ≤ dCount.start _ idx 0 + (dCount.window _ 0 : Nat) ∧ dCount.start _ idx 0 + (dCount.window _ 0 : Nat) < ((64 : Nat) : Int)
        rw [s1, w1, hv]
        constructor <;> omega
    rw [dif_pos hc, Option.some.injEq]
    funext a
    refine Fin.ext ?_
    match a with
    | ⟨0, _⟩ =>
      show (dCount.start _ idx 0 + (dCount.window _ 0 : Nat)).toNat = (i 0).val
      rw [s1, w1, hv]; simp
  · cases h

/-- A class whose count is 0 receives no update element, so its feature sums are 0. -/
theorem sum3_zero_of_count_zero {w : Nat} (Z : FVec Ideal S64 .f32) (hZ : ∀ i, Z i = 0) (idx : IVec S256x1 w)
    (U : FVec Ideal S256 .f32) (hU : ∀ j, U j = 1) (Z8 : FVec Ideal S64x3x1024 .f32) (hZ8 : ∀ i, Z8 i = 0)
    (upd : FVec Ideal S256x3x1024 .f32) (k : Fin 64) (t : Fin 3) (d : Fin 1024)
    (h0 : Host.scatterAdd dCount Z idx U (ix1 k) = 0) : Host.scatterAdd dSum3 Z8 idx upd (ix3 k t d) = 0 := by
  simp only [Host.scatterAdd, Ideal.hostScatterAdd_def, Ideal.hostScatterAdd] at h0 ⊢
  rw [hZ, Finset.sum_congr rfl (fun j _ => hU j)] at h0
  have he := ChamferMath.count_eq_zero _ h0
  have hbig : (Finset.univ.filter fun u => dSum3.resultIdx? u idx = some (ix3 k t d)) = ∅ := by
    refine Finset.filter_eq_empty_iff.mpr fun u _ hu => ?_
    have hl := sum3_lands_count idx u (ix3 k t d) hu
    have hm : ix1 (⟨(u 0).val, (u 0).isLt⟩ : Fin 256) ∈ Finset.univ.filter (fun j => dCount.resultIdx? j idx = some (ix1 k)) :=
      Finset.mem_filter.mpr ⟨Finset.mem_univ _, hl⟩
    rw [he] at hm
    simp at hm
  rw [hbig, Finset.sum_empty, hZ8, add_zero]

/-- A [64, 3, 1] array spread along the last axis, read at (k, t, d). -/
theorem spreadRow3_apply (z : FVec Ideal S64x3x1 .f32) (k : Fin 64) (t : Fin 3) (d : Fin 1024) :
    broadcastInDim S64x3x1024 ![0, 1, 2] bcast_S64x3x1_S64x3x1024_0_1_2 z (ix3 k t d) = z (ix3 k t (0 : Fin 1)) :=
  broadcastInDim_apply _ bcast_S64x3x1_S64x3x1024_0_1_2 z (ix3 k t d) (ix3 k t (0 : Fin 1)) (fun a => match a with
    | ⟨0, _⟩ => by show k.val = if (64 : Nat) = 1 then 0 else k.val; rw [if_neg (by decide)]
    | ⟨1, _⟩ => by show t.val = if (3 : Nat) = 1 then 0 else t.val; rw [if_neg (by decide)]
    | ⟨2, _⟩ => by show 0 = if (1 : Nat) = 1 then 0 else d.val; rw [if_pos rfl])

/-- A [64, 3] array given a unit last axis, read at (k, t, 0). -/
theorem unitLast3_apply (z : FVec Ideal S64x3 .f32) (k : Fin 64) (t : Fin 3) :
    broadcastInDim S64x3x1 ![0, 1] bcast_S64x3_S64x3x1_0_1 z (ix3 k t (0 : Fin 1)) = z (ix2 k t) :=
  broadcastInDim_apply _ bcast_S64x3_S64x3x1_0_1 z (ix3 k t (0 : Fin 1)) (ix2 k t) (fun a => match a with
    | ⟨0, _⟩ => by show k.val = if (64 : Nat) = 1 then 0 else k.val; rw [if_neg (by decide)]
    | ⟨1, _⟩ => by show t.val = if (3 : Nat) = 1 then 0 else t.val; rw [if_neg (by decide)])

/-- A scalar spread over [64, 3, 1], read anywhere. -/
theorem spreadScalar3_apply (z : FVec Ideal S_ .f32) (i : S64x3x1.Idx) :
    broadcastInDim S64x3x1 ![] bcast_S_S64x3x1 z i = z ix0 :=
  broadcastInDim_apply _ bcast_S_S64x3x1 z i ix0 (fun a => a.elim0)

/-- The sum of squares along a row (k, t, ·), from 0. -/
theorem rowSquares3_apply (Y : FVec Ideal S64x3x1024 .f32) (k : Fin 64) (t : Fin 3) :
    Host.reduceAdd (mulf Y Y) (constant S_ .f32 0x00000000#32) reducesTo_S64x3x1024_S64x3_d2 h_S_ (ix2 k t)
      = 0 + ∑ d' : Fin 1024, Y (ix3 k t d') * Y (ix3 k t d') := by
  simp only [Host.reduceAdd, Ideal.hostReduceAdd_def]
  rw [Ideal.hostReduceAdd_single reducesTo_S64x3x1024_S64x3_d2 (by decide)]
  refine congrArg₂ (· + ·) ChamferMath.ofBits_zero (Finset.sum_congr rfl fun d' _ => ?_)
  rw [mulf_apply]
  have ei : (by decide : S64x3x1024.Reduces [2] S64x3).lift (ix2 k t) d' = ix3 k t (⟨d'.val, d'.isLt⟩ : Fin 1024) :=
    funext fun a => Fin.ext (by match a with | ⟨0, _⟩ => rfl | ⟨1, _⟩ => rfl | ⟨2, _⟩ => rfl)
  rw [ei]
  rfl

/-- A row-normalized array read at (k, t, d): the element over max(√(0 + Σ_d' row²), ε). -/
theorem rowNorm3_apply (Y : FVec Ideal S64x3x1024 .f32) (k : Fin 64) (t : Fin 3) (d : Fin 1024) :
    rowNorm3 (F := Ideal) Y (ix3 k t d)
      = Ideal.div (Y (ix3 k t d)) (max (Ideal.sqrt (0 + ∑ d' : Fin 1024, Y (ix3 k t d') * Y (ix3 k t d'))) eps) := by
  unfold rowNorm3
  show Ideal.div (Y (ix3 k t d)) _ = _
  refine congrArg (Ideal.div (Y (ix3 k t d))) ?_
  rw [spreadRow3_apply, maximumf_apply, hostSqrt_apply, unitLast3_apply, spreadScalar3_apply, rowSquares3_apply]
  rfl

/-- A per-class number spread over [64, 3, 1024], read at (k, t, d). -/
theorem perClass3_apply (c : FVec Ideal S64 .f32) (k : Fin 64) (t : Fin 3) (d : Fin 1024) :
    perClass3 (F := Ideal) c (ix3 k t d) = c (ix1 k) := by
  unfold perClass3
  rw [broadcastInDim_apply _ bcast_S64x1x1_S64x3x1024_0_1_2 _ (ix3 k t d) (ix3 k (0 : Fin 1) (0 : Fin 1)) (fun a => match a with
    | ⟨0, _⟩ => by show k.val = if (64 : Nat) = 1 then 0 else k.val; rw [if_neg (by decide)]
    | ⟨1, _⟩ => by show 0 = if (1 : Nat) = 1 then 0 else t.val; rw [if_pos rfl]
    | ⟨2, _⟩ => by show 0 = if (1 : Nat) = 1 then 0 else d.val; rw [if_pos rfl])]
  exact broadcastInDim_apply _ bcast_S64_S64x1x1_0 c (ix3 k (0 : Fin 1) (0 : Fin 1)) (ix1 k) (fun a => match a with
    | ⟨0, _⟩ => by show k.val = if (64 : Nat) = 1 then 0 else k.val; rw [if_neg (by decide)])

/-- The normalized prototypes do not see the guard on the count: 3 frames per class. -/
theorem protoNorm3_guard (x0 : (⟨S256x8x1024, .f32⟩ : BufTy).Contents (Elt Ideal)) (x2 : (⟨S256, .i32⟩ : BufTy).Contents (Elt Ideal)) :
    rowNorm3 (F := Ideal) (Host.divf (val_main_v69 (F := Ideal) x0 x2) (perClass3 (guarded (val_main_v73 (F := Ideal) x2))))
      = val_main_v92 (F := Ideal) x0 x2 := by
  rw [ref_protoNorm3]
  funext i
  obtain ⟨k, t, d, rfl⟩ : ∃ (k : Fin 64) (t : Fin 3) (d : Fin 1024), i = ix3 k t d := ⟨i 0, i 1, i 2, eq_ix3 i⟩
  rw [rowNorm3_apply, rowNorm3_apply]
  simp only [hostDivf_apply', perClass3_apply, guarded_apply]
  have hZ1 : ∀ i, val_main_v71 (F := Ideal) i = 0 := fun i => by
    rw [val_main_v71_apply, val_main_cst_25_apply]; exact ChamferMath.ofBits_zero
  have hU : ∀ j, val_main_v70 (F := Ideal) j = 1 := fun j => by
    rw [val_main_v70_apply, val_main_cst_24_apply]; exact ofBits_one
  have hZ : ∀ i, val_main_v67 (F := Ideal) i = 0 := fun i => by
    rw [val_main_v67_apply, val_main_cst_23_apply]; exact ChamferMath.ofBits_zero
  have hc : val_main_v73 (F := Ideal) x2 (ix1 k) = 0 ∨ 1 ≤ val_main_v73 (F := Ideal) x2 (ix1 k) :=
    count_cases (val_main_v71 (F := Ideal)) hZ1 (val_main_v72 (F := Ideal) x2) (val_main_v70 (F := Ideal)) hU k
  have hx : val_main_v73 (F := Ideal) x2 (ix1 k) = 0 → ∀ d', val_main_v69 (F := Ideal) x0 x2 (ix3 k t d') = 0 := fun h0 d' =>
    sum3_zero_of_count_zero (val_main_v71 (F := Ideal)) hZ1 (val_main_v72 (F := Ideal) x2) (val_main_v70 (F := Ideal)) hU
      (val_main_v67 (F := Ideal)) hZ (val_main_v50 (F := Ideal) x0) k t d' h0
  exact ChamferMath.normalized_guard (D := 1024) (by norm_num) (val_main_v73 (F := Ideal) x2 (ix1 k)) hc
    (fun d' => val_main_v69 (F := Ideal) x0 x2 (ix3 k t d')) hx eps eps_pos d

end Cert.ReferenceIdeal.Guard
end
-- ==== Proof.lean ====
/-
  The five claims.

  The kernel program and its idealization each run as: host operations, a pipelined launch over 16 blocks of query
  rows, host operations, a second launch, host operations. Each launch's body only loads its two input blocks and
  stores its two output blocks, no host operation or launch writes an argument array, and the run ends with every
  buffer at a fold of these steps from the launch memory: the two frames. The reference is a line of host operations:
  its frame is its run. The idealization rewrote nothing, so the preservation claim is trivial.
  For the algebraic claim the idealized kernel program's results are read off the fold: each launch's outputs at
  (q, k) are the sum over query frames of the minimum over support frames, and the sum over support frames of the
  minimum over query frames, of 1 − ⟨normalized query frame, normalized class prototype frame⟩ — the reference's
  reductions of its distance tensor. The only difference between the programs, dividing the class sums by
  max(count, 1) instead of the count, does not survive the normalization of the prototypes: for a class without
  members both normalized rows are 0.
-/
import proofs.«110043_j29283087024820_2_alg».proof.Defs
import proofs.«110043_j29283087024820_2_alg».proof.Proof.Gen.Kernel
import proofs.«110043_j29283087024820_2_alg».proof.Proof.Gen.Kernel.Skeleton
import proofs.«110043_j29283087024820_2_alg».proof.Proof.Gen.Kernel.Launch
import proofs.«110043_j29283087024820_2_alg».proof.Proof.Gen.Kernel.Regions
import proofs.«110043_j29283087024820_2_alg».proof.Proof.Gen.Kernel.Points
import proofs.«110043_j29283087024820_2_alg».proof.Proof.Gen.KernelIdeal
import proofs.«110043_j29283087024820_2_alg».proof.Proof.Gen.KernelIdeal.Skeleton
import proofs.«110043_j29283087024820_2_alg».proof.Proof.Gen.KernelIdeal.Launch
import proofs.«110043_j29283087024820_2_alg».proof.Proof.Gen.KernelIdeal.Regions
import proofs.«110043_j29283087024820_2_alg».proof.Proof.Gen.KernelIdeal.Points
import proofs.«110043_j29283087024820_2_alg».proof.Proof.Gen.ReferenceIdeal
import proofs.«110043_j29283087024820_2_alg».proof.Proof.Gen.Pre_finite_inputs
import proofs.«110043_j29283087024820_2_alg».proof.Proof.Gen.ReferenceIdeal.Run
import proofs.«110043_j29283087024820_2_alg».proof.Proof.Gen.ReferenceIdeal.Read
import proofs.«110043_j29283087024820_2_alg».proof.Proof.KernelRun
import proofs.«110043_j29283087024820_2_alg».proof.Proof.KernelIdealRun
import proofs.«110043_j29283087024820_2_alg».proof.Proof.KernelIdealValue
import proofs.«110043_j29283087024820_2_alg».proof.Proof.PrototypeGuard
import Idealize.ShloMosaic.Adequacy
import Idealize.ShloMosaic.Init

set_option maxRecDepth 65536

noncomputable section

namespace Cert.Proof

open Idealize.ShloMosaic Idealize.ShloMosaic.TcCoe Idealize.SL.Sem

theorem frame_kernel : Cert.frame_Kernel := fun m ρ _ => Cert.Kernel.Chamfer.frame (F := Bits) m ρ

theorem frame_kernelIdeal : Cert.frame_KernelIdeal := fun m ρ _ => Cert.KernelIdeal.Chamfer.frame (F := Ideal) m ρ

theorem frame_reference : Cert.frame_ReferenceIdeal := fun m ρ _ =>
  (θ_run Cert.ReferenceIdeal.defs _ _).mono (fun _ h c => (h c).2.2.2.2) (Cert.ReferenceIdeal.Value.run (F := Ideal) m ρ)

theorem preserves : Cert.preserves_Kernel_KernelIdeal := trivial

/-- From memories agreeing on the arguments both idealized programs end with the same four results: the kernel
    program's are the last fold at its result buffers, which are the reference's stages of the same arguments. -/
theorem algebraic : Cert.algebraic_KernelIdeal_ReferenceIdeal := by
  intro m ρ m' ρ' _ hagree
  refine ⟨fun c => Cert.KernelIdeal.Chamfer.W5 m ρ c (Proc.devRef .tc Cert.KernelIdeal.main_v128), fun c => Cert.KernelIdeal.Chamfer.W5 m ρ c (Proc.devRef .tc Cert.KernelIdeal.main_v129),
    fun c => Cert.KernelIdeal.Chamfer.W5 m ρ c (Proc.devRef .tc Cert.KernelIdeal.main_v130), fun c => Cert.KernelIdeal.Chamfer.W5 m ρ c (Proc.devRef .tc Cert.KernelIdeal.main_v131), ?_, ?_⟩
  · exact (θ_run Cert.KernelIdeal.defs _ _).mono (fun r h c =>
      ⟨h c _ (Cert.KernelIdeal.Chamfer.mem_uc Cert.KernelIdeal.main_v128 (by decide)), h c _ (Cert.KernelIdeal.Chamfer.mem_uc Cert.KernelIdeal.main_v129 (by decide)),
       h c _ (Cert.KernelIdeal.Chamfer.mem_uc Cert.KernelIdeal.main_v130 (by decide)), h c _ (Cert.KernelIdeal.Chamfer.mem_uc Cert.KernelIdeal.main_v131 (by decide)),
       (h c _ (Cert.KernelIdeal.Chamfer.mem_uc Cert.KernelIdeal.main_arg0 (by decide))).trans (Cert.KernelIdeal.Chamfer.W5_main_arg0 m ρ c),
       (h c _ (Cert.KernelIdeal.Chamfer.mem_uc Cert.KernelIdeal.main_arg1 (by decide))).trans (Cert.KernelIdeal.Chamfer.W5_main_arg1 m ρ c),
       (h c _ (Cert.KernelIdeal.Chamfer.mem_uc Cert.KernelIdeal.main_arg2 (by decide))).trans (Cert.KernelIdeal.Chamfer.W5_main_arg2 m ρ c),
       (h c _ (Cert.KernelIdeal.Chamfer.mem_uc Cert.KernelIdeal.main_arg3 (by decide))).trans (Cert.KernelIdeal.Chamfer.W5_main_arg3 m ρ c),
       (h c _ (Cert.KernelIdeal.Chamfer.mem_uc Cert.KernelIdeal.main_arg4 (by decide))).trans (Cert.KernelIdeal.Chamfer.W5_main_arg4 m ρ c)⟩) (Cert.KernelIdeal.Chamfer.run_all (F := Ideal) m ρ)
  · refine (θ_run Cert.ReferenceIdeal.defs _ _).mono (fun r h c => ?_) (Cert.ReferenceIdeal.Value.run (F := Ideal) m' ρ')
    obtain ⟨h0, h1, h2, h3, ha0, ha1, ha2, ha3, ha4⟩ := h c
    obtain ⟨e0, e1, e2, e3, e4⟩ := hagree c
    refine ⟨?_, ?_, ?_, ?_, ha0, ha1, ha2, ha3, ha4⟩
    · rw [h0, Cert.ReferenceIdeal.Read.val_main_v128_eq, e0, e1, e2, e3, e4]
      exact (Cert.KernelIdeal.Chamfer.out0_eq m ρ c Cert.ReferenceIdeal.Guard.protoNorm8_guard Cert.ReferenceIdeal.Guard.protoNorm3_guard).symm
    · rw [h1, Cert.ReferenceIdeal.Read.val_main_v129_eq, e0, e1, e2]
      exact (Cert.KernelIdeal.Chamfer.out1_eq m ρ c Cert.ReferenceIdeal.Guard.protoNorm8_guard).symm
    · rw [h2, Cert.ReferenceIdeal.Read.val_main_v130_eq, e0, e1, e2]
      exact (Cert.KernelIdeal.Chamfer.out2_eq m ρ c Cert.ReferenceIdeal.Guard.protoNorm3_guard).symm
    · rw [h3, Cert.ReferenceIdeal.Read.val_main_v131_eq, e0, e1, e2]
      exact (Cert.KernelIdeal.Chamfer.out3_eq m ρ c Cert.ReferenceIdeal.Guard.protoNorm3_guard).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
